-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x128 : Shape := ⟨3, ![64, 1024, 128]⟩
abbrev S_ : Shape := ⟨0, ![]⟩

class Facts : Prop where
  bcast_S_S64x1024x128 : S_.BroadcastsInDim S64x1024x128 (![] : Fin 0 → Fin S64x1024x128.rank)
  reducesTo_S64x1024x128_S_d0_1_2 : S64x1024x128.ReducesTo [0, 1, 2] S_
  h_S_ : 0 < S_.numel

variable [Facts]

def fn {F : FTy → Type} [FloatOps F] (main_arg0 : FVec F S64x1024x128 .f32) : IVec S_ 1 :=
  let main_v0 : FVec F S64x1024x128 .f32 := Host.absf main_arg0
  let main_cst : FVec F S_ .f32 := constant S_ .f32 0x7F800000#32
  let main_v1 : FVec F S64x1024x128 .f32 := broadcastInDim S64x1024x128 ![] bcast_S_S64x1024x128 main_cst
  let main_v2 : IVec S64x1024x128 1 := cmpf .olt main_v0 main_v1
  let main_c : IVec S_ 1 := constantI S_ 1 1#1
  let main_v3 : IVec S_ 1 := (fun x v => Host.reduce IntOp.andi x v reducesTo_S64x1024x128_S_d0_1_2 h_S_) main_v2 main_c
  main_v3
-- ==== Kernel.lean ====
abbrev S64x1024x128 : Shape := ⟨3, ![64, 1024, 128]⟩
abbrev S1x1 : Shape := ⟨2, ![1, 1]⟩
abbrev S8x1024x128 : Shape := ⟨3, ![8, 1024, 128]⟩
abbrev S4x256 : Shape := ⟨2, ![4, 256]⟩
abbrev S8x1024 : Shape := ⟨2, ![8, 1024]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩
abbrev S1024x256 : Shape := ⟨2, ![1024, 256]⟩
abbrev S256x256 : Shape := ⟨2, ![256, 256]⟩
abbrev S8x256 : Shape := ⟨2, ![8, 256]⟩
abbrev S128x128 : Shape := ⟨2, ![128, 128]⟩
abbrev S1x256 : Shape := ⟨2, ![1, 256]⟩
abbrev S128 : Shape := ⟨1, ![128]⟩
abbrev S1x128 : Shape := ⟨2, ![1, 128]⟩
abbrev S1x4x256 : Shape := ⟨3, ![1, 4, 256]⟩
abbrev S1 : Shape := ⟨1, ![1]⟩
abbrev S1x1x1 : Shape := ⟨3, ![1, 1, 1]⟩
abbrev S_ : Shape := ⟨0, ![]⟩

abbrev nBuf : Space → Nat
  | .hbm => 3
  | .vmem => 4
  | .smem => 0
  | _ => 0

abbrev bufTy : (tb : Table) → Fin (tcTables nBuf tb) → BufTy
  | .hbm, ⟨0, _⟩ => ⟨S64x1024x128, .f32⟩
  | .hbm, ⟨1, _⟩ => ⟨S1x1, .f32⟩
  | .hbm, ⟨2, _⟩ => ⟨S_, .f32⟩
  | .local _ .vmem, ⟨0, _⟩ => ⟨S8x1024x128, .f32⟩
  | .local _ .vmem, ⟨1, _⟩ => ⟨S8x1024x128, .f32⟩
  | .local _ .vmem, ⟨2, _⟩ => ⟨S1x1, .f32⟩
  | .local _ .vmem, ⟨3, _⟩ => ⟨S4x256, .f32⟩
  | _, _ => ⟨S64x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c7_i32 : BitVec 32 := 7#32
  let v181 : BitVec 1 := Scalar.cmpi .eq arg0 c7_i32
  let v182 : BitVec 32 := Scalar.extui v181
  let c0_i32_71 : BitVec 32 := 0#32
  let v183 : BitVec 1 := Scalar.cmpi .ne v182 c0_i32_71
  v183

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S8x1024x128_S1x1024x128_0_0_0 : ∀ a, (![0, 0, 0] : Fin 3 → Nat) a + S1x1024x128.size a ≤ S8x1024x128.size a
  h_S1x1024x128 : 0 < S1x1024x128.numel
  shapeCasts_S1x1024x128_S1024x128 : S1x1024x128.ShapeCasts S1024x128
  inb_S8x1024x128_S1x1024x128_1_0_0 : ∀ a, (![1, 0, 0] : Fin 3 → Nat) a + S1x1024x128.size a ≤ S8x1024x128.size a
  reduces_S1024x128_S1024 : S1024x128.Reduces [1] S1024
  shapeCasts_S1024_S1024x1 : S1024.ShapeCasts S1024x1
  broadcasts_S1024x1_S1024x128 : S1024x1.Broadcasts S1024x128
  concatenates_S1024x128_S1024x128_S1024x256_d1 : Shape.Concatenates [S1024x128, S1024x128] S1024x256 1
  bitsLt_bf16_f32 : FTy.bits .bf16 < FTy.bits .f32
  slices_S256x256_o0_0_S128x128 : S256x256.Slices ![0, 0] S128x128
  slices_S256x256_o128_128_S128x128 : S256x256.Slices ![128, 128] S128x128
  slices_S8x256_o0_0_S1x256 : S8x256.Slices ![0, 0] S1x256
  reduces_S128x128_S128 : S128x128.Reduces [0] S128
  shapeCasts_S128_S1x128 : S128.ShapeCasts S1x128
  concatenates_S1x128_S1x128_S1x256_d1 : Shape.Concatenates [S1x128, S1x128] S1x256 1
  inb_S4x256_S1x256_0_0 : ∀ a, (![0, 0] : Fin 2 → Nat) a + S1x256.size a ≤ S4x256.size a
  h_S1x256 : 0 < S1x256.numel
  shapeCasts_S1x256_S1x256 : S1x256.ShapeCasts S1x256
  inb_S8x1024x128_S1x1024x128_2_0_0 : ∀ a, (![2, 0, 0] : Fin 3 → Nat) a + S1x1024x128.size a ≤ S8x1024x128.size a
  inb_S8x1024x128_S1x1024x128_3_0_0 : ∀ a, (![3, 0, 0] : Fin 3 → Nat) a + S1x1024x128.size a ≤ S8x1024x128.size a
  inb_S4x256_S1x256_1_0 : ∀ a, (![1, 0] : Fin 2 → Nat) a + S1x256.size a ≤ S4x256.size a
  inb_S8x1024x128_S1x1024x128_4_0_0 : ∀ a, (![4, 0, 0] : Fin 3 → Nat) a + S1x1024x128.size a ≤ S8x1024x128.size a
  inb_S8x1024x128_S1x1024x128_5_0_0 : ∀ a, (![5, 0, 0] : Fin 3 → Nat) a + S1x1024x128.size a ≤ S8x1024x128.size a
  inb_S4x256_S1x256_2_0 : ∀ a, (![2, 0] : Fin 2 → Nat) a + S1x256.size a ≤ S4x256.size a
  inb_S8x1024x128_S1x1024x128_6_0_0 : ∀ a, (![6, 0, 0] : Fin 3 → Nat) a + S1x1024x128.size a ≤ S8x1024x128.size a
  inb_S8x1024x128_S1x1024x128_7_0_0 : ∀ a, (![7, 0, 0] : Fin 3 → Nat) a + S1x1024x128.size a ≤ S8x1024x128.size a
  inb_S4x256_S1x256_3_0 : ∀ a, (![3, 0] : Fin 2 → Nat) a + S1x256.size a ≤ S4x256.size a
  inb_S4x256_S4x256_0_0 : ∀ a, (![0, 0] : Fin 2 → Nat) a + S4x256.size a ≤ S4x256.size a
  h_S4x256 : 0 < S4x256.numel
  shapeCasts_S4x256_S1x4x256 : S4x256.ShapeCasts S1x4x256
  reduces_S1x4x256_S1 : S1x4x256.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  dot_S1024x256_S1024x256_S256x256_0_0_1_1_n_n_wf : DotDims.WF S1024x256 S1024x256 S256x256 [0] [0] [1] [1] [] []
  dot_S8x1024_S1024x256_S8x256_1_0_0_1_n_n_wf : DotDims.WF S8x1024 S1024x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1024x128.size a ≤ S64x1024x128.size a
  hwx0_0 : ∀ i : grid0.Coords, EltTy.bits .f32 = 32 ∨ (Rect.block (s := S64x1024x128) S8x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf
def dot_S8x1024_S1024x256_S8x256_1_0_0_1_n_n : DotDims S8x1024 S1024x256 S8x256 where
  lhsContracting := [1]
  rhsContracting := [0]
  lhsNonContracting := [0]
  rhsNonContracting := [1]
  lhsBatch := []
  rhsBatch := []
  wf := dot_S8x1024_S1024x256_S8x256_1_0_0_1_n_n_wf

abbrev win0_0 : Pipeline.Window sig grid0 :=
  Pipeline.Window.ofSpec (Memref.whole main_arg0) S8x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond1 i == 1#1) | ⟨_ + 2, h⟩ => absurd h (Nat.not_lt.2 (Nat.le_add_left _ _))

class Facts : Prop extends Facts₀ where

variable [Facts]
-- ==== ReferenceIdeal.lean ====
abbrev S64x1024x128 : Shape := ⟨3, ![64, 1024, 128]⟩
abbrev S_ : Shape := ⟨0, ![]⟩
abbrev S64x1024 : Shape := ⟨2, ![64, 1024]⟩
abbrev S64x1024x1 : Shape := ⟨3, ![64, 1024, 1]⟩
abbrev S64x1024x1024 : Shape := ⟨3, ![64, 1024, 1024]⟩

abbrev nBuf : Space → Nat
  | .hbm => 20
  | .vmem => 0
  | .smem => 0
  | _ => 0

abbrev bufTy : (tb : Table) → Fin (tcTables nBuf tb) → BufTy
  | .hbm, ⟨0, _⟩ => ⟨S64x1024x128, .f32⟩
  | .hbm, ⟨1, _⟩ => ⟨S64x1024x128, .f32⟩
  | .hbm, ⟨2, _⟩ => ⟨S_, .f32⟩
  | .hbm, ⟨3, _⟩ => ⟨S64x1024, .f32⟩
  | .hbm, ⟨4, _⟩ => ⟨S64x1024x1, .f32⟩
  | .hbm, ⟨5, _⟩ => ⟨S64x1024x1, .f32⟩
  | .hbm, ⟨6, _⟩ => ⟨S_, .f32⟩
  | .hbm, ⟨7, _⟩ => ⟨S64x1024x1, .f32⟩
  | .hbm, ⟨8, _⟩ => ⟨S64x1024x1, .f32⟩
  | .hbm, ⟨9, _⟩ => ⟨S64x1024x128, .f32⟩
  | .hbm, ⟨10, _⟩ => ⟨S64x1024x128, .f32⟩
  | .hbm, ⟨11, _⟩ => ⟨S64x1024x1024, .f32⟩
  | .hbm, ⟨12, _⟩ => ⟨S_, .f32⟩
  | .hbm, ⟨13, _⟩ => ⟨S64x1024x1024, .f32⟩
  | .hbm, ⟨14, _⟩ => ⟨S64x1024x1024, .f32⟩
  | .hbm, ⟨15, _⟩ => ⟨S64x1024x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S64x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S64x1024x128_S64x1024_d2 : S64x1024x128.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x128_0_1_2 : S64x1024x1.BroadcastsInDim S64x1024x128 (![0, 1, 2] : Fin 3 → Fin S64x1024x128.rank)
  bcast_S_S64x1024x1024 : S_.BroadcastsInDim S64x1024x1024 (![] : Fin 0 → Fin S64x1024x1024.rank)
  reducesTo_S64x1024x1024_S_d0_1_2 : S64x1024x1024.ReducesTo [0, 1, 2] S_
  dot_S64x1024x128_S64x1024x128_S64x1024x1024_2_2_1_1_0_0_wf : DotDims.WF S64x1024x128 S64x1024x128 S64x1024x1024 [2] [2] [1] [1] [0] [0]

variable [Facts₀]

def dot_S64x1024x128_S64x1024x128_S64x1024x1024_2_2_1_1_0_0 : DotDims S64x1024x128 S64x1024x128 S64x1024x1024 where
  lhsContracting := [2]
  rhsContracting := [2]
  lhsNonContracting := [1]
  rhsNonContracting := [1]
  lhsBatch := [0]
  rhsBatch := [0]
  wf := dot_S64x1024x128_S64x1024x128_S64x1024x1024_2_2_1_1_0_0_wf

class Facts : Prop extends Facts₀ where

variable [Facts]
-- ==== Proof.BitsBody.lean ====
/-
  The kernel's body, point by point: what both of its runs are stated over.

  The grid has eight points. At every point the body reads its block of eight batches, forms for each of the four pairs
  of batches a row of 256 partial sums, and adds that row into row p of a 4 × 256 accumulator it keeps between points
  (at the first point the row replaces what the accumulator held). Only at the last point does it also sum the
  accumulator and store the one-entry result. So there are two control cases, told apart by "the point is the last".
-/
import proofs.«174938_g53377853555121_feedfinal_227_15_alg».proof.Proof.Gen.Kernel.Frame
import proofs.«174938_g53377853555121_feedfinal_227_15_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The point is the last one: the body's only branch. -/
abbrev isLast (i : grid0.Coords) : Prop := k0_cond1 i = 1#1

/-- The branch is taken at point 7 and nowhere else. -/
theorem isLast_iff : ∀ t : Fin cfg0.N, isLast (grid0.coords t) ↔ t.val = 7 :=
  (by decide +kernel : ∀ t : Fin grid0.N, isLast (grid0.coords t) ↔ t.val = 7)

/-- The input window is never idle. -/
theorem live_in : ∀ t : Fin cfg0.N, cfg0.idle 0 (grid0.coords t) = false := by decide +kernel
/-- Before the last point the body stores nothing into the output's buffer, -/
theorem idle_out : ∀ t : Fin cfg0.N, ¬isLast (grid0.coords t) → cfg0.idle 1 (grid0.coords t) = true := by decide +kernel
/-- and the buffer is not written back there. -/
theorem noFlush_out : ∀ t : Fin cfg0.N, ¬isLast (grid0.coords t) → (cfg0.win 1).flush t = false := by decide +kernel
/-- At the last point it does store into it. -/
theorem live_out : ∀ t : Fin cfg0.N, isLast (grid0.coords t) → cfg0.idle 1 (grid0.coords t) = false := by decide +kernel

/-- The output's one staging buffer, as a view. -/
abbrev outView : View sig .tc .vmem S1x1 .f32 := (Memref.whole cc0_stg1_0 : Memref sig .tc .vmem S1x1 .f32).view
/-- The input's and the output's current staging buffers at a point. -/
abbrev inM (t : Fin cfg0.N) : Memref sig .tc .vmem S8x1024x128 .f32 := win0_0.stage (cfg0.slots t 0)
abbrev inW (t : Fin cfg0.N) : (inM t).IsWhole := hstage0_0 ((cfg0.slots t 0).cast nbuf0_0)
abbrev outM (t : Fin cfg0.N) : Memref sig .tc .vmem S1x1 .f32 := win0_1.stage (cfg0.slots t 1)
abbrev outW (t : Fin cfg0.N) : (outM t).IsWhole := hstage0_1 ((cfg0.slots t 1).cast nbuf0_1)
/-- The accumulator: a whole buffer of the kernel's own. -/
abbrev accM : Memref sig .tc .vmem S4x256 .f32 := Memref.whole cc0_scratch0
abbrev accView : View sig .tc .vmem S4x256 .f32 := accM.view

/-- What the region is entered with besides the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Body

end
-- ==== Proof.BitsRunStep.lean ====
/-
  The body at a point that is not the last: it stores into the four rows of the accumulator and nowhere else.
-/
import proofs.«174938_g53377853555121_feedfinal_227_15_alg».proof.Proof.BitsBody

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- Before the last point. On whole buffers — the input's at its block, the output's at anything, the accumulator at
    what the point before left (or at anything, at the first point) — the body runs, leaves the input's and the output's
    buffers as they were and the accumulator with its four rows rewritten: the pieces, last first, are found by the run. -/
noncomputable def runStep (c : Dev nD) (i : grid0.Coords) (arg1 : Memref sig .tc .vmem S8x1024x128 .f32) (harg1 : arg1.IsWhole)
    (arg2 : Memref sig .tc .vmem S1x1 .f32) (harg2 : arg2.IsWhole) (arg3 : Memref sig .tc .vmem S4x256 .f32) (harg3 : arg3.IsWhole)
    (hc : ¬isLast i) (x0 : Vec F S8x1024x128 .f32) (xs0 : Vec F S4x256 .f32) :
    { LS : List (View.Piece (Elt F) S4x256 .f32) //
      ∀ (xo : Vec F S1x1 .f32) (E : Set ℕ) (K : PUnit → sProp 𝕄),
        iprop(owns (c : Thread nD τ) arg1 fullShare x0 ∗ owns (c : Thread nD τ) arg2 fullShare xo ∗ owns (c : Thread nD τ) arg3 fullShare xs0
            ∗ (iprop(owns (c : Thread nD τ) arg1 fullShare x0 ∗ owns (c : Thread nD τ) arg2 fullShare xo
                ∗ (∃ f, arg3.view.loc (c : Thread nD τ) ↦[arg3.view.set]{fullShare} arg3.view.writes (Elt F) f LS)) -∗ K ⟨⟩))
          ⊢ wp frame (wpE (defs₀ (F := F)) Variants.none c none) E (cc0__sim_kernel i arg1 harg1 arg2 harg2 arg3 harg3) K } := by
  refine ⟨?_, fun xo E K => ?run⟩
  case run =>
    simp only [cc0__sim_kernel_eq_skeleton]; unfold cc0__sim_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.Kernel.Body

end
-- ==== Proof.BitsRunLast.lean ====
/-
  The body at the last point: after the four accumulator rows it reads the whole accumulator back, sums it, and stores
  the one-entry result into the output's buffer.
-/
import proofs.«174938_g53377853555121_feedfinal_227_15_alg».proof.Proof.BitsRunStep

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the last point. On whole buffers — the input's at its block, the output's at anything, the accumulator at what
    the point before left — the body runs, leaves the input's buffer as it was, the accumulator with its four rows
    rewritten and the output's buffer with its one entry written: the pieces, last first, are found by the run. -/
noncomputable def runLast (c : Dev nD) (i : grid0.Coords) (arg1 : Memref sig .tc .vmem S8x1024x128 .f32) (harg1 : arg1.IsWhole)
    (arg2 : Memref sig .tc .vmem S1x1 .f32) (harg2 : arg2.IsWhole) (arg3 : Memref sig .tc .vmem S4x256 .f32) (harg3 : arg3.IsWhole)
    (hc : isLast i) (x0 : Vec F S8x1024x128 .f32) (xs0 : Vec F S4x256 .f32) :
    Σ' (LO : List (View.Piece (Elt F) S1x1 .f32)), { LS : List (View.Piece (Elt F) S4x256 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LS)) -∗ K ⟨⟩))
          ⊢ wp frame (wpE (defs₀ (F := F)) Variants.none c none) E (cc0__sim_kernel i arg1 harg1 arg2 harg2 arg3 harg3) K } := by
  refine ⟨?_, ?_, fun E K => ?run⟩
  case run =>
    simp only [cc0__sim_kernel_eq_skeleton]; unfold cc0__sim_kernel_skel
    simp only [k0_part1_eq_skeleton, k0_part2_eq_skeleton, k0_part3_eq_skeleton, k0_part4_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc)
    sl_step
    iapply Hk
    isplitl [H0]
    · iexists _; isplitr; · ipureintro; exact harg1.read_unread _
      iexact H0
    isplitl [H1]; · iexists _; iexact H1
    iexists _; iexact HS0

end Cert.Kernel.Body

end
-- ==== Proof.BitsFrame.lean ====
/-
  The kernel's frame: it runs to the end, faults nowhere and leaves its argument array as it found it.

  The proof data follow the accumulator through the grid. After point n the accumulator holds what the body's four row
  stores left there, computed from the point's block and from what the accumulator held after point n − 1; at the first
  point the body also reads the accumulator before anything stored into it, but selects the fresh row whatever it read,
  so the contents after the first point do not depend on what was there. The output's buffer is stored into at the last
  point only, which is also the only point where it is written back.
-/
import proofs.«174938_g53377853555121_feedfinal_227_15_alg».proof.Proof.BitsRunLast

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- On this one-axis grid a point's coordinate is its position. -/
theorem coord_eq : ∀ t : Fin cfg0.N, (grid0.coords t 0).val = t.val :=
  (by decide +kernel : ∀ t : Fin grid0.N, (grid0.coords t 0).val = t.val)

/-! ## What each case leaves -/

/-- Before the last point the four row stores tile the accumulator. -/
theorem acc_cover_step (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : ¬isLast i)
    (x0 : Vec F S8x1024x128 .f32) (xs0 : Vec F S4x256 .f32) (y : S4x256.Idx) :
    ∃ pc ∈ (runStep c i arg1 harg1 arg2 harg2 arg3 harg3 hc x0 xs0).1, y ∈ pc.1.set :=
  View.cover_of_tiledL (runStep c i arg1 harg1 arg2 harg2 arg3 harg3 hc x0 xs0).1 S1x256.size (by sl_kernel_rfl) y

/-- What the accumulator holds after a point that is not the last. -/
def accStep (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : ¬isLast i)
    (x0 : Vec F S8x1024x128 .f32) (xs0 : Vec F S4x256 .f32) : Vec F S4x256 .f32 :=
  accView.read (Elt F) (accView.writes (Elt F) accView.junk (runStep c i arg1 harg1 arg2 harg2 arg3 harg3 hc x0 xs0).1)

/-- At the last point too the four row stores tile the accumulator, -/
theorem acc_cover_last (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs0 : Vec F S4x256 .f32) (y : S4x256.Idx) :
    ∃ pc ∈ (runLast c i arg1 harg1 arg2 harg2 arg3 harg3 hc x0 xs0).2.1, y ∈ pc.1.set :=
  View.cover_of_tiledL (runLast c i arg1 harg1 arg2 harg2 arg3 harg3 hc x0 xs0).2.1 S1x256.size (by sl_kernel_rfl) y

/-- and this is what it holds afterwards. -/
def accLast (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs0 : Vec F S4x256 .f32) : Vec F S4x256 .f32 :=
  accView.read (Elt F) (accView.writes (Elt F) accView.junk (runLast c i arg1 harg1 arg2 harg2 arg3 harg3 hc x0 xs0).2.1)

/-- The one store into the output's buffer covers it. -/
theorem out_cover_last (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs0 : Vec F S4x256 .f32) (y : S1x1.Idx) :
    ∃ pc ∈ (runLast c i arg1 harg1 arg2 harg2 arg3 harg3 hc x0 xs0).1, y ∈ pc.1.set :=
  View.cover_of_tiledL (runLast c i arg1 harg1 arg2 harg2 arg3 harg3 hc x0 xs0).1 S1x1.size (by sl_kernel_rfl) y

/-- What the output's buffer holds after the last point. -/
def outLast (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs0 : Vec F S4x256 .f32) : Vec F S1x1 .f32 :=
  outView.read (Elt F) (outView.writes (Elt F) outView.junk (runLast c i arg1 harg1 arg2 harg2 arg3 harg3 hc x0 xs0).1)

/-! ## The first point forgets what the accumulator held -/

/-- At the first grid coordinate every row store selects the fresh row: the accumulator's contents afterwards are the same
    whatever it held before. -/
theorem accStep_first (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : ¬isLast i)
    (x0 : Vec F S8x1024x128 .f32) (hi : (i 0).val = 0) (xs xs' : Vec F S4x256 .f32) :
    accStep c i arg1 harg1 arg2 harg2 arg3 harg3 hc x0 xs = accStep c i arg1 harg1 arg2 harg2 arg3 harg3 hc x0 xs' := by
  have h0 : BitVec.ofNat 32 (i 0).val = 0#32 := by rw [hi]
  have e1 : ∀ (a b : FVec F S128x128 .f32) (d : FVec F S1x256 .f32) (X X' : Vec F S1x256 .f32),
      k0_pay1 (BitVec.ofNat 32 (i 0).val) a b d X = k0_pay1 (BitVec.ofNat 32 (i 0).val) a b d X' := by
    intro a b d X X'; rw [h0]; rfl
  have e16 : ∀ (a : FVec F S1x256 .f32) (b : FVec F S1x128 .f32) (d : FVec F S128x128 .f32) (X X' : Vec F S1x256 .f32),
      k0_pay16 (BitVec.ofNat 32 (i 0).val) a b d X = k0_pay16 (BitVec.ofNat 32 (i 0).val) a b d X' := by
    intro a b d X X'; rw [h0]; rfl
  have e10 : ∀ (a b d : FVec F S1x256 .f32) (X X' : Vec F S1x256 .f32),
      k0_pay10 (BitVec.ofNat 32 (i 0).val) a b d X = k0_pay10 (BitVec.ofNat 32 (i 0).val) a b d X' := by
    intro a b d X X'; rw [h0]; rfl
  have e5 : ∀ (a : FVec F S1x256 .f32) (X X' : Vec F S1x256 .f32),
      k0_pay5 a (Scalar.cmpi .eq (BitVec.ofNat 32 (i 0).val) 0#32) X = k0_pay5 a (Scalar.cmpi .eq (BitVec.ofNat 32 (i 0).val) 0#32) X' := by
    intro a X X'; rw [h0]; rfl
  unfold accStep
  congr 2
  unfold runStep
  dsimp only
  sl_unfold_words
  rw [e1 _ _ _ _ (show Vec F S1x256 .f32 from View.readAt (Elt F) arg3.view (Rect.unit (s := S4x256) ![3, 0] S1x256.size inb_S4x256_S1x256_3_0).toLoadRect (harg3.unread xs')),
    e16 _ _ _ _ (show Vec F S1x256 .f32 from View.readAt (Elt F) arg3.view (Rect.unit (s := S4x256) ![2, 0] S1x256.size inb_S4x256_S1x256_2_0).toLoadRect (harg3.unread xs')),
    e10 _ _ _ _ (show Vec F S1x256 .f32 from View.readAt (Elt F) arg3.view (Rect.unit (s := S4x256) ![1, 0] S1x256.size inb_S4x256_S1x256_1_0).toLoadRect (harg3.unread xs')),
    e5 _ _ (show Vec F S1x256 .f32 from View.readAt (Elt F) arg3.view (Rect.unit (s := S4x256) ![0, 0] S1x256.size inb_S4x256_S1x256_0_0).toLoadRect (harg3.unread xs'))]
  try rfl

/-! ## What the buffers hold after each point -/

/-- What stands in for the accumulator's contents before the first point (they are never used: `accStep_first`). -/
def acc0 : Vec F S4x256 .f32 := accView.read (Elt F) accView.junk
/-- What stands in for the output buffer's contents where the body stores nothing into it (never consulted: the buffer is
    neither written back nor read there). -/
def out0 : Vec F S1x1 .f32 := outView.read (Elt F) outView.junk

/-- After the body at position `n`: the output's buffer and the accumulator. The last point (7) stores both; every other
    point stores the accumulator only, from what the point before left. -/
def stateAt (c : Dev nD) : (n : ℕ) → n < cfg0.N → Vec F S1x1 .f32 × Vec F S4x256 .f32
  | 0, hn => (out0, accStep c (grid0.coords ⟨0, hn⟩) (inM ⟨0, hn⟩) (inW ⟨0, hn⟩) (outM ⟨0, hn⟩) (outW ⟨0, hn⟩) accM (Memref.isWhole_whole _)
      (fun h => by have e := (isLast_iff ⟨0, hn⟩).mp h; dsimp only at e; omega) (iblk m c 0 ⟨0, hn⟩) acc0)
  | n + 1, hn =>
    if h : n + 1 = 7 then
      (outLast c (grid0.coords ⟨n + 1, hn⟩) (inM ⟨n + 1, hn⟩) (inW ⟨n + 1, hn⟩) (outM ⟨n + 1, hn⟩) (outW ⟨n + 1, hn⟩) accM (Memref.isWhole_whole _) ((isLast_iff ⟨n + 1, hn⟩).mpr h) (iblk m c 0 ⟨n + 1, hn⟩) (stateAt c n (Nat.lt_of_succ_lt hn)).2,
       accLast c (grid0.coords ⟨n + 1, hn⟩) (inM ⟨n + 1, hn⟩) (inW ⟨n + 1, hn⟩) (outM ⟨n + 1, hn⟩) (outW ⟨n + 1, hn⟩) accM (Memref.isWhole_whole _) ((isLast_iff ⟨n + 1, hn⟩).mpr h) (iblk m c 0 ⟨n + 1, hn⟩) (stateAt c n (Nat.lt_of_succ_lt hn)).2)
    else
      (out0, accStep c (grid0.coords ⟨n + 1, hn⟩) (inM ⟨n + 1, hn⟩) (inW ⟨n + 1, hn⟩) (outM ⟨n + 1, hn⟩) (outW ⟨n + 1, hn⟩) accM (Memref.isWhole_whole _) (fun hl => h ((isLast_iff ⟨n + 1, hn⟩).mp hl)) (iblk m c 0 ⟨n + 1, hn⟩) (stateAt c n (Nat.lt_of_succ_lt hn)).2)

/-- At the first point. -/
theorem stateAt_first (c : Dev nD) (t : Fin cfg0.N) (hz : t.val = 0) (h : ¬isLast (grid0.coords t)) :
    stateAt m c t.val t.isLt = (out0, accStep c (grid0.coords t) (inM t) (inW t) (outM t) (outW t) accM (Memref.isWhole_whole _) h (iblk m c 0 t) acc0) := by
  obtain ⟨n, hn⟩ := t
  cases n with
  | zero => rfl
  | succ n => exact absurd hz (Nat.succ_ne_zero n)

/-- At a point between the first and the last. -/
theorem stateAt_step (c : Dev nD) (t : Fin cfg0.N) (hz : t.val ≠ 0) (h : ¬isLast (grid0.coords t)) :
    stateAt m c t.val t.isLt = (out0, accStep c (grid0.coords t) (inM t) (inW t) (outM t) (outW t) accM (Memref.isWhole_whole _) h (iblk m c 0 t)
      (stateAt m c (t.val - 1) (Nat.lt_of_le_of_lt (Nat.sub_le _ _) t.isLt)).2) := by
  obtain ⟨n, hn⟩ := t
  cases n with
  | zero => exact absurd rfl hz
  | succ n => exact (dif_neg (fun e => h ((isLast_iff ⟨n + 1, hn⟩).mpr e))).trans rfl

/-- At the last point. -/
theorem stateAt_last (c : Dev nD) (t : Fin cfg0.N) (h : isLast (grid0.coords t)) :
    stateAt m c t.val t.isLt = (outLast c (grid0.coords t) (inM t) (inW t) (outM t) (outW t) accM (Memref.isWhole_whole _) h (iblk m c 0 t) (stateAt m c (t.val - 1) (Nat.lt_of_le_of_lt (Nat.sub_le _ _) t.isLt)).2,
      accLast c (grid0.coords t) (inM t) (inW t) (outM t) (outW t) accM (Memref.isWhole_whole _) h (iblk m c 0 t) (stateAt m c (t.val - 1) (Nat.lt_of_le_of_lt (Nat.sub_le _ _) t.isLt)).2) := by
  obtain ⟨n, hn⟩ := t
  cases n with
  | zero => exact absurd ((isLast_iff ⟨0, hn⟩).mp h) (fun e : (0 : ℕ) = 7 => absurd e (by decide))
  | succ n => exact (dif_pos ((isLast_iff ⟨n + 1, hn⟩).mp h)).trans rfl

/-- The region's invariant before position `n`: before the first point what the launch hands over (the accumulator at
    anything); afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((stateAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- The one pipeline's proof data on core `c`: the arrays as the region finds them; after the body at point `t` the
    input's buffer at its block and the output's at `stateAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) : (dats m 0 c).after 1 t = (stateAt m c t.val t.isLt).1 := by dsimp only [dats]

/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (inM t) fullShare ((dats m 0 c).before 0 t d))
    ∗ (∃ d, owns (c : Thread nD τ) (outM t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's buffer holds its block; the point is the last or not; the invariant hands the
    body the accumulator at what the point before left (at anything, at the first point, where it does not matter) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (inM t) fullShare ((dats m 0 c).after 0 t) from by
    unfold Dat.leavesExact; rw [live_in t], after_in]
  by_cases hl : isLast (grid0.coords t)
  · have h7 : t.val = 7 := (isLast_iff t).mp hl
    rw [show (dats m 0 c).leavesExact 1 t = owns (c : Thread nD τ) (outM t) fullShare ((dats m 0 c).after 1 t) from by
      unfold Dat.leavesExact; rw [live_out t hl], after_out]
    rw [stateAt_last m c t hl]
    unfold outLast accLast; (try dsimp only)
    rw [PhiS_castSucc m c t, PhiS_pos m c _ _ (by omega)]
    iintro ⟨⟨HS0, Hg⟩, Ho, ⟨%d0, H0⟩, ⟨%d1, H1⟩⟩
    iapply ((runLast c (grid0.coords t) _ _ _ _ _ _ hl (iblk m c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hg]
    · isplitl [HS0]
      · unfold owns; iexists _; isplitr
        swap; · iexact HS0
        ipureintro; exact View.read_writes_of_cover _ _ _ _ _ (acc_cover_last c _ _ _ _ _ _ _ _ _ _)
      iexact Hg
    isplitl [Ho]; · iexact Ho
    isplitl [H0]; · iexact H0
    unfold owns; iexists _; isplitr
    swap; · iexact H1
    ipureintro; exact View.read_writes_of_cover _ _ _ _ _ (out_cover_last c _ _ _ _ _ _ _ _ _ _)
  · rw [Dat.leavesExact_idle (dats m 0 c) 1 t (idle_out t hl) (noFlush_out t hl)]
    by_cases hz : t.val = 0
    · rw [stateAt_first m c t hz hl]
      (try dsimp only)
      rw [PhiS_castSucc m c t, PhiS_zero m c _ _ hz, PhiA_eq]
      iintro ⟨⟨⟨%es, HS0⟩, Hg⟩, Ho, ⟨%d0, H0⟩, ⟨%d1, H1⟩⟩
      rw [accStep_first c (grid0.coords t) _ _ _ _ _ _ hl (iblk m c 0 t) ((coord_eq t).trans hz) acc0 es]
      unfold accStep
      iapply ((runStep c (grid0.coords t) _ _ _ _ _ _ hl (iblk m c 0 t) es).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (acc_cover_step c _ _ _ _ _ _ _ _ _ _)
        iexact Hg
      isplitl [Ho]; · iexact Ho
      isplitl [H0]; · iexact H0
      iexists _; iexact H1
    · rw [stateAt_step m c t hz hl]
      unfold accStep; (try dsimp only)
      rw [PhiS_castSucc m c t, PhiS_pos m c _ _ hz]
      iintro ⟨⟨HS0, Hg⟩, Ho, ⟨%d0, H0⟩, ⟨%d1, H1⟩⟩
      iapply ((runStep c (grid0.coords t) _ _ _ _ _ _ hl (iblk m c 0 t) _).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (acc_cover_step c _ _ _ _ _ _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Body

end
-- ==== Proof.IdealBody.lean ====
/-
  The kernel's body, point by point: what both of its runs are stated over.

  The grid has eight points. At every point the body reads its block of eight batches, forms for each of the four pairs
  of batches a row of 256 partial sums, and adds that row into row p of a 4 × 256 accumulator it keeps between points
  (at the first point the row replaces what the accumulator held). Only at the last point does it also sum the
  accumulator and store the one-entry result. So there are two control cases, told apart by "the point is the last".
-/
import proofs.«174938_g53377853555121_feedfinal_227_15_alg».proof.Proof.Gen.KernelIdeal.Frame
import proofs.«174938_g53377853555121_feedfinal_227_15_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The point is the last one: the body's only branch. -/
abbrev isLast (i : grid0.Coords) : Prop := k0_cond1 i = 1#1

/-- The branch is taken at point 7 and nowhere else. -/
theorem isLast_iff : ∀ t : Fin cfg0.N, isLast (grid0.coords t) ↔ t.val = 7 :=
  (by decide +kernel : ∀ t : Fin grid0.N, isLast (grid0.coords t) ↔ t.val = 7)

/-- The input window is never idle. -/
theorem live_in : ∀ t : Fin cfg0.N, cfg0.idle 0 (grid0.coords t) = false := by decide +kernel
/-- Before the last point the body stores nothing into the output's buffer, -/
theorem idle_out : ∀ t : Fin cfg0.N, ¬isLast (grid0.coords t) → cfg0.idle 1 (grid0.coords t) = true := by decide +kernel
/-- and the buffer is not written back there. -/
theorem noFlush_out : ∀ t : Fin cfg0.N, ¬isLast (grid0.coords t) → (cfg0.win 1).flush t = false := by decide +kernel
/-- At the last point it does store into it. -/
theorem live_out : ∀ t : Fin cfg0.N, isLast (grid0.coords t) → cfg0.idle 1 (grid0.coords t) = false := by decide +kernel

/-- The output's one staging buffer, as a view. -/
abbrev outView : View sig .tc .vmem S1x1 .f32 := (Memref.whole cc0_stg1_0 : Memref sig .tc .vmem S1x1 .f32).view
/-- The input's and the output's current staging buffers at a point. -/
abbrev inM (t : Fin cfg0.N) : Memref sig .tc .vmem S8x1024x128 .f32 := win0_0.stage (cfg0.slots t 0)
abbrev inW (t : Fin cfg0.N) : (inM t).IsWhole := hstage0_0 ((cfg0.slots t 0).cast nbuf0_0)
abbrev outM (t : Fin cfg0.N) : Memref sig .tc .vmem S1x1 .f32 := win0_1.stage (cfg0.slots t 1)
abbrev outW (t : Fin cfg0.N) : (outM t).IsWhole := hstage0_1 ((cfg0.slots t 1).cast nbuf0_1)
/-- The accumulator: a whole buffer of the kernel's own. -/
abbrev accM : Memref sig .tc .vmem S4x256 .f32 := Memref.whole cc0_scratch0
abbrev accView : View sig .tc .vmem S4x256 .f32 := accM.view

/-- What the region is entered with besides the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Body

end
-- ==== Proof.IdealRunStep.lean ====
/-
  The body at a point that is not the last: it stores into the four rows of the accumulator and nowhere else.
-/
import proofs.«174938_g53377853555121_feedfinal_227_15_alg».proof.Proof.IdealBody

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- Before the last point. On whole buffers — the input's at its block, the output's at anything, the accumulator at
    what the point before left (or at anything, at the first point) — the body runs, leaves the input's and the output's
    buffers as they were and the accumulator with its four rows rewritten: the pieces, last first, are found by the run. -/
noncomputable def runStep (c : Dev nD) (i : grid0.Coords) (arg1 : Memref sig .tc .vmem S8x1024x128 .f32) (harg1 : arg1.IsWhole)
    (arg2 : Memref sig .tc .vmem S1x1 .f32) (harg2 : arg2.IsWhole) (arg3 : Memref sig .tc .vmem S4x256 .f32) (harg3 : arg3.IsWhole)
    (hc : ¬isLast i) (x0 : Vec F S8x1024x128 .f32) (xs0 : Vec F S4x256 .f32) :
    { LS : List (View.Piece (Elt F) S4x256 .f32) //
      ∀ (xo : Vec F S1x1 .f32) (E : Set ℕ) (K : PUnit → sProp 𝕄),
        iprop(owns (c : Thread nD τ) arg1 fullShare x0 ∗ owns (c : Thread nD τ) arg2 fullShare xo ∗ owns (c : Thread nD τ) arg3 fullShare xs0
            ∗ (iprop(owns (c : Thread nD τ) arg1 fullShare x0 ∗ owns (c : Thread nD τ) arg2 fullShare xo
                ∗ (∃ f, arg3.view.loc (c : Thread nD τ) ↦[arg3.view.set]{fullShare} arg3.view.writes (Elt F) f LS)) -∗ K ⟨⟩))
          ⊢ wp frame (wpE (defs₀ (F := F)) Variants.none c none) E (cc0__sim_kernel i arg1 harg1 arg2 harg2 arg3 harg3) K } := by
  refine ⟨?_, fun xo E K => ?run⟩
  case run =>
    simp only [cc0__sim_kernel_eq_skeleton]; unfold cc0__sim_kernel_skel
    simp only [k0_part1_eq_skeleton, k0_part2_eq_skeleton, k0_part3_eq_skeleton, k0_part4_eq_skeleton]
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

end Cert.KernelIdeal.Body

end
-- ==== Proof.IdealRunLast.lean ====
/-
  The body at the last point: after the four accumulator rows it reads the whole accumulator back, sums it, and stores
  the one-entry result into the output's buffer.
-/
import proofs.«174938_g53377853555121_feedfinal_227_15_alg».proof.Proof.IdealRunStep

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At the last point. On whole buffers — the input's at its block, the output's at anything, the accumulator at what
    the point before left — the body runs, leaves the input's buffer as it was, the accumulator with its four rows
    rewritten and the output's buffer with its one entry written: the pieces, last first, are found by the run. -/
noncomputable def runLast (c : Dev nD) (i : grid0.Coords) (arg1 : Memref sig .tc .vmem S8x1024x128 .f32) (harg1 : arg1.IsWhole)
    (arg2 : Memref sig .tc .vmem S1x1 .f32) (harg2 : arg2.IsWhole) (arg3 : Memref sig .tc .vmem S4x256 .f32) (harg3 : arg3.IsWhole)
    (hc : isLast i) (x0 : Vec F S8x1024x128 .f32) (xs0 : Vec F S4x256 .f32) :
    Σ' (LO : List (View.Piece (Elt F) S1x1 .f32)), { LS : List (View.Piece (Elt F) S4x256 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0
                ∗ (∃ f, arg2.view.loc (c : Thread nD τ) ↦[arg2.view.set]{fullShare} arg2.view.writes (Elt F) f LO)
                ∗ (∃ f, arg3.view.loc (c : Thread nD τ) ↦[arg3.view.set]{fullShare} arg3.view.writes (Elt F) f LS)) -∗ K ⟨⟩))
          ⊢ wp frame (wpE (defs₀ (F := F)) Variants.none c none) E (cc0__sim_kernel i arg1 harg1 arg2 harg2 arg3 harg3) K } := by
  refine ⟨?_, ?_, fun E K => ?run⟩
  case run =>
    simp only [cc0__sim_kernel_eq_skeleton]; unfold cc0__sim_kernel_skel
    simp only [k0_part1_eq_skeleton, k0_part2_eq_skeleton, k0_part3_eq_skeleton, k0_part4_eq_skeleton]
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | exact hc)
    sl_step
    iapply Hk
    isplitl [H0]
    · iexists _; isplitr; · ipureintro; exact harg1.read_unread _
      iexact H0
    isplitl [H1]; · iexists _; iexact H1
    iexists _; iexact HS0

end Cert.KernelIdeal.Body

end
-- ==== Proof.IdealFrame.lean ====
/-
  The kernel's frame: it runs to the end, faults nowhere and leaves its argument array as it found it.

  The proof data follow the accumulator through the grid. After point n the accumulator holds what the body's four row
  stores left there, computed from the point's block and from what the accumulator held after point n − 1; at the first
  point the body also reads the accumulator before anything stored into it, but selects the fresh row whatever it read,
  so the contents after the first point do not depend on what was there. The output's buffer is stored into at the last
  point only, which is also the only point where it is written back.
-/
import proofs.«174938_g53377853555121_feedfinal_227_15_alg».proof.Proof.IdealRunLast

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- On this one-axis grid a point's coordinate is its position. -/
theorem coord_eq : ∀ t : Fin cfg0.N, (grid0.coords t 0).val = t.val :=
  (by decide +kernel : ∀ t : Fin grid0.N, (grid0.coords t 0).val = t.val)

/-! ## What each case leaves -/

/-- Before the last point the four row stores tile the accumulator. -/
theorem acc_cover_step (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : ¬isLast i)
    (x0 : Vec F S8x1024x128 .f32) (xs0 : Vec F S4x256 .f32) (y : S4x256.Idx) :
    ∃ pc ∈ (runStep c i arg1 harg1 arg2 harg2 arg3 harg3 hc x0 xs0).1, y ∈ pc.1.set :=
  View.cover_of_tiledL (runStep c i arg1 harg1 arg2 harg2 arg3 harg3 hc x0 xs0).1 S1x256.size (by sl_kernel_rfl) y

/-- What the accumulator holds after a point that is not the last. -/
def accStep (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : ¬isLast i)
    (x0 : Vec F S8x1024x128 .f32) (xs0 : Vec F S4x256 .f32) : Vec F S4x256 .f32 :=
  accView.read (Elt F) (accView.writes (Elt F) accView.junk (runStep c i arg1 harg1 arg2 harg2 arg3 harg3 hc x0 xs0).1)

/-- At the last point too the four row stores tile the accumulator, -/
theorem acc_cover_last (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs0 : Vec F S4x256 .f32) (y : S4x256.Idx) :
    ∃ pc ∈ (runLast c i arg1 harg1 arg2 harg2 arg3 harg3 hc x0 xs0).2.1, y ∈ pc.1.set :=
  View.cover_of_tiledL (runLast c i arg1 harg1 arg2 harg2 arg3 harg3 hc x0 xs0).2.1 S1x256.size (by sl_kernel_rfl) y

/-- and this is what it holds afterwards. -/
def accLast (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs0 : Vec F S4x256 .f32) : Vec F S4x256 .f32 :=
  accView.read (Elt F) (accView.writes (Elt F) accView.junk (runLast c i arg1 harg1 arg2 harg2 arg3 harg3 hc x0 xs0).2.1)

/-- The one store into the output's buffer covers it. -/
theorem out_cover_last (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs0 : Vec F S4x256 .f32) (y : S1x1.Idx) :
    ∃ pc ∈ (runLast c i arg1 harg1 arg2 harg2 arg3 harg3 hc x0 xs0).1, y ∈ pc.1.set :=
  View.cover_of_tiledL (runLast c i arg1 harg1 arg2 harg2 arg3 harg3 hc x0 xs0).1 S1x1.size (by sl_kernel_rfl) y

/-- What the output's buffer holds after the last point. -/
def outLast (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs0 : Vec F S4x256 .f32) : Vec F S1x1 .f32 :=
  outView.read (Elt F) (outView.writes (Elt F) outView.junk (runLast c i arg1 harg1 arg2 harg2 arg3 harg3 hc x0 xs0).1)

/-! ## The first point forgets what the accumulator held -/

/-- At the first grid coordinate every row store selects the fresh row: the accumulator's contents afterwards are the same
    whatever it held before. -/
theorem accStep_first (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : ¬isLast i)
    (x0 : Vec F S8x1024x128 .f32) (hi : (i 0).val = 0) (xs xs' : Vec F S4x256 .f32) :
    accStep c i arg1 harg1 arg2 harg2 arg3 harg3 hc x0 xs = accStep c i arg1 harg1 arg2 harg2 arg3 harg3 hc x0 xs' := by
  have h0 : BitVec.ofNat 32 (i 0).val = 0#32 := by rw [hi]
  have e1 : ∀ (a b : FVec F S128x128 .f32) (d : FVec F S1x256 .f32) (X X' : Vec F S1x256 .f32),
      k0_pay1 (BitVec.ofNat 32 (i 0).val) a b d X = k0_pay1 (BitVec.ofNat 32 (i 0).val) a b d X' := by
    intro a b d X X'; rw [h0]; rfl
  have e16 : ∀ (a : FVec F S1x256 .f32) (b : FVec F S1x128 .f32) (d : FVec F S128x128 .f32) (X X' : Vec F S1x256 .f32),
      k0_pay16 (BitVec.ofNat 32 (i 0).val) a b d X = k0_pay16 (BitVec.ofNat 32 (i 0).val) a b d X' := by
    intro a b d X X'; rw [h0]; rfl
  have e10 : ∀ (a b d : FVec F S1x256 .f32) (X X' : Vec F S1x256 .f32),
      k0_pay10 (BitVec.ofNat 32 (i 0).val) a b d X = k0_pay10 (BitVec.ofNat 32 (i 0).val) a b d X' := by
    intro a b d X X'; rw [h0]; rfl
  have e5 : ∀ (a : FVec F S1x256 .f32) (X X' : Vec F S1x256 .f32),
      k0_pay5 a (Scalar.cmpi .eq (BitVec.ofNat 32 (i 0).val) 0#32) X = k0_pay5 a (Scalar.cmpi .eq (BitVec.ofNat 32 (i 0).val) 0#32) X' := by
    intro a X X'; rw [h0]; rfl
  unfold accStep
  congr 2
  unfold runStep
  dsimp only
  sl_unfold_words
  rw [e1 _ _ _ _ (show Vec F S1x256 .f32 from View.readAt (Elt F) arg3.view (Rect.unit (s := S4x256) ![3, 0] S1x256.size inb_S4x256_S1x256_3_0).toLoadRect (harg3.unread xs')),
    e16 _ _ _ _ (show Vec F S1x256 .f32 from View.readAt (Elt F) arg3.view (Rect.unit (s := S4x256) ![2, 0] S1x256.size inb_S4x256_S1x256_2_0).toLoadRect (harg3.unread xs')),
    e10 _ _ _ _ (show Vec F S1x256 .f32 from View.readAt (Elt F) arg3.view (Rect.unit (s := S4x256) ![1, 0] S1x256.size inb_S4x256_S1x256_1_0).toLoadRect (harg3.unread xs')),
    e5 _ _ (show Vec F S1x256 .f32 from View.readAt (Elt F) arg3.view (Rect.unit (s := S4x256) ![0, 0] S1x256.size inb_S4x256_S1x256_0_0).toLoadRect (harg3.unread xs'))]
  try rfl

/-! ## What the buffers hold after each point -/

/-- What stands in for the accumulator's contents before the first point (they are never used: `accStep_first`). -/
def acc0 : Vec F S4x256 .f32 := accView.read (Elt F) accView.junk
/-- What stands in for the output buffer's contents where the body stores nothing into it (never consulted: the buffer is
    neither written back nor read there). -/
def out0 : Vec F S1x1 .f32 := outView.read (Elt F) outView.junk

/-- After the body at position `n`: the output's buffer and the accumulator. The last point (7) stores both; every other
    point stores the accumulator only, from what the point before left. -/
def stateAt (c : Dev nD) : (n : ℕ) → n < cfg0.N → Vec F S1x1 .f32 × Vec F S4x256 .f32
  | 0, hn => (out0, accStep c (grid0.coords ⟨0, hn⟩) (inM ⟨0, hn⟩) (inW ⟨0, hn⟩) (outM ⟨0, hn⟩) (outW ⟨0, hn⟩) accM (Memref.isWhole_whole _)
      (fun h => by have e := (isLast_iff ⟨0, hn⟩).mp h; dsimp only at e; omega) (iblk m c 0 ⟨0, hn⟩) acc0)
  | n + 1, hn =>
    if h : n + 1 = 7 then
      (outLast c (grid0.coords ⟨n + 1, hn⟩) (inM ⟨n + 1, hn⟩) (inW ⟨n + 1, hn⟩) (outM ⟨n + 1, hn⟩) (outW ⟨n + 1, hn⟩) accM (Memref.isWhole_whole _) ((isLast_iff ⟨n + 1, hn⟩).mpr h) (iblk m c 0 ⟨n + 1, hn⟩) (stateAt c n (Nat.lt_of_succ_lt hn)).2,
       accLast c (grid0.coords ⟨n + 1, hn⟩) (inM ⟨n + 1, hn⟩) (inW ⟨n + 1, hn⟩) (outM ⟨n + 1, hn⟩) (outW ⟨n + 1, hn⟩) accM (Memref.isWhole_whole _) ((isLast_iff ⟨n + 1, hn⟩).mpr h) (iblk m c 0 ⟨n + 1, hn⟩) (stateAt c n (Nat.lt_of_succ_lt hn)).2)
    else
      (out0, accStep c (grid0.coords ⟨n + 1, hn⟩) (inM ⟨n + 1, hn⟩) (inW ⟨n + 1, hn⟩) (outM ⟨n + 1, hn⟩) (outW ⟨n + 1, hn⟩) accM (Memref.isWhole_whole _) (fun hl => h ((isLast_iff ⟨n + 1, hn⟩).mp hl)) (iblk m c 0 ⟨n + 1, hn⟩) (stateAt c n (Nat.lt_of_succ_lt hn)).2)

/-- At the first point. -/
theorem stateAt_first (c : Dev nD) (t : Fin cfg0.N) (hz : t.val = 0) (h : ¬isLast (grid0.coords t)) :
    stateAt m c t.val t.isLt = (out0, accStep c (grid0.coords t) (inM t) (inW t) (outM t) (outW t) accM (Memref.isWhole_whole _) h (iblk m c 0 t) acc0) := by
  obtain ⟨n, hn⟩ := t
  cases n with
  | zero => rfl
  | succ n => exact absurd hz (Nat.succ_ne_zero n)

/-- At a point between the first and the last. -/
theorem stateAt_step (c : Dev nD) (t : Fin cfg0.N) (hz : t.val ≠ 0) (h : ¬isLast (grid0.coords t)) :
    stateAt m c t.val t.isLt = (out0, accStep c (grid0.coords t) (inM t) (inW t) (outM t) (outW t) accM (Memref.isWhole_whole _) h (iblk m c 0 t)
      (stateAt m c (t.val - 1) (Nat.lt_of_le_of_lt (Nat.sub_le _ _) t.isLt)).2) := by
  obtain ⟨n, hn⟩ := t
  cases n with
  | zero => exact absurd rfl hz
  | succ n => exact (dif_neg (fun e => h ((isLast_iff ⟨n + 1, hn⟩).mpr e))).trans rfl

/-- At the last point. -/
theorem stateAt_last (c : Dev nD) (t : Fin cfg0.N) (h : isLast (grid0.coords t)) :
    stateAt m c t.val t.isLt = (outLast c (grid0.coords t) (inM t) (inW t) (outM t) (outW t) accM (Memref.isWhole_whole _) h (iblk m c 0 t) (stateAt m c (t.val - 1) (Nat.lt_of_le_of_lt (Nat.sub_le _ _) t.isLt)).2,
      accLast c (grid0.coords t) (inM t) (inW t) (outM t) (outW t) accM (Memref.isWhole_whole _) h (iblk m c 0 t) (stateAt m c (t.val - 1) (Nat.lt_of_le_of_lt (Nat.sub_le _ _) t.isLt)).2) := by
  obtain ⟨n, hn⟩ := t
  cases n with
  | zero => exact absurd ((isLast_iff ⟨0, hn⟩).mp h) (fun e : (0 : ℕ) = 7 => absurd e (by decide))
  | succ n => exact (dif_pos ((isLast_iff ⟨n + 1, hn⟩).mp h)).trans rfl

/-- The region's invariant before position `n`: before the first point what the launch hands over (the accumulator at
    anything); afterwards the accumulator at what the point before left, and the generator register at some state. -/
def PhiS (c : Dev nD) : (n : ℕ) → n ≤ cfg0.N → sProp 𝕄
  | 0, _ => Pipeline.ΦA spec0 c
  | n + 1, hn => iprop(iprop(owns (c : Thread nD τ) accM fullShare ((stateAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((stateAt m c n hn).2)) ∗ (∃ r, prngReg c r)) := rfl

theorem PhiS_pos (c : Dev nD) (n : ℕ) (h : n ≤ cfg0.N) (hz : n ≠ 0) :
    PhiS m c n h = iprop(iprop(owns (c : Thread nD τ) accM fullShare ((stateAt m c (n - 1) (by omega)).2)) ∗ (∃ r, prngReg c r)) := by
  cases n with
  | zero => exact absurd rfl hz
  | succ n => rfl

/-! ## The proof data -/

/-- The one pipeline's proof data on core `c`: the arrays as the region finds them; after the body at point `t` the
    input's buffer at its block and the output's at `stateAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (stateAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in (c : Dev nD) (t : Fin cfg0.N) : (dats m 0 c).after 0 t = iblk m c 0 t := by dsimp only [dats]
theorem after_out (c : Dev nD) (t : Fin cfg0.N) : (dats m 0 c).after 1 t = (stateAt m c t.val t.isLt).1 := by dsimp only [dats]

/-- The input's current staging buffer holds its block at every point. -/
theorem before_in (c : Dev nD) (t : Fin cfg0.N) (d) : (dats m 0 c).before 0 t d = iblk m c 0 t :=
  before0_0_of m (dats m 0 c) (A_eq m c 0) (after_in m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (inM t) fullShare ((dats m 0 c).before 0 t d))
    ∗ (∃ d, owns (c : Thread nD τ) (outM t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: the input's buffer holds its block; the point is the last or not; the invariant hands the
    body the accumulator at what the point before left (at anything, at the first point, where it does not matter) and takes it
    back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (inM t) fullShare ((dats m 0 c).after 0 t) from by
    unfold Dat.leavesExact; rw [live_in t], after_in]
  by_cases hl : isLast (grid0.coords t)
  · have h7 : t.val = 7 := (isLast_iff t).mp hl
    rw [show (dats m 0 c).leavesExact 1 t = owns (c : Thread nD τ) (outM t) fullShare ((dats m 0 c).after 1 t) from by
      unfold Dat.leavesExact; rw [live_out t hl], after_out]
    rw [stateAt_last m c t hl]
    unfold outLast accLast; (try dsimp only)
    rw [PhiS_castSucc m c t, PhiS_pos m c _ _ (by omega)]
    iintro ⟨⟨HS0, Hg⟩, Ho, ⟨%d0, H0⟩, ⟨%d1, H1⟩⟩
    iapply ((runLast c (grid0.coords t) _ _ _ _ _ _ hl (iblk m c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 Hg]
    · isplitl [HS0]
      · unfold owns; iexists _; isplitr
        swap; · iexact HS0
        ipureintro; exact View.read_writes_of_cover _ _ _ _ _ (acc_cover_last c _ _ _ _ _ _ _ _ _ _)
      iexact Hg
    isplitl [Ho]; · iexact Ho
    isplitl [H0]; · iexact H0
    unfold owns; iexists _; isplitr
    swap; · iexact H1
    ipureintro; exact View.read_writes_of_cover _ _ _ _ _ (out_cover_last c _ _ _ _ _ _ _ _ _ _)
  · rw [Dat.leavesExact_idle (dats m 0 c) 1 t (idle_out t hl) (noFlush_out t hl)]
    by_cases hz : t.val = 0
    · rw [stateAt_first m c t hz hl]
      (try dsimp only)
      rw [PhiS_castSucc m c t, PhiS_zero m c _ _ hz, PhiA_eq]
      iintro ⟨⟨⟨%es, HS0⟩, Hg⟩, Ho, ⟨%d0, H0⟩, ⟨%d1, H1⟩⟩
      rw [accStep_first c (grid0.coords t) _ _ _ _ _ _ hl (iblk m c 0 t) ((coord_eq t).trans hz) acc0 es]
      unfold accStep
      iapply ((runStep c (grid0.coords t) _ _ _ _ _ _ hl (iblk m c 0 t) es).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (acc_cover_step c _ _ _ _ _ _ _ _ _ _)
        iexact Hg
      isplitl [Ho]; · iexact Ho
      isplitl [H0]; · iexact H0
      iexists _; iexact H1
    · rw [stateAt_step m c t hz hl]
      unfold accStep; (try dsimp only)
      rw [PhiS_castSucc m c t, PhiS_pos m c _ _ hz]
      iintro ⟨⟨HS0, Hg⟩, Ho, ⟨%d0, H0⟩, ⟨%d1, H1⟩⟩
      iapply ((runStep c (grid0.coords t) _ _ _ _ _ _ hl (iblk m c 0 t) _).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (acc_cover_step c _ _ _ _ _ _ _ _ _ _)
        iexact Hg
      isplitl [Ho]; · iexact Ho
      isplitl [H0]; · iexact H0
      iexists _; iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame, at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Body

end
-- ==== Proof.IdealOut.lean ====
/-
  The kernel's result, read off the frame run.

  The output's [1, 1] array is written back once, at the last grid point (point 7 of 8), and that point's block is
  the whole array: so after the run the array holds what the body stored into the output's buffer at the last point.
  The one host line after the region reshapes the [1, 1] array into the scalar result.
-/
import proofs.«174938_g53377853555121_feedfinal_227_15_alg».proof.Proof.IdealFrame
import Idealize.ShloMosaic.Lib.Pipeline.Value
import Idealize.ShloMosaic.Lib.StableHlo.Run
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

variable (m : (ℓ : Loc nD τ sig) → Buf (Elt F) ℓ) (ρ : Dev nD → PrngReg)

/-- What the body stored into the output's buffer at the last point, as contents of the [1, 1] result array (its one
    block is the array). -/
abbrev result (c : Dev nD) : Buf (Elt F) ((c : Thread nD τ).loc main_v0) :=
  (stateAt m c 7 (by rw [show cfg0.N = 8 from N_0]; decide)).1

/-- The one write-back, at point 7, writes it: block (0, 0) of the [1, 1] array read through zero offsets is the array. -/
theorem flushed_eq (c : Dev nD) (t : Fin cfg0.N) (hf : (cfg0.win 1).flush t = true) :
    (dats m 0 c).flushed 1 t = ((cfg0.win 1).blk t).view.read (Elt F) (result m c) := by
  have hN : cfg0.N = 8 := N_0
  have h7 : t.val = 7 := by have := (flush0_1 t).mp hf; have := t.isLt; omega
  obtain rfl : t = t0_7 := Fin.ext h7
  show (cfg0.win 1).cut (grid0.coords t0_7) ((dats m 0 c).after 1 t0_7) = _
  rw [after_out]
  have hz' : (fun a => win0_1.index t0_7 a * main_v0.ty.shape.size a) = fun _ => 0 := funext fun a => by fin_cases a <;> decide
  exact (Memref.read_access_unit_zero (Elt F) main_v0 hz' (fun a => by rw [congrFun hz' a]; simp) (result m c)).symm

/-- So the [1, 1] array ends holding what the last point stored: point 7's block covers it. -/
theorem final_out (c : Dev nD) : (dats m 0 c).arrAt 1 cfg0.N = result m c :=
  (dats m 0 c).arrAt_eq_of_cover 1 (result m c) (flushed_eq m c) fun i =>
    ⟨t0_7, (flush0_1 t0_7).mpr rfl, by
      show i ∈ ((View.whole main_v0).slice (win0_1.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 1 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 1 from by decide +kernel]; omega⟩

/-- The scalar result buffer is unscoped and is no window's array. -/
theorem main_v1_rest : main_v1 ∈ Pipeline.restRefs sig cfg0.spec :=
  Pipeline.mem_restRefs_of main_v1 rfl (fun w => by fin_cases w <;> decide)

/-- After the host line that follows the region the scalar result buffer holds the [1, 1] array's final contents,
    reshaped. -/
theorem tail_value (c : Dev nD) :
    Pipeline.afterTail₀ cfgs (dats m) 0 (V0 m) [hostOps1] c main_v1 = shapeCast S_ (result m c) shapeCasts_S1x1_S_ := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = result m c :=
    (Pipeline.withArrays_arr spec0 launch0.win.arr_inj c (V0 m c) _ 1).trans (final_out m c)
  rw [e]
  rfl

/-- The run, read at the result: the scalar result is the last point's stored value, reshaped; the argument is unchanged. -/
theorem run_value : θ_run defs (onTc (τ := τ) (main (F := F))) ⟨m, fun _ => 0, ρ⟩ fun r => ∀ c : Dev nD,
      r.2.mem ((c.tc : Thread nD τ).loc main_v1) = shapeCast S_ (result m c) shapeCasts_S1x1_S_
      ∧ r.2.mem ((c.tc : Thread nD τ).loc main_arg0) = m ((c.tc : Thread nD τ).loc main_arg0) :=
  (θ_run defs _ _).mono (fun _ h c =>
      ⟨((h c).2 main_v1 main_v1_rest).trans (tail_value m c),
       ((h c).1 0).trans (((dats m 0 c).arrAt_in 0 rfl _).trans ((A_eq m c 0).trans (V_main_arg0 m c)))⟩)
    (run_main m ρ)

end Cert.KernelIdeal.Body

end
-- ==== Proof.IdealAcc.lean ====
/-
  The accumulator after a point, as one explicit function of the point's block and of what the accumulator held before.

  Row p of the 4 × 256 accumulator is rewritten from batches 2p and 2p + 1 of the block (two slabs of 1024 × 128) and from
  row p of the old accumulator; no row's new value depends on another row. The output's one entry, at the last point, is
  computed from the accumulator as the four row stores left it.
-/
import proofs.«174938_g53377853555121_feedfinal_227_15_alg».proof.Proof.IdealFrame
import Idealize.ShloMosaic.Lib.Pipeline.Value
import Idealize.ShloMosaic.Lib.ValueIdx

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.ValueIdx

/-- Batch k of a block of eight. -/
def slab (k : Fin 8) (x0 : Vec F S8x1024x128 .f32) : Vec F S1x1024x128 .f32 := fun j => x0 (ix3 k (j 1) (j 2))
/-- Row p of the accumulator. -/
def accRow (p : Fin 4) (xs : Vec F S4x256 .f32) : Vec F S1x256 .f32 := fun j => xs (ix2 p (j 1))

/-- The four row stores' values, from the grid coordinate, the two slabs and the row's old contents. -/
def rowVal0 (arg0 : BitVec 32) (va vb : Vec F S1x1024x128 .f32) (prev : Vec F S1x256 .f32) : FVec F S1x256 .f32 :=
  k0_pay5 (k0_pay4 va vb) (Scalar.cmpi .eq arg0 0#32) prev
def rowVal1 (arg0 : BitVec 32) (va vb : Vec F S1x1024x128 .f32) (prev : Vec F S1x256 .f32) : FVec F S1x256 .f32 :=
  k0_pay10 arg0 (k0_pay7 va vb) (k0_pay8 k0_pay3 va vb) k0_pay9 prev
def rowVal2 (arg0 : BitVec 32) (va vb : Vec F S1x1024x128 .f32) (prev : Vec F S1x256 .f32) : FVec F S1x256 .f32 :=
  k0_pay16 arg0 (k0_pay13 k0_pay3 va vb) (k0_pay14 va vb) (k0_pay15 va vb) prev
def rowVal3 (arg0 : BitVec 32) (va vb : Vec F S1x1024x128 .f32) (prev : Vec F S1x256 .f32) : FVec F S1x256 .f32 :=
  k0_pay1 arg0 (k0_pay19 va vb) (k0_pay20 va vb) (k0_pay21 k0_pay3 va vb) prev

/-- The accumulator after a point. -/
def accSpec (arg0 : BitVec 32) (x0 : Vec F S8x1024x128 .f32) (xs : Vec F S4x256 .f32) : Vec F S4x256 .f32 := fun y =>
  if (y 0).val = 0 then rowVal0 arg0 (slab 0 x0) (slab 1 x0) (accRow 0 xs) (ix2 0 (y 1))
  else if (y 0).val = 1 then rowVal1 arg0 (slab 2 x0) (slab 3 x0) (accRow 1 xs) (ix2 0 (y 1))
  else if (y 0).val = 2 then rowVal2 arg0 (slab 4 x0) (slab 5 x0) (accRow 2 xs) (ix2 0 (y 1))
  else rowVal3 arg0 (slab 6 x0) (slab 7 x0) (accRow 3 xs) (ix2 0 (y 1))

/-- A load of batch k of the block is that slab. -/
theorem ld_slab (k : Fin 8) (x0 : Vec F S8x1024x128 .f32) (inb : ∀ a, (![k.val, 0, 0] : Fin 3 → ℕ) a + S1x1024x128.size a ≤ S8x1024x128.size a) :
    View.ld x0 (Rect.unit (s := S8x1024x128) ![k.val, 0, 0] S1x1024x128.size inb) = slab k x0 := by
  funext j
  show x0 _ = x0 _
  congr 1; funext a; apply Fin.ext
  match a with
  | ⟨0, _⟩ => show k.val + 1 * (j 0).val = k.val; have := (j 0).isLt; (have h1 : (j 0).val < 1 := this); omega
  | ⟨1, _⟩ => show 0 + 1 * (j 1).val = (j 1).val; omega
  | ⟨2, _⟩ => show 0 + 1 * (j 2).val = (j 2).val; omega

/-- A load of row p of the accumulator is that row. -/
theorem ld_accRow (p : Fin 4) (xs : Vec F S4x256 .f32) (inb : ∀ a, (![p.val, 0] : Fin 2 → ℕ) a + S1x256.size a ≤ S4x256.size a) :
    View.ld xs (Rect.unit (s := S4x256) ![p.val, 0] S1x256.size inb) = accRow p xs := by
  funext j
  show xs _ = xs _
  congr 1; funext a; apply Fin.ext
  match a with
  | ⟨0, _⟩ => show p.val + 1 * (j 0).val = p.val; have := (j 0).isLt; (have h1 : (j 0).val < 1 := this); omega
  | ⟨1, _⟩ => show 0 + 1 * (j 1).val = (j 1).val; omega

/-- A load of batch k of the block is that slab. -/
theorem ld_slabN (k : ℕ) (hk : k < 8) (x0 : Vec F S8x1024x128 .f32) (inb : ∀ a, (![k, 0, 0] : Fin 3 → ℕ) a + S1x1024x128.size a ≤ S8x1024x128.size a) :
    View.ld x0 (Rect.unit (s := S8x1024x128) ![k, 0, 0] S1x1024x128.size inb) = slab ⟨k, hk⟩ x0 := ld_slab ⟨k, hk⟩ x0 inb

theorem ld_accRowN (p : ℕ) (hp : p < 4) (xs : Vec F S4x256 .f32) (inb : ∀ a, (![p, 0] : Fin 2 → ℕ) a + S1x256.size a ≤ S4x256.size a) :
    View.ld xs (Rect.unit (s := S4x256) ![p, 0] S1x256.size inb) = accRow ⟨p, hp⟩ xs := ld_accRow ⟨p, hp⟩ xs inb

/-- The four row stores, last first, as pieces of the accumulator. -/
def rowPieces (arg0 : BitVec 32) (x0 : Vec F S8x1024x128 .f32) (xs : Vec F S4x256 .f32) : List (View.Piece (Elt F) S4x256 .f32) :=
  [⟨(Rect.unit (s := S4x256) ![3, 0] S1x256.size inb_S4x256_S1x256_3_0), rowVal3 arg0 (slab 6 x0) (slab 7 x0) (accRow 3 xs)⟩,
   ⟨(Rect.unit (s := S4x256) ![2, 0] S1x256.size inb_S4x256_S1x256_2_0), rowVal2 arg0 (slab 4 x0) (slab 5 x0) (accRow 2 xs)⟩,
   ⟨(Rect.unit (s := S4x256) ![1, 0] S1x256.size inb_S4x256_S1x256_1_0), rowVal1 arg0 (slab 2 x0) (slab 3 x0) (accRow 1 xs)⟩,
   ⟨(Rect.unit (s := S4x256) ![0, 0] S1x256.size inb_S4x256_S1x256_0_0), rowVal0 arg0 (slab 0 x0) (slab 1 x0) (accRow 0 xs)⟩]

/-- They tile the accumulator. -/
theorem rowPieces_cover (arg0 : BitVec 32) (x0 : Vec F S8x1024x128 .f32) (xs : Vec F S4x256 .f32) (y : S4x256.Idx) :
    ∃ pc ∈ rowPieces arg0 x0 xs, y ∈ pc.1.set :=
  View.cover_of_tiledL (rowPieces arg0 x0 xs) S1x256.size (by unfold rowPieces; sl_kernel_rfl) y

/-- Before the last point the run's pieces are these, -/
theorem runStep_pieces (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : ¬isLast i)
    (x0 : Vec F S8x1024x128 .f32) (xs : Vec F S4x256 .f32) :
    (runStep c i arg1 harg1 arg2 harg2 arg3 harg3 hc x0 xs).1 = rowPieces (BitVec.ofNat 32 (i 0).val) x0 xs := by
  unfold runStep
  dsimp only
  sl_unfold_words
  simp only [View.readAt_eq_ld, harg1.read_unread, harg3.read_unread]
  rw [ld_slabN 0 (by decide), ld_slabN 1 (by decide), ld_slabN 2 (by decide), ld_slabN 3 (by decide), ld_slabN 4 (by decide),
    ld_slabN 5 (by decide), ld_slabN 6 (by decide), ld_slabN 7 (by decide)]
  rw [ld_accRowN 0 (by decide), ld_accRowN 1 (by decide), ld_accRowN 2 (by decide), ld_accRowN 3 (by decide)]
  rfl

/-- and at the last point too; the output's one piece is computed from the accumulator read back whole. -/
theorem runLast_pieces (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs : Vec F S4x256 .f32) :
    (runLast c i arg1 harg1 arg2 harg2 arg3 harg3 hc x0 xs).2.1 = rowPieces (BitVec.ofNat 32 (i 0).val) x0 xs
    ∧ (runLast c i arg1 harg1 arg2 harg2 arg3 harg3 hc x0 xs).1 = [⟨Rect.unit (s := S1x1) ![0, 0] S1x1.size inb_S1x1_S1x1_0_0,
        k0_pay2 (arg3.view.readCov (rowPieces (BitVec.ofNat 32 (i 0).val) x0 xs) (Rect.unit (s := S4x256) ![0, 0] S4x256.size inb_S4x256_S4x256_0_0).toLoadRect)⟩] := by
  unfold runLast
  dsimp only
  sl_unfold_words
  simp only [View.readAt_eq_ld, harg1.read_unread, harg3.read_unread]
  rw [ld_slabN 0 (by decide), ld_slabN 1 (by decide), ld_slabN 2 (by decide), ld_slabN 3 (by decide), ld_slabN 4 (by decide),
    ld_slabN 5 (by decide), ld_slabN 6 (by decide), ld_slabN 7 (by decide)]
  rw [ld_accRowN 0 (by decide), ld_accRowN 1 (by decide), ld_accRowN 2 (by decide), ld_accRowN 3 (by decide)]
  exact ⟨rfl, rfl⟩

theorem hz2 : (![0, 0] : Fin 2 → ℕ) = fun _ => 0 := funext fun a => by fin_cases a <;> rfl

/-- Read back, the four pieces are the explicit accumulator. -/
theorem canon_rowPieces (arg0 : BitVec 32) (x0 : Vec F S8x1024x128 .f32) (xs : Vec F S4x256 .f32) :
    View.canon (rowPieces arg0 x0 xs) = accSpec arg0 x0 xs := by
  funext y
  refine View.canon_apply_of_pieces (accSpec arg0 x0 xs) _ ?_ y (rowPieces_cover arg0 x0 xs y)
  intro p hp x
  unfold rowPieces at hp
  simp only [List.mem_cons, List.mem_nil_iff, or_false] at hp
  rcases hp with rfl | rfl | rfl | rfl
  · dsimp only
    have h0 : ((Rect.unit (s := S4x256) ![3, 0] ![1, 256] inb_S4x256_S1x256_3_0).emb x 0).val = 3 := by
      show 3 + 1 * (x 0).val = 3; have h1 : (x 0).val < 1 := (x 0).isLt; omega
    have hx : x = ix2 0 ((Rect.unit (s := S4x256) ![3, 0] ![1, 256] inb_S4x256_S1x256_3_0).emb x 1) := by
      funext a; apply Fin.ext
      match a with
      | ⟨0, _⟩ => show (x 0).val = 0; have h1 : (x 0).val < 1 := (x 0).isLt; omega
      | ⟨1, _⟩ => show (x 1).val = 0 + 1 * (x 1).val; omega
    unfold accSpec
    rw [if_neg (by omega), if_neg (by omega), if_neg (by omega)]
    exact congrArg (rowVal3 arg0 (slab 6 x0) (slab 7 x0) (accRow 3 xs)) hx
  · dsimp only
    have h0 : ((Rect.unit (s := S4x256) ![2, 0] ![1, 256] inb_S4x256_S1x256_2_0).emb x 0).val = 2 := by
      show 2 + 1 * (x 0).val = 2; have h1 : (x 0).val < 1 := (x 0).isLt; omega
    have hx : x = ix2 0 ((Rect.unit (s := S4x256) ![2, 0] ![1, 256] inb_S4x256_S1x256_2_0).emb x 1) := by
      funext a; apply Fin.ext
      match a with
      | ⟨0, _⟩ => show (x 0).val = 0; have h1 : (x 0).val < 1 := (x 0).isLt; omega
      | ⟨1, _⟩ => show (x 1).val = 0 + 1 * (x 1).val; omega
    unfold accSpec
    rw [if_neg (by omega), if_neg (by omega), if_pos (by omega)]
    exact congrArg (rowVal2 arg0 (slab 4 x0) (slab 5 x0) (accRow 2 xs)) hx
  · dsimp only
    have h0 : ((Rect.unit (s := S4x256) ![1, 0] ![1, 256] inb_S4x256_S1x256_1_0).emb x 0).val = 1 := by
      show 1 + 1 * (x 0).val = 1; have h1 : (x 0).val < 1 := (x 0).isLt; omega
    have hx : x = ix2 0 ((Rect.unit (s := S4x256) ![1, 0] ![1, 256] inb_S4x256_S1x256_1_0).emb x 1) := by
      funext a; apply Fin.ext
      match a with
      | ⟨0, _⟩ => show (x 0).val = 0; have h1 : (x 0).val < 1 := (x 0).isLt; omega
      | ⟨1, _⟩ => show (x 1).val = 0 + 1 * (x 1).val; omega
    unfold accSpec
    rw [if_neg (by omega), if_pos (by omega)]
    exact congrArg (rowVal1 arg0 (slab 2 x0) (slab 3 x0) (accRow 1 xs)) hx
  · dsimp only
    have h0 : ((Rect.unit (s := S4x256) ![0, 0] ![1, 256] inb_S4x256_S1x256_0_0).emb x 0).val = 0 := by
      show 0 + 1 * (x 0).val = 0; have h1 : (x 0).val < 1 := (x 0).isLt; omega
    have hx : x = ix2 0 ((Rect.unit (s := S4x256) ![0, 0] ![1, 256] inb_S4x256_S1x256_0_0).emb x 1) := by
      funext a; apply Fin.ext
      match a with
      | ⟨0, _⟩ => show (x 0).val = 0; have h1 : (x 0).val < 1 := (x 0).isLt; omega
      | ⟨1, _⟩ => show (x 1).val = 0 + 1 * (x 1).val; omega
    unfold accSpec
    rw [if_pos (by omega)]
    exact congrArg (rowVal0 arg0 (slab 0 x0) (slab 1 x0) (accRow 0 xs)) hx

/-- What the accumulator holds after a point that is not the last, -/
theorem accStep_eq (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : ¬isLast i)
    (x0 : Vec F S8x1024x128 .f32) (xs : Vec F S4x256 .f32) :
    accStep c i arg1 harg1 arg2 harg2 arg3 harg3 hc x0 xs = accSpec (BitVec.ofNat 32 (i 0).val) x0 xs := by
  unfold accStep
  rw [View.read_writes_eq_canon _ _ _ (acc_cover_step c i arg1 harg1 arg2 harg2 arg3 harg3 hc x0 xs), runStep_pieces, canon_rowPieces]

/-- after the last point, -/
theorem accLast_eq (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs : Vec F S4x256 .f32) :
    accLast c i arg1 harg1 arg2 harg2 arg3 harg3 hc x0 xs = accSpec (BitVec.ofNat 32 (i 0).val) x0 xs := by
  unfold accLast
  rw [View.read_writes_eq_canon _ _ _ (acc_cover_last c i arg1 harg1 arg2 harg2 arg3 harg3 hc x0 xs), (runLast_pieces c i arg1 harg1 arg2 harg2 arg3 harg3 hc x0 xs).1, canon_rowPieces]

/-- and the output's one entry: the last payload of that accumulator. -/
theorem outLast_eq (c : Dev nD) (i : grid0.Coords) (arg1 : Memref sig .tc .vmem S8x1024x128 .f32) (harg1 : arg1.IsWhole) (arg2 : Memref sig .tc .vmem S1x1 .f32) (harg2 : arg2.IsWhole) (arg3 : Memref sig .tc .vmem S4x256 .f32) (harg3 : arg3.IsWhole) (hc : isLast i)
    (x0 : Vec F S8x1024x128 .f32) (xs : Vec F S4x256 .f32) :
    outLast c i arg1 harg1 arg2 harg2 arg3 harg3 hc x0 xs = k0_pay2 (accSpec (BitVec.ofNat 32 (i 0).val) x0 xs) := by
  unfold outLast
  rw [View.read_writes_eq_canon _ _ _ (out_cover_last c i arg1 harg1 arg2 harg2 arg3 harg3 hc x0 xs), (runLast_pieces c i arg1 harg1 arg2 harg2 arg3 harg3 hc x0 xs).2,
    View.canon_unit_zero hz2, View.readCov_eq_canon_ld _ _ _ (rowPieces_cover _ x0 xs), canon_rowPieces,
    View.ld_unit_zero hz2]

end Cert.KernelIdeal.Body

end
-- ==== Proof.SimSpec.lean ====
/-
  The loss both programs compute, over the reals.

  For each of the 64 batches the 1024 rows of 128 entries are divided by their Euclidean norm (clamped from below),
  S = Xn Xnᵀ is the 1024 × 1024 matrix of inner products of the normalised rows, and the loss is the mean of
  (S − 1)² over all batches and entries.  The reference forms S; the kernel never does: it uses
    Σ_{s,t} S_st²  = ‖Xnᵀ Xn‖²_F   (the 128 × 128 Gram matrix of the columns),
    Σ_{s,t} S_st   = ‖Xnᵀ 1‖²      (the vector of column sums),
  so that Σ (S − 1)² = ‖G‖²_F − 2 ‖m‖² + 1024².
  The two normalisations differ in spelling: x / max(√ss, D) against x · (√ max(ss, D²))⁻¹, the same number because
  the square root is monotone and D > 0.
-/
import Idealize.ShloMosaic.PureOps.Ideal

noncomputable section

open scoped BigOperators

namespace Cert.Sim

/-- The lower clamp of a row's norm: the exact value of the single-precision number nearest 10⁻¹². -/
def D : ℝ := 2305843 / 2305843009213693952

/-- The input, by coordinates: batch, row, entry. -/
abbrev Arr := Fin 64 → Fin 1024 → Fin 128 → ℝ

/-- A row's sum of squares. -/
def ss (x : Arr) (b : Fin 64) (s : Fin 1024) : ℝ := ∑ d, x b s d * x b s d

/-- The normalised rows, as the reference spells them: divided by the clamped norm. -/
def xn (x : Arr) (b : Fin 64) (s : Fin 1024) (d : Fin 128) : ℝ := x b s d / max (Real.sqrt (ss x b s)) D

/-- The reference's loss: the mean of (⟨row s, row t⟩ − 1)² over batches and pairs of rows. -/
def lossRef (x : Arr) : ℝ :=
  (∑ b, ∑ s, ∑ t, ((∑ d, xn x b s d * xn x b t d) - 1) * ((∑ d, xn x b s d * xn x b t d) - 1)) / 67108864

/-- The normalised rows, as the kernel spells them: times the reciprocal square root of the clamped sum of squares. -/
def yk (x : Arr) (b : Fin 64) (s : Fin 1024) (d : Fin 128) : ℝ := x b s d * (Real.sqrt (max (ss x b s) (D * D)))⁻¹

/-- The Gram matrix of a batch's columns. -/
def gram (x : Arr) (b : Fin 64) (r l : Fin 128) : ℝ := ∑ s, yk x b s r * yk x b s l

/-- A batch's column sums. -/
def msum (x : Arr) (b : Fin 64) (l : Fin 128) : ℝ := ∑ s, yk x b s l

/-- What one batch contributes at one column: the column's sum of squared Gram entries less twice its squared sum. -/
def part (x : Arr) (b : Fin 64) (l : Fin 128) : ℝ :=
  (∑ r, gram x b r l * gram x b r l) - 2 * (msum x b l * msum x b l)

/-- The kernel's loss. -/
def lossKer (x : Arr) : ℝ := (∑ b, ∑ l, part x b l) * (1 / 67108864) + 1

end Cert.Sim

end
-- ==== Proof.SimAlgebra.lean ====
/-
  The two spellings of the loss agree over the reals.

  Two facts carry the proof.  First, the two normalisations are the same number: the square root is monotone and
  √(D·D) = D for D ≥ 0, so √(max s (D·D)) = max (√s) D.  Second, for any real matrix y with rows s and columns d,
  the sum over pairs of rows of (⟨row s, row t⟩ − 1)² equals ‖yᵀy‖²_F − 2 ‖yᵀ1‖² + (number of rows)²: expand the
  square and exchange the order of summation, both Σ_{s,t} ⟨row s, row t⟩² and ‖yᵀy‖²_F being
  Σ_{s,t,r,l} y_sr y_tr y_sl y_tl.
-/
import proofs.«174938_g53377853555121_feedfinal_227_15_alg».proof.Proof.SimSpec

noncomputable section

open scoped BigOperators

namespace Cert.Sim

section General

variable {ι κ : Type*} [Fintype ι] [Fintype κ]

/-- The squared Frobenius norm of y yᵀ (inner products of rows) equals that of yᵀ y (inner products of columns):
both are Σ_{s,t,r,l} y_sr y_tr y_sl y_tl. -/
theorem sum_sq_rowInner_eq_sum_sq_colInner (y : ι → κ → ℝ) :
    ∑ s, ∑ t, (∑ d, y s d * y t d) * (∑ d, y s d * y t d)
      = ∑ l, ∑ r, (∑ s, y s r * y s l) * (∑ s, y s r * y s l) := by
  have hL : ∀ s t, (∑ d, y s d * y t d) * (∑ d, y s d * y t d)
      = ∑ r, ∑ l, (y s r * y t r) * (y s l * y t l) := fun s t => Finset.sum_mul_sum _ _ _ _
  have hR : ∀ l r, (∑ s, y s r * y s l) * (∑ s, y s r * y s l)
      = ∑ s, ∑ t, (y s r * y s l) * (y t r * y t l) := fun l r => Finset.sum_mul_sum _ _ _ _
  simp_rw [hL, hR]
  calc ∑ s, ∑ t, ∑ r, ∑ l, (y s r * y t r) * (y s l * y t l)
      = ∑ s, ∑ r, ∑ t, ∑ l, (y s r * y t r) * (y s l * y t l) :=
        Finset.sum_congr rfl fun s _ => Finset.sum_comm
    _ = ∑ r, ∑ s, ∑ t, ∑ l, (y s r * y t r) * (y s l * y t l) := Finset.sum_comm
    _ = ∑ r, ∑ s, ∑ l, ∑ t, (y s r * y t r) * (y s l * y t l) :=
        Finset.sum_congr rfl fun r _ => Finset.sum_congr rfl fun s _ => Finset.sum_comm
    _ = ∑ r, ∑ l, ∑ s, ∑ t, (y s r * y t r) * (y s l * y t l) :=
        Finset.sum_congr rfl fun r _ => Finset.sum_comm
    _ = ∑ l, ∑ r, ∑ s, ∑ t, (y s r * y t r) * (y s l * y t l) := Finset.sum_comm
    _ = ∑ l, ∑ r, ∑ s, ∑ t, (y s r * y s l) * (y t r * y t l) :=
        Finset.sum_congr rfl fun l _ => Finset.sum_congr rfl fun r _ =>
          Finset.sum_congr rfl fun s _ => Finset.sum_congr rfl fun t _ => by ring

/-- The sum of all inner products of pairs of rows is the squared norm of the vector of column sums. -/
theorem sum_rowInner_eq_sum_sq_colSum (y : ι → κ → ℝ) :
    ∑ s, ∑ t, ∑ d, y s d * y t d = ∑ l, (∑ s, y s l) * (∑ s, y s l) := by
  have hR : ∀ l, (∑ s, y s l) * (∑ s, y s l) = ∑ s, ∑ t, y s l * y t l :=
    fun l => Finset.sum_mul_sum _ _ _ _
  simp_rw [hR]
  calc ∑ s, ∑ t, ∑ d, y s d * y t d
      = ∑ s, ∑ d, ∑ t, y s d * y t d := Finset.sum_congr rfl fun s _ => Finset.sum_comm
    _ = ∑ d, ∑ s, ∑ t, y s d * y t d := Finset.sum_comm

/-- **Gram-matrix form of Σ (S − 1)².**  For a real matrix y with rows indexed by ι and columns by κ, let
S = y yᵀ be the matrix of inner products of rows.  Then
  Σ_{s,t} (S_st − 1)² = Σ_l ( Σ_r G_rl² − 2 m_l² ) + |ι|²,
where G = yᵀ y is the Gram matrix of the columns and m = yᵀ 1 the vector of column sums.  The |ι| × |ι| matrix S
never has to be formed. -/
theorem sum_sq_rowInner_sub_one (y : ι → κ → ℝ) :
    ∑ s, ∑ t, ((∑ d, y s d * y t d) - 1) * ((∑ d, y s d * y t d) - 1)
      = ∑ l, ((∑ r, (∑ s, y s r * y s l) * (∑ s, y s r * y s l)) - 2 * ((∑ s, y s l) * (∑ s, y s l)))
        + (Fintype.card ι : ℝ) * (Fintype.card ι : ℝ) := by
  have h1 : ∀ s t, ((∑ d, y s d * y t d) - 1) * ((∑ d, y s d * y t d) - 1)
      = (∑ d, y s d * y t d) * (∑ d, y s d * y t d) - 2 * (∑ d, y s d * y t d) + 1 :=
    fun s t => by ring
  simp_rw [h1, Finset.sum_add_distrib, Finset.sum_sub_distrib, ← Finset.mul_sum]
  rw [sum_sq_rowInner_eq_sum_sq_colInner, sum_rowInner_eq_sum_sq_colSum]
  simp [Finset.card_univ]

end General

/-- The clamp is positive. -/
theorem D_pos : 0 < D := by unfold D; norm_num

/-- The clamped sum of squares is positive. -/
theorem max_sq_pos (r : ℝ) : 0 < max r (D * D) :=
  lt_of_lt_of_le (mul_pos D_pos D_pos) (le_max_right _ _)

/-- The square root commutes with the clamp: √(max s D²) = max (√s) D. -/
theorem sqrt_max_sq (s : ℝ) : Real.sqrt (max s (D * D)) = max (Real.sqrt s) D := by
  have hmono : Monotone Real.sqrt := fun _ _ h => Real.sqrt_le_sqrt h
  rw [hmono.map_max, Real.sqrt_mul_self D_pos.le]

/-- The two spellings of the normalised rows are the same number. -/
theorem yk_eq_xn (x : Arr) (b : Fin 64) (s : Fin 1024) (d : Fin 128) : yk x b s d = xn x b s d := by
  unfold yk xn
  rw [sqrt_max_sq, div_eq_mul_inv]

/-- The kernel's loss is the reference's loss. -/
theorem lossKer_eq_lossRef (x : Arr) : lossKer x = lossRef x := by
  have hb : ∀ b : Fin 64,
      (∑ s, ∑ t, ((∑ d, xn x b s d * xn x b t d) - 1) * ((∑ d, xn x b s d * xn x b t d) - 1))
        = (∑ l, part x b l) + 1024 * 1024 := by
    intro b
    rw [sum_sq_rowInner_sub_one (fun s d => xn x b s d)]
    simp only [part, gram, msum, yk_eq_xn, Fintype.card_fin]
    norm_num
  unfold lossKer lossRef
  simp_rw [hb, Finset.sum_add_distrib]
  simp only [Finset.sum_const, Finset.card_univ, Fintype.card_fin, nsmul_eq_mul]
  ring

end Cert.Sim

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibStack.lean ====
/-
  Two matrices joined into one, read at an entry given by its coordinates, for any extents.

  Side by side (`[a, b₁]` and `[a, b₂]` joined along the last axis into `[a, t]`): a column below `b₁` reads the left
  matrix at that column, a column `b₁ + k` reads the right matrix at column `k` (`beside_left`, `beside_right`).
  One above the other (`[a₁, b]` and `[a₂, b]` joined along the first axis into `[t, b]`): a row below `a₁` reads the
  upper matrix, a row `a₁ + k` the lower one at row `k` (`above_top`, `above_bottom`).
  The joined extent `t` and the coordinate in it are separate variables tied by an equation between naturals, so the
  lemmas apply to a literal extent such as 128 with pieces of 64 without any arithmetic in a type.
-/
import Idealize.ShloMosaic.Lib.Pipeline.Value
import Idealize.ShloMosaic.Lib.ValueIdx

noncomputable section

namespace Cert.LibStack

open Idealize.ShloMosaic Idealize.ShloMosaic.ValueIdx

variable {α : Type}

/-- Side by side, a column among the first `b₁`: the left matrix at the same row and column. -/
theorem beside_left {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₁) (k' : Fin t) (hk : k'.val = k.val) :
    concatenate ⟨2, ![a, t]⟩ 1 [⟨⟨2, ![a, b₁]⟩, x⟩, ⟨⟨2, ![a, b₂]⟩, y⟩] h (ix2 p k') = x (ix2 p k) :=
  concatenate_pair_apply_left 1 x y h (ix2 p k') rfl (ix2 p k) fun b => by
    match b with
    | ⟨0, _⟩ => rfl
    | ⟨1, _⟩ => exact hk.symm

/-- Side by side, column `b₁ + k`: the right matrix at the same row and column `k`. -/
theorem beside_right {a b₁ b₂ t : ℕ} (x : (⟨2, ![a, b₁]⟩ : Shape).Idx → α) (y : (⟨2, ![a, b₂]⟩ : Shape).Idx → α)
    (h : Shape.Concatenates [(⟨2, ![a, b₁]⟩ : Shape), ⟨2, ![a, b₂]⟩] ⟨2, ![a, t]⟩ 1)
    (p : Fin a) (k : Fin b₂) (k' : Fin t) (hk : k'.val = k.val + b₁) :
    concatenate ⟨2, ![a, t]⟩ 1 [⟨⟨2, ![a, b₁]⟩, x⟩, ⟨⟨2, ![a, b₂]⟩, y⟩] h (ix2 p k') = y (ix2 p k) :=
  concatenate_pair_apply_right 1 x y h (ix2 p k') rfl rfl (ix2 p k)
    (fun b hb => by
      match b with
      | ⟨0, _⟩ => rfl
      | ⟨1, _⟩ => exact absurd rfl hb)
    (by show k.val + b₁ = k'.val; exact hk.symm)

/-- One above the other, a row among the first `a₁`: the upper matrix at the same row and column. -/
theorem above_top {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₁) (k' : Fin t) (q : Fin b) (hk : k'.val = k.val) :
    concatenate ⟨2, ![t, b]⟩ 0 [⟨⟨2, ![a₁, b]⟩, x⟩, ⟨⟨2, ![a₂, b]⟩, y⟩] h (ix2 k' q) = x (ix2 k q) :=
  concatenate_pair_apply_left 0 x y h (ix2 k' q) rfl (ix2 k q) fun b => by
    match b with
    | ⟨0, _⟩ => exact hk.symm
    | ⟨1, _⟩ => rfl

/-- One above the other, row `a₁ + k`: the lower matrix at row `k` and the same column. -/
theorem above_bottom {a₁ a₂ b t : ℕ} (x : (⟨2, ![a₁, b]⟩ : Shape).Idx → α) (y : (⟨2, ![a₂, b]⟩ : Shape).Idx → α)
    (h : Shape.Concatenates [(⟨2, ![a₁, b]⟩ : Shape), ⟨2, ![a₂, b]⟩] ⟨2, ![t, b]⟩ 0)
    (k : Fin a₂) (k' : Fin t) (q : Fin b) (hk : k'.val = k.val + a₁) :
    concatenate ⟨2, ![t, b]⟩ 0 [⟨⟨2, ![a₁, b]⟩, x⟩, ⟨⟨2, ![a₂, b]⟩, y⟩] h (ix2 k' q) = y (ix2 k q) :=
  concatenate_pair_apply_right 0 x y h (ix2 k' q) rfl rfl (ix2 k q)
    (fun b hb => by
      match b with
      | ⟨0, _⟩ => exact absurd rfl hb
      | ⟨1, _⟩ => rfl)
    (by show k.val + a₁ = k'.val; exact hk.symm)

end Cert.LibStack

end
-- ==== Proof.LibFeatureFold.lean ====
/-
  The nine-feature fold. For real data, the contraction of the masked feature vector
  [x, y, z, e, x - cx, y - cy, cx, cy, zc] with nine real weights equals the mask times a five-term
  combination with folded weights (w0 + w4, w1 + w5, w6 - w4, w7 - w5) plus a per-pillar offset; both
  are the same real number. Also: extended reals that are reals are closed under +, -, *, negation,
  max, min and finite sums, and the coercion of a finite real sum is the sum of the coercions.
-/
import Idealize.ShloMosaic.PureOps.Ideal
import Mathlib.Algebra.BigOperators.Fin
import Mathlib.Tactic.Ring

noncomputable section

namespace Cert.Lib.FeatureFold

open Idealize.ShloMosaic

/-! ### Extended reals that are reals -/

/-- An extended real that is (the coercion of) a real. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.neg {a : EReal} (ha : IsReal a) : IsReal (-a) := by
  obtain ⟨r, rfl⟩ := ha; exact ⟨-r, (EReal.coe_neg r).symm⟩

theorem IsReal.max {a b : EReal} (ha : IsReal a) (hb : IsReal b) : IsReal (max a b) := by
  rcases max_choice a b with h | h <;> rw [h] <;> assumption

theorem IsReal.min {a b : EReal} (ha : IsReal a) (hb : IsReal b) : IsReal (min a b) := by
  rcases min_choice a b with h | h <;> rw [h] <;> assumption

/-- A finite sum of reals is a real. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- Division of a real by a nonzero real is a real. -/
theorem IsReal.div_coe {a : EReal} (ha : IsReal a) {n : ℝ} (hn : n ≠ 0) : IsReal (Ideal.div a (n : EReal)) := by
  rw [Ideal.div_coe hn]; exact ha.mul (isReal_coe _)

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction of two real vectors, read on the extended reals, is the real contraction. -/
theorem coe_sum_mul {ι : Type*} (s : Finset ι) (f g : ι → ℝ) :
    (∑ i ∈ s, (f i : EReal) * (g i : EReal)) = ((∑ i ∈ s, f i * g i : ℝ) : EReal) := by
  simp only [← EReal.coe_mul, ← coe_sum]

/-! ### The fold -/

/-- A sum over nine indices, written out. -/
theorem sum_fin9 {M : Type*} [AddCommMonoid M] (g : Fin 9 → M) :
    ∑ i, g i = g 0 + g 1 + g 2 + g 3 + g 4 + g 5 + g 6 + g 7 + g 8 := by
  rw [Fin.sum_univ_castSucc, Fin.sum_univ_eight]
  rfl

/-- The folded form as a real: mask times (five folded terms plus the per-pillar offset). -/
def foldR (x y z e cx cy zc mk : ℝ) (w : Fin 9 → ℝ) : ℝ :=
  mk * ((((x * (w 0 + w 4) + y * (w 1 + w 5)) + z * w 2) + e * w 3)
    + ((cx * (w 6 - w 4) + cy * (w 7 - w 5)) + zc * w 8))

/-- The nine-term contraction of the masked features with the weights, over the reals. -/
theorem concat_real (x y z e cx cy zc mk : ℝ) (w : Fin 9 → ℝ) :
    (∑ i : Fin 9, ((![x, y, z, e, x - cx, y - cy, cx, cy, zc] : Fin 9 → ℝ) i * mk) * w i)
      = foldR x y z e cx cy zc mk w := by
  rw [sum_fin9]
  show (x * mk) * w 0 + (y * mk) * w 1 + (z * mk) * w 2 + (e * mk) * w 3 + ((x - cx) * mk) * w 4
      + ((y - cy) * mk) * w 5 + (cx * mk) * w 6 + (cy * mk) * w 7 + (zc * mk) * w 8 = _
  unfold foldR
  ring

/-- The nine-term contraction on the extended reals is the real folded value. -/
theorem concat_ereal (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = ((foldR x y z e cx cy zc mk w : ℝ) : EReal) := by
  rw [sum_fin9]
  show ((x : EReal) * (mk : EReal)) * (w 0 : EReal) + ((y : EReal) * (mk : EReal)) * (w 1 : EReal)
      + ((z : EReal) * (mk : EReal)) * (w 2 : EReal) + ((e : EReal) * (mk : EReal)) * (w 3 : EReal)
      + (((x : EReal) - (cx : EReal)) * (mk : EReal)) * (w 4 : EReal)
      + (((y : EReal) - (cy : EReal)) * (mk : EReal)) * (w 5 : EReal)
      + ((cx : EReal) * (mk : EReal)) * (w 6 : EReal) + ((cy : EReal) * (mk : EReal)) * (w 7 : EReal)
      + ((zc : EReal) * (mk : EReal)) * (w 8 : EReal) = _
  simp only [← EReal.coe_mul, ← EReal.coe_add, ← EReal.coe_sub]
  exact congrArg _ (by unfold foldR; ring)

/-- The folded spelling on the extended reals is the same real. -/
theorem folded_ereal (x y z e cx cy zc mk : ℝ) (w : Fin 9 → ℝ) :
    (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal)))
      = ((foldR x y z e cx cy zc mk w : ℝ) : EReal) := by
  simp only [← EReal.coe_mul, ← EReal.coe_add, ← EReal.coe_sub]
  rfl

/-- The fold: the nine-term contraction equals the folded spelling, on the extended reals. -/
theorem concat_eq_folded (x y z e cx cy zc mk : ℝ) (w : Fin 9 → ℝ) :
    (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal))
      = (mk : EReal) * (((((x : EReal) * ((w 0 : EReal) + (w 4 : EReal)) + (y : EReal) * ((w 1 : EReal) + (w 5 : EReal)))
        + (z : EReal) * (w 2 : EReal)) + (e : EReal) * (w 3 : EReal))
      + (((cx : EReal) * ((w 6 : EReal) - (w 4 : EReal)) + (cy : EReal) * ((w 7 : EReal) - (w 5 : EReal)))
        + (zc : EReal) * (w 8 : EReal))) :=
  (concat_ereal x y z e cx cy zc mk w).trans (folded_ereal x y z e cx cy zc mk w).symm

/-- The folded value is a real. -/
theorem concat_isReal (x y z e cx cy zc mk : ℝ) (w : Fin 9 → ℝ) :
    IsReal (∑ i : Fin 9, ((![(x : EReal), (y : EReal), (z : EReal), (e : EReal), (x : EReal) - (cx : EReal),
        (y : EReal) - (cy : EReal), (cx : EReal), (cy : EReal), (zc : EReal)] : Fin 9 → EReal) i * (mk : EReal))
        * (w i : EReal)) :=
  ⟨_, concat_ereal x y z e cx cy zc mk w⟩

end Cert.Lib.FeatureFold

end
-- ==== Proof.IdealRows.lean ====
/-
  The normalised rows of one pair of batches, as the kernel's body forms them, read entry by entry on the
  extended reals.

  A slab [1, 1024, 128] of real data is flattened to a matrix, each row's sum of squares is clamped from below by the
  named constant (the real number D·D), its reciprocal square root is spread along the row and multiplied in: the
  entry (s, d) is the real number x_sd · (√ max(Σ_d' x_sd'², D²))⁻¹.  Two such matrices side by side form the
  [1024, 256] matrix Y of a pair; narrowing its format changes nothing on the extended reals.
-/
import proofs.«174938_g53377853555121_feedfinal_227_15_alg».proof.Proof.Gen.KernelIdeal.Skeleton
import proofs.«174938_g53377853555121_feedfinal_227_15_alg».proof.Proof.SimSpec
import proofs.«174938_g53377853555121_feedfinal_227_15_alg».proof.Proof.SimAlgebra
import proofs.«174938_g53377853555121_feedfinal_227_15_alg».proof.Proof.LibColumn
import proofs.«174938_g53377853555121_feedfinal_227_15_alg».proof.Proof.LibStack
import proofs.«174938_g53377853555121_feedfinal_227_15_alg».proof.Proof.LibFeatureFold
import Idealize.ShloMosaic.Lib.ValueLayout
import Idealize.ShloMosaic.Lib.ValueIdx

set_option synthInstance.maxSize 4096

noncomputable section

namespace Cert.KernelIdeal.Pay

open Idealize.ShloMosaic Idealize.ShloMosaic.ValueIdx Cert.KernelIdeal Cert.KernelIdeal.Gen

/-! ## Constants -/

/-- The named clamp denotes the real number D·D. -/
theorem eps_sq : Named.named (F := Ideal) Cert.KernelIdeal.κ "eps_sq" (φ := .f32) 0x179ABE15#32
    = ((Cert.Sim.D * Cert.Sim.D : ℝ) : EReal) := by
  have h : Named.named (F := Ideal) Cert.KernelIdeal.κ "eps_sq" (φ := .f32) 0x179ABE15#32
      = ((5316911940649 / 5316911983139663491615228241121378304 : ℝ) : EReal) :=
    IdealRules.named_const.ideal_named_scalar _ _ _ _ rfl
  rw [h]
  exact congrArg _ (by norm_num [Cert.Sim.D])

/-- The pattern of 2.0 denotes 2. -/
theorem ofBits_two : Ideal.ofBits .f32 0x40000000#32 = ((2 : ℝ) : EReal) := by
  simp [Ideal.ofBits, Ideal.ieee, -EReal.coe_mul]; norm_num

/-- The pattern of 2⁻²⁶ denotes 1 / 67108864. -/
theorem ofBits_inv : Ideal.ofBits .f32 0x32800000#32 = ((1 / 67108864 : ℝ) : EReal) := by
  simp [Ideal.ofBits, Ideal.ieee, -EReal.coe_mul]; norm_num

/-- The pattern of 1.0 denotes 1. -/
theorem ofBits_one : Ideal.ofBits .f32 0x3F800000#32 = ((1 : ℝ) : EReal) := by
  simp [Ideal.ofBits, Ideal.ieee, -EReal.coe_mul]; norm_num

/-- The bf16 pattern of 1.0 denotes 1. -/
theorem ofBits_one_bf16 : Ideal.ofBits .bf16 0x3F80#16 = ((1 : ℝ) : EReal) := by
  simp [Ideal.ofBits, Ideal.ieee, -EReal.coe_mul]; norm_num

/-- The coercion of reals into the extended reals commutes with the maximum. -/
theorem coe_max (a b : ℝ) : ((max a b : ℝ) : EReal) = max (a : EReal) (b : EReal) :=
  (EReal.coe_strictMono.monotone.map_max)

/-! ## One slab's normalised rows -/

variable {F : FTy → Type} [FloatOps F] [Named F]

/-- One slab as a matrix: the leading unit axis dropped. -/
def flat (v : Vec F S1x1024x128 .f32) : FVec F S1024x128 .f32 :=
  shapeCast S1024x128 v shapeCasts_S1x1024x128_S1024x128

/-- The rows' sums of squares. -/
def rowSq (w : FVec F S1024x128 .f32) : FVec F S1024 .f32 :=
  multiReduction .add [1] S1024 (mulf w w) 0x00000000#32 reduces_S1024x128_S1024 (.inl rfl) rfl

/-- One slab with each row scaled by the reciprocal square root of its clamped sum of squares, as the body spells it. -/
def scaledRows (v : Vec F S1x1024x128 .f32) : FVec F S1024x128 .f32 :=
  mulf (flat v)
    (broadcastTo S1024x128
      (rsqrt (maximumf
        (shapeCast S1024x1 (rowSq (flat v)) shapeCasts_S1024_S1024x1)
        (broadcast S1024x1 (Named.named κ "eps_sq" 0x179ABE15#32))))
      broadcasts_S1024x1_S1024x128)

/-- The pair's matrix: the two slabs' normalised rows side by side, narrowed to bf16. -/
def pairMat (va vb : Vec F S1x1024x128 .f32) : FVec F S1024x256 .bf16 :=
  truncf .bf16 (concatenate S1024x256 1 [⟨S1024x128, scaledRows va⟩, ⟨S1024x128, scaledRows vb⟩]
    concatenates_S1024x128_S1024x128_S1024x256_d1) bitsLt_bf16_f32

theorem k0_pay6_eq (va vb : Vec F S1x1024x128 .f32) : k0_pay6 va vb = pairMat va vb := rfl
theorem k0_pay11_eq (va vb : Vec F S1x1024x128 .f32) : k0_pay11 va vb = pairMat va vb := rfl
theorem k0_pay17_eq (va vb : Vec F S1x1024x128 .f32) : k0_pay17 va vb = pairMat va vb := rfl

/-- A slab of real data: its normalised row s at entry d is the real number yk. -/
theorem scaledRows_apply (x : Cert.Sim.Arr) (b : Fin 64) (v : Vec Ideal S1x1024x128 .f32)
    (hv : ∀ s d, v (ix3 (0 : Fin 1) s d) = ((x b s d : ℝ) : EReal)) (s : Fin 1024) (d : Fin 128) :
    scaledRows (F := Ideal) v (ix2 s d) = ((Cert.Sim.yk x b s d : ℝ) : EReal) := by
  have hflat : ∀ d' : Fin 128, flat (F := Ideal) v (ix2 s d') = ((x b s d' : ℝ) : EReal) :=
    fun d' => (shapeCast_1ab_ab_apply v _ s d').trans (hv s d')
  have hss : rowSq (F := Ideal) (flat v) (ix1 s) = ((Cert.Sim.ss x b s : ℝ) : EReal) := by
    refine (Cert.LibColumn.sum_last_apply _ reduces_S1024x128_S1024 (.inl rfl) rfl s).trans ?_
    have : ∀ d' : Fin 128, (mulf (F := Ideal) (flat v) (flat v)) (ix2 s d')
        = ((x b s d' : ℝ) : EReal) * ((x b s d' : ℝ) : EReal) := fun d' => by
      rw [mulf_apply, hflat d']
    refine (Finset.sum_congr rfl fun d' _ => this d').trans ?_
    exact Cert.Lib.FeatureFold.coe_sum_mul _ _ _
  show flat (F := Ideal) v (ix2 s d)
      * broadcastTo S1024x128 _ broadcasts_S1024x1_S1024x128 (ix2 s d) = _
  rw [hflat d, Cert.LibColumn.broadcastTo_a1_ab_apply _ broadcasts_S1024x1_S1024x128 s d]
  show ((x b s d : ℝ) : EReal) * Ideal.rsqrt (max
      (shapeCast S1024x1 (rowSq (F := Ideal) (flat v)) shapeCasts_S1024_S1024x1 (ix2 s (0 : Fin 1)))
      (Named.named (F := Ideal) κ "eps_sq" (φ := .f32) 0x179ABE15#32)) = _
  rw [Cert.LibColumn.shapeCast_a_a1_apply _ shapeCasts_S1024_S1024x1 s 0, hss, eps_sq, ← coe_max, Ideal.rsqrt_coe,
    if_neg (not_lt.2 (Cert.Sim.max_sq_pos _).le), if_neg (Cert.Sim.max_sq_pos _).ne', ← EReal.coe_mul]
  rfl

end Cert.KernelIdeal.Pay

end
-- ==== Proof.LibMatmul.lean ====
/-
  A matrix product into a zero accumulator, read at an entry on the extended reals, for any extents.

  Two contractions of rank-2 operands with one contracting axis each: Aᵀ B, contracting the FIRST axis of both
  ([k, m] and [k, n] into [m, n]: entry (a, b) is Σ_c A(c, a) · B(c, b)), and the plain A B, contracting the last
  axis of the left operand with the first of the right ([m, k] and [k, n] into [m, n]: Σ_c A(a, c) · B(c, b)).
  The sum over the contraction's one-axis index set is re-indexed by its one coordinate.
-/
import Idealize.ShloMosaic.PureOps.Ideal.Laws
import Idealize.ShloMosaic.Lib.ValueIdx

noncomputable section

namespace Cert.LibMatmul

open Idealize.ShloMosaic Idealize.ShloMosaic.ValueIdx

variable {k m n : ℕ} {φ₁ φ₂ : FTy}

/-- Aᵀ B into the zero accumulator, at (a, b): the sum over the shared first coordinate c of A(c, a) · B(c, b). -/
theorem matmul_tn_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    matmul (⟨[0], [0], [1], [1], [], [], w⟩ : DotDims _ _ _) prec A B (constant ⟨2, ![m, n]⟩ .f32 0x00000000#32) (ix2 a b)
      = ∑ c : Fin k, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val
    (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A B into the zero accumulator, at (a, b): the sum over the contracted coordinate c of A(a, c) · B(c, b). -/
theorem matmul_nn_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmul

end
-- ==== Proof.LibMinAxis.lean ====
/-
  Minima and sums along one axis of an array of extended reals, read at an index written by its coordinates.

  A minimum taken along one axis, started from a given value, is the fold of `min` from that value over the axis's
  coordinates; started from the top element it is the infimum.  This is proved for the host's reduction of a rank-3 array
  along its last or its middle axis, and for a vector reduction along any one axis; the sum of a matrix along its first
  axis is the sum over the row coordinate.  Last, the infimum of a function over the first `(j + 1) * w` indices is the
  smaller of its infimum over the first `j * w` and its infimum over the next run of `w`.
-/
import Idealize.ShloMosaic.PureOps.Ideal
import Idealize.ShloMosaic.PureOps.Ideal.Laws
import Idealize.ShloMosaic.PureOps.Reduce
import Idealize.ShloMosaic.Lib.ValueIdx

noncomputable section

namespace Idealize.ShloMosaic.MinAxis

open Idealize.ShloMosaic Idealize.ShloMosaic.ValueIdx

/-! ## The index with the reduced coordinate inserted -/

section Lift
variable {a b c : ℕ}

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

end Lift

/-! ## The host's minimum along one axis of a rank-3 array -/

section Host
variable {a b c : ℕ} {φ : FTy}

/-- The host's minimum along the last axis, at `(i, j)`: the fold of `min` from the initial value over `k`. -/
theorem hostReduce_min_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.minimumf (F := Ideal) (φ := φ)) x init h' hu (ix2 i j)
      = (Finset.univ : Finset (Fin c)).fold min (init (Shape.Idx.first hu)) fun k => x (ix3 i j k) := by
  refine (Host.reduce_eq_fold_single (FloatOps.minimumf (F := Ideal) (φ := φ)) x init h' h hu (ix2 i j)).trans ?_
  refine congrArg (Finset.fold min (init (Shape.Idx.first hu)) · Finset.univ) (funext fun k => ?_)
  exact congrArg x (lift_last h i j k)

/-- The host's minimum along the middle axis, at `(i, k)`: the fold of `min` from the initial value over `j`. -/
theorem hostReduce_min_middle {u : Shape} (x : (⟨3, ![a, b, c]⟩ : Shape).Idx → Ideal φ) (init : u.Idx → Ideal φ)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce (FloatOps.minimumf (F := Ideal) (φ := φ)) x init h' hu (ix2 i k)
      = (Finset.univ : Finset (Fin b)).fold min (init (Shape.Idx.first hu)) fun j => x (ix3 i j k) := by
  refine (Host.reduce_eq_fold_single (FloatOps.minimumf (F := Ideal) (φ := φ)) x init h' h hu (ix2 i k)).trans ?_
  refine congrArg (Finset.fold min (init (Shape.Idx.first hu)) · Finset.univ) (funext fun j => ?_)
  exact congrArg x (lift_middle h i j k)

end Host

/-- A fold of `min` from the top of the extended reals is the infimum. -/
theorem fold_min_top {ι : Type} (s : Finset ι) (f : ι → EReal) : s.fold min ⊤ f = s.inf f := rfl

/-! ## A vector reduction along one axis -/

/-- A vector minimum along one axis, read on the extended reals: the fold of `min` from the accumulator's value over
    that axis's coordinates. -/
theorem min_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The sum of a `[b, a]` matrix along its first axis, read at lane `q` on the extended reals, is the sum over the
    row coordinate of that lane's entries (the accumulator word is the neutral one, zero). -/
theorem sum_first_apply {a b : ℕ} (x : FVec Ideal ⟨2, ![b, a]⟩ .f32) (h : (⟨2, ![b, a]⟩ : Shape).Reduces [0] ⟨1, ![a]⟩)
    (hφ : FKind.Formats .f32) (hacc : (0x00000000#32 : BitVec 32) = FKind.add.neutral .f32 hφ) (q : Fin a) :
    multiReduction .add [0] ⟨1, ![a]⟩ x 0x00000000#32 h hφ hacc (ix1 q) = ∑ d : Fin b, x (ix2 d q) := by
  refine (Ideal.multiReduction_add_single x 0x00000000#32 h hφ hacc (ix1 q)).trans ?_
  show ∑ d : Fin b, x (h.lift (ix1 q) d) = ∑ d : Fin b, x (ix2 d q)
  refine Finset.sum_congr rfl fun d _ => congrArg x (funext fun c => Fin.ext ?_)
  match c with
  | ⟨0, _⟩ => rfl
  | ⟨1, _⟩ => rfl

/-! ## An infimum over the indices below a bound, one run of `w` at a time -/

section Runs
variable {N w : ℕ}

/-- Below zero there is no index: the infimum is the top. -/
theorem inf_below_zero (f : Fin N → EReal) : (Finset.univ.filter fun q : Fin N => q.val < 0).inf f = ⊤ := by
  have e : (Finset.univ.filter fun q : Fin N => q.val < 0) = ∅ :=
    Finset.filter_false_of_mem fun q _ => Nat.not_lt_zero _
  rw [e, Finset.inf_empty]

/-- Below `N` there is every index. -/
theorem inf_below_all (f : Fin N → EReal) :
    (Finset.univ.filter fun q : Fin N => q.val < N).inf f = Finset.univ.inf f := by
  rw [Finset.filter_true_of_mem fun q _ => q.isLt]

/-- Index `r` of run `j` is below `N` when the first `j + 1` runs are. -/
theorem run_lt (j : ℕ) (hj : (j + 1) * w ≤ N) (r : Fin w) : j * w + r.val < N := by
  have h : (j + 1) * w = j * w + w := Nat.succ_mul j w
  have := r.isLt
  omega

/-- The indices below `(j + 1) * w` are those below `j * w` and the run `j * w + r`, `r` below `w`. -/
theorem below_succ (j : ℕ) (hj : (j + 1) * w ≤ N) :
    (Finset.univ.filter fun q : Fin N => q.val < (j + 1) * w)
      = (Finset.univ.filter fun q : Fin N => q.val < j * w)
          ∪ Finset.univ.image fun r : Fin w => (⟨j * w + r.val, run_lt j hj r⟩ : Fin N) := by
  have h : (j + 1) * w = j * w + w := Nat.succ_mul j w
  ext q
  simp only [Finset.mem_filter, Finset.mem_univ, true_and, Finset.mem_union, Finset.mem_image]
  constructor
  · intro hq
    by_cases hq' : q.val < j * w
    · exact Or.inl hq'
    · exact Or.inr ⟨⟨q.val - j * w, by omega⟩, Fin.ext (by show j * w + (q.val - j * w) = q.val; omega)⟩
  · rintro (hq | ⟨r, rfl⟩)
    · omega
    · show j * w + r.val < (j + 1) * w
      have := r.isLt
      omega

/-- So the infimum below `(j + 1) * w` is the smaller of the infimum below `j * w` and the infimum over run `j`. -/
theorem inf_below_succ (f : Fin N → EReal) (j : ℕ) (hj : (j + 1) * w ≤ N) :
    (Finset.univ.filter fun q : Fin N => q.val < (j + 1) * w).inf f
      = min ((Finset.univ.filter fun q : Fin N => q.val < j * w).inf f)
          (Finset.univ.inf fun r : Fin w => f ⟨j * w + r.val, run_lt j hj r⟩) := by
  rw [below_succ j hj, Finset.inf_union, Finset.inf_image]
  rfl

end Runs

end Idealize.ShloMosaic.MinAxis

end
-- ==== Proof.IdealBlocks.lean ====
/-
  What the body does with a pair's matrix Y : [1024, 256], step by step and read entry by entry on the extended reals.

  G = Yᵀ Y (a contraction over the 1024 rows into a zero accumulator), the column sums (a row of ones times Y, first
  row kept), the two diagonal 128 × 128 blocks of G, each squared and summed down its columns, the two sums laid side
  by side as one row of 256, and that row less twice the squared column sums.  The row is then stored, or added to what
  the accumulator held, according to the grid coordinate.
-/
import proofs.«174938_g53377853555121_feedfinal_227_15_alg».proof.Proof.Gen.KernelIdeal.Skeleton
import proofs.«174938_g53377853555121_feedfinal_227_15_alg».proof.Proof.LibMatmul
import proofs.«174938_g53377853555121_feedfinal_227_15_alg».proof.Proof.LibMinAxis
import proofs.«174938_g53377853555121_feedfinal_227_15_alg».proof.Proof.LibStack
import Idealize.ShloMosaic.Lib.ValueLayout
import Idealize.ShloMosaic.Lib.ValueIdx
import Idealize.ShloMosaic.Lib.Pipeline.Value

set_option synthInstance.maxSize 4096

noncomputable section

namespace Cert.KernelIdeal.Pay

open Idealize.ShloMosaic Idealize.ShloMosaic.ValueIdx Cert.KernelIdeal Cert.KernelIdeal.Gen

variable {F : FTy → Type} [FloatOps F] [Named F]

/-! ## The steps, as the body spells them -/

/-- Yᵀ Y into a zero accumulator. -/
def gramMat (Y : FVec F S1024x256 .bf16) : FVec F S256x256 .f32 :=
  matmul dot_S1024x256_S1024x256_S256x256_0_0_1_1_n_n none Y Y (constant S256x256 .f32 0x00000000#32)

/-- The column sums of Y: eight rows of ones times Y, the first row kept. -/
def colSums (Y : FVec F S1024x256 .bf16) : FVec F S1x256 .f32 :=
  extractStridedSlice S1x256 ![0, 0]
    (matmul dot_S8x1024_S1024x256_S8x256_1_0_0_1_n_n none (k0_pay3 (F := F)) Y (constant S8x256 .f32 0x00000000#32))
    slices_S8x256_o0_0_S1x256

/-- The upper-left 128 × 128 block. -/
def blockA (G : FVec F S256x256 .f32) : FVec F S128x128 .f32 :=
  extractStridedSlice S128x128 ![0, 0] G slices_S256x256_o0_0_S128x128

/-- The lower-right 128 × 128 block. -/
def blockB (G : FVec F S256x256 .f32) : FVec F S128x128 .f32 :=
  extractStridedSlice S128x128 ![128, 128] G slices_S256x256_o128_128_S128x128

/-- A block's squares summed down each column, as a one-row matrix. -/
def sqColSum (B : FVec F S128x128 .f32) : FVec F S1x128 .f32 :=
  shapeCast S1x128 (multiReduction .add [0] S128 (mulf B B) 0x00000000#32 reduces_S128x128_S128 (.inl rfl) rfl)
    shapeCasts_S128_S1x128

/-- Two one-row matrices of 128 side by side. -/
def sideBySide (a b : FVec F S1x128 .f32) : FVec F S1x256 .f32 :=
  concatenate S1x256 1 [⟨S1x128, a⟩, ⟨S1x128, b⟩] concatenates_S1x128_S1x128_S1x256_d1

/-- The row q − 2 · (m · m). -/
def lessTwice (q m : FVec F S1x256 .f32) : FVec F S1x256 .f32 :=
  subf q (mulf (broadcast S1x256 (Scalar.ofBits .f32 0x40000000#32)) (mulf m m))

/-- Stored when the grid coordinate is 0, added to the accumulator's row otherwise. -/
def storeRow (arg0 : BitVec 32) (T : FVec F S1x256 .f32) (prev : Vec F S1x256 .f32) : FVec F S1x256 .f32 :=
  shapeCast S1x256 (Scalar.select (Scalar.cmpi .eq arg0 0#32) T (addf prev T)) shapeCasts_S1x256_S1x256

/-- One pair's row from its matrix. -/
def partRow (Y : FVec F S1024x256 .bf16) : FVec F S1x256 .f32 :=
  lessTwice (sideBySide (sqColSum (blockA (gramMat Y))) (sqColSum (blockB (gramMat Y)))) (colSums Y)

/-! ## Read at an entry, on the extended reals -/

/-- An entry of Yᵀ Y: the sum over the rows of the products of the two columns' entries. -/
theorem gramMat_apply (Y : FVec Ideal S1024x256 .bf16) (p q : Fin 256) :
    gramMat Y (ix2 p q) = ∑ s : Fin 1024, Y (ix2 s p) * Y (ix2 s q) :=
  Cert.LibMatmul.matmul_tn_apply dot_S1024x256_S1024x256_S256x256_0_0_1_1_n_n_wf none Y Y p q

/-- The bf16 pattern of 1.0 denotes 1. -/
theorem ofBits_one_bf16' : Ideal.ofBits .bf16 0x3F80#16 = 1 := by
  simp [Ideal.ofBits, Ideal.ieee, -EReal.coe_mul]; norm_num

/-- A column sum: the sum over the rows of that column's entries. -/
theorem colSums_apply (Y : FVec Ideal S1024x256 .bf16) (q : Fin 256) :
    colSums Y (ix2 (0 : Fin 1) q) = ∑ s : Fin 1024, Y (ix2 s q) := by
  refine (slice2_axis0_apply 0 _ slices_S8x256_o0_0_S1x256 (0 : Fin 1) q (0 : Fin 8) rfl).trans ?_
  refine (Cert.LibMatmul.matmul_nn_apply dot_S8x1024_S1024x256_S8x256_1_0_0_1_n_n_wf none (k0_pay3 (F := Ideal)) Y
    (0 : Fin 8) q).trans ?_
  refine Finset.sum_congr rfl fun s _ => ?_
  show Ideal.ofBits .bf16 0x3F80#16 * Y (ix2 s q) = Y (ix2 s q)
  rw [ofBits_one_bf16', one_mul]

/-- The upper-left block at (r, l) is the matrix at (r, l). -/
theorem blockA_apply {α : Type} (G : S256x256.Idx → α) (r l : Fin 128) :
    extractStridedSlice S128x128 ![0, 0] G slices_S256x256_o0_0_S128x128 (ix2 r l)
      = G (ix2 (⟨r.val, by omega⟩ : Fin 256) (⟨l.val, by omega⟩ : Fin 256)) :=
  extractStridedSlice_apply ![0, 0] G slices_S256x256_o0_0_S128x128 _ _ fun a => match a with
    | ⟨0, _⟩ => (Nat.zero_add _).symm
    | ⟨1, _⟩ => (Nat.zero_add _).symm

/-- The lower-right block at (r, l) is the matrix at (128 + r, 128 + l). -/
theorem blockB_apply {α : Type} (G : S256x256.Idx → α) (r l : Fin 128) :
    extractStridedSlice S128x128 ![128, 128] G slices_S256x256_o128_128_S128x128 (ix2 r l)
      = G (ix2 (⟨r.val + 128, by omega⟩ : Fin 256) (⟨l.val + 128, by omega⟩ : Fin 256)) :=
  extractStridedSlice_apply ![128, 128] G slices_S256x256_o128_128_S128x128 _ _ fun a => match a with
    | ⟨0, _⟩ => Nat.add_comm _ _
    | ⟨1, _⟩ => Nat.add_comm _ _

/-- A block's squares summed down column l. -/
theorem sqColSum_apply (B : FVec Ideal S128x128 .f32) (l : Fin 128) :
    sqColSum B (ix2 (0 : Fin 1) l) = ∑ r : Fin 128, B (ix2 r l) * B (ix2 r l) := by
  refine (shapeCast_a_1a_apply _ shapeCasts_S128_S1x128 (0 : Fin 1) l).trans ?_
  exact Idealize.ShloMosaic.MinAxis.sum_first_apply (mulf B B) reduces_S128x128_S128 (.inl rfl) rfl l

/-- The row q − 2 · (m · m) at an entry. -/
theorem lessTwice_apply (q m : FVec Ideal S1x256 .f32) (i : S1x256.Idx) :
    lessTwice q m i = q i - Ideal.ofBits .f32 0x40000000#32 * (m i * m i) := rfl

/-- The stored row: the new row at grid coordinate 0, the accumulator's row plus the new row otherwise. -/
theorem storeRow_apply (arg0 : BitVec 32) (T prev : FVec Ideal S1x256 .f32) (i : S1x256.Idx) :
    storeRow arg0 T prev i = if arg0 = 0#32 then T i else prev i + T i := by
  have hc : Scalar.cmpi .eq arg0 0#32 = 1#1 ↔ arg0 = 0#32 := IntOp.cmpi_eq
  unfold storeRow
  rw [shapeCast_self]
  by_cases h : arg0 = 0#32
  · rw [if_pos h, show Scalar.cmpi .eq arg0 0#32 = 1#1 from hc.2 h, select_one]
  · rw [if_neg h, show Scalar.cmpi .eq arg0 0#32 = 0#1 from eq_zero_of_ne_one (fun hc' => h (hc.1 hc')), select_zero]
    rfl

end Cert.KernelIdeal.Pay

end
-- ==== Proof.LibPairSum.lean ====
/-
  Summing a rank-3 array over its two trailing axes, for any extents a × b × c, on the extended reals.

  Both the vector unit's and the host's sum over the axes [1, 2] of an [a, b, c] array are defined as a sum over those
  indices of the array whose first coordinate is the reduced index.  Those indices are the triples (p, j, k) with j and k
  free, so the sum is the double sum over j and k of the entries (p, j, k) — the host's with its initial value in front.
-/
import Idealize.ShloMosaic.PureOps.Ideal.Laws
import Idealize.ShloMosaic.Lib.ValueIdx

noncomputable section

namespace Cert.LibPairSum

open Idealize.ShloMosaic Idealize.ShloMosaic.ValueIdx

variable {a b c : ℕ}

/-- A sum over the indices of an [a, b, c] array that a map `drop` sends to row `p`, when `drop` keeps exactly the
    first coordinate: the double sum over the two other coordinates. -/
theorem sum_filter_row {M : Type*} [AddCommMonoid M] (x : (⟨3, ![a, b, c]⟩ : Shape).Idx → M)
    (drop : (⟨3, ![a, b, c]⟩ : Shape).Idx → (⟨1, ![a]⟩ : Shape).Idx) (p : Fin a) [DecidablePred fun i => drop i = ix1 p]
    (hdrop : ∀ i, (drop i 0).val = (i 0).val) :
    ∑ i ∈ Finset.univ.filter (fun i => drop i = ix1 p), x i = ∑ j : Fin b, ∑ k : Fin c, x (ix3 p j k) := by
  rw [← Finset.sum_product']
  refine Finset.sum_bij' (fun i _ => ((i 1 : Fin b), (i 2 : Fin c))) (fun q _ => ix3 p q.1 q.2) ?_ ?_ ?_ ?_ ?_
  · intro i _; exact Finset.mem_product.2 ⟨Finset.mem_univ _, Finset.mem_univ _⟩
  · intro q _
    refine Finset.mem_filter.2 ⟨Finset.mem_univ _, ?_⟩
    funext d
    match d with
    | ⟨0, _⟩ => exact Fin.ext (hdrop _)
  · intro i hi
    have h0 : drop i = ix1 p := (Finset.mem_filter.1 hi).2
    have h1 : (i 0).val = p.val := by rw [← hdrop i, h0]; rfl
    funext d
    apply Fin.ext
    match d with
    | ⟨0, _⟩ => exact h1.symm
    | ⟨1, _⟩ => rfl
    | ⟨2, _⟩ => rfl
  · intro q _; rfl
  · intro i hi
    have h0 : drop i = ix1 p := (Finset.mem_filter.1 hi).2
    have h1 : (i 0).val = p.val := by rw [← hdrop i, h0]; rfl
    refine congrArg x (funext fun d => Fin.ext ?_)
    match d with
    | ⟨0, _⟩ => exact h1
    | ⟨1, _⟩ => rfl
    | ⟨2, _⟩ => rfl

variable {φ : FTy}

/-- The vector unit's sum over the two trailing axes, at row `p`: the double sum over `j` and `k`. -/
theorem multiReduction_add_pair (src : FVec Ideal ⟨3, ![a, b, c]⟩ φ) (acc : BitVec φ.bits)
    (h : (⟨3, ![a, b, c]⟩ : Shape).Reduces [1, 2] ⟨1, ![a]⟩) (hφ : FKind.Formats φ) (hacc : acc = FKind.add.neutral φ hφ)
    (p : Fin a) :
    multiReduction .add [1, 2] ⟨1, ![a]⟩ src acc h hφ hacc (ix1 p) = ∑ j : Fin b, ∑ k : Fin c, src (ix3 p j k) := by
  show Ideal.reduceAdd h src (ix1 p) = _
  unfold Ideal.reduceAdd
  exact sum_filter_row src h.drop p (fun _ => rfl)

/-- The host's sum over the two trailing axes, at row `p`: its initial value plus the double sum over `j` and `k`. -/
theorem hostReduceAdd_pair {u : Shape} (x : FVec Ideal ⟨3, ![a, b, c]⟩ φ) (init : u.Idx → Ideal φ)
    (h' : (⟨3, ![a, b, c]⟩ : Shape).ReducesTo [1, 2] ⟨1, ![a]⟩) (hu : 0 < u.numel) (p : Fin a) :
    Host.reduceAdd x init h' hu (ix1 p) = init (Shape.Idx.first hu) + ∑ j : Fin b, ∑ k : Fin c, x (ix3 p j k) := by
  simp only [Host.reduceAdd, Ideal.hostReduceAdd_def]
  unfold Ideal.hostReduceAdd
  exact congrArg (_ + ·) (sum_filter_row x h'.drop p (fun _ => rfl))

end Cert.LibPairSum

end
-- ==== Proof.LibLeadingAxis.lean ====
/-
  Reading layout steps around a LEADING axis at an index written by its coordinates, for any extents.

  A kernel that keeps a small axis in front — a per-unit weight or bias `[a]` or `[a, 1]` spread over an `[a, b, c]`
  array, and a sum over that leading axis — meets these steps:

  * a column `[a, 1]` or a vector `[a]` cast to `[a, 1, 1]`, a column cast to the vector, and `[a, 1, 1]` broadcast to
    `[a, b, c]`: each reads the operand at the leading coordinate;
  * the index over `(j, k)` with coordinate `i` inserted on the first axis is `(i, j, k)`; hence, on the extended
    reals, a vector sum along the FIRST axis of an `[a, b, c]` array is the sum over `i` of the array at `(i, j, k)`;
  * the one entry of a `[1, 1]` array taken out at position (0, 0).
-/
import Idealize.ShloMosaic.PureOps.Ideal.Laws
import Idealize.ShloMosaic.Lib.ValueIdx
import Idealize.ShloMosaic.Lib.Pipeline.Value

noncomputable section

namespace Cert.LibLeadingAxis

open Idealize.ShloMosaic Idealize.ShloMosaic.ValueIdx

variable {α : Type} {a b c : ℕ}

/-- A column `[a, 1]` cast to `[a, 1, 1]` reads, at `(i, u, v)`, the column at `(i, 0)`. -/
theorem shapeCast_a1_a11_apply (x : (⟨2, ![a, 1]⟩ : Shape).Idx → α)
    (h : (⟨2, ![a, 1]⟩ : Shape).ShapeCasts ⟨3, ![a, 1, 1]⟩) (i : Fin a) (u v : Fin 1) :
    shapeCast ⟨3, ![a, 1, 1]⟩ x h (ix3 i u v) = x (ix2 i (0 : Fin 1)) :=
  shapeCast_apply x h _ _ (by
    have hu : u.val = 0 := by omega
    have hv : v.val = 0 := by omega
    rw [Shape.rowMajor_val_three, Shape.rowMajor_val_two]
    show i.val * 1 + 0 = (i.val * 1 + u.val) * 1 + v.val
    omega)

/-- A vector `[a]` cast to `[a, 1, 1]` reads, at `(i, u, v)`, the vector at `i`. -/
theorem shapeCast_a_a11_apply (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    omega)

/-- A column `[a, 1]` cast to the vector `[a]` reads, at `i`, the column at `(i, 0)`. -/
theorem shapeCast_a1_a_apply (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a, 1, 1]` array broadcast to `[a, b, c]` reads, at `(i, j, k)`, the operand at `(i, 0, 0)`. -/
theorem broadcastTo_a11_abc_apply (v : (⟨3, ![a, 1, 1]⟩ : Shape).Idx → α)
    (h : (⟨3, ![a, 1, 1]⟩ : Shape).Broadcasts ⟨3, ![a, b, c]⟩) (i : Fin a) (j : Fin b) (k : Fin c) :
    broadcastTo ⟨3, ![a, b, c]⟩ v h (ix3 i j k) = v (ix3 i (0 : Fin 1) (0 : Fin 1)) := by
  refine broadcastTo_apply v h (ix3 i j k) (ix3 i (0 : Fin 1) (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show 0 = if (1 : ℕ) = 1 then 0 else k.val
    rw [if_pos rfl]

/-- Over `(j, k)`, with `i` inserted on the first axis: `(i, j, k)`. -/
theorem lift_first (h : (⟨3, ![a, b, c]⟩ : Shape).Reduces [0] ⟨2, ![b, c]⟩) (j : Fin b) (k : Fin c) (i : Fin a) :
    h.lift (ix2 j k) i = ix3 i j k := by
  funext ax
  apply Fin.ext
  match ax with
  | ⟨0, _⟩ => rfl
  | ⟨1, _⟩ => rfl
  | ⟨2, _⟩ => rfl

variable {φ : FTy}

/-- A vector sum along the first axis, at `(j, k)`: the sum over `i` of the array at `(i, j, k)`. -/
theorem multiReduction_add_first (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (j : Fin b) (k : Fin c) :
    multiReduction .add [0] ⟨2, ![b, c]⟩ src acc h hφ hacc (ix2 j k) = ∑ i : Fin a, src (ix3 i j k) := by
  refine (Ideal.multiReduction_add_single src acc h hφ hacc (ix2 j k)).trans ?_
  exact Finset.sum_congr rfl fun i _ => congrArg src (lift_first h j k i)

/-- The one entry of a `[1, 1]` array taken out at position (0, 0). -/
theorem extractAt_11_apply (x : (⟨2, ![1, 1]⟩ : Shape).Idx → α) (h : ∀ ax, (![0, 0] : Fin 2 → ℕ) ax < (⟨2, ![1, 1]⟩ : Shape).size ax) :
    extractAt ![0, 0] x h = x (ix2 (0 : Fin 1) (0 : Fin 1)) := by
  unfold extractAt
  refine congrArg x (funext fun ax => Fin.ext ?_)
  match ax with
  | ⟨0, _⟩ => rfl
  | ⟨1, _⟩ => rfl

end Cert.LibLeadingAxis

end
-- ==== Proof.IdealPay.lean ====
/-
  The four rows the body stores, one per pair of batches, and the final scalar, as real numbers.

  Each of the body's four stores writes, for its pair of slabs, the row
    Σ_r G_rl² − 2 m_l²   (l over the 256 columns of the pair's matrix Y, G = YᵀY restricted to its two diagonal blocks,
                          m the column sums),
  or adds it to the accumulator's row, according to the grid coordinate.  Each pair's arithmetic is spread over the
  payload definitions differently; all four are the same function of the two slabs.  On real data, column l of the
  first half is the first batch's contribution at l and column 128 + l the second batch's.  The last payload sums the
  accumulator and rescales.
-/
import proofs.«174938_g53377853555121_feedfinal_227_15_alg».proof.Proof.IdealRows
import proofs.«174938_g53377853555121_feedfinal_227_15_alg».proof.Proof.IdealBlocks
import proofs.«174938_g53377853555121_feedfinal_227_15_alg».proof.Proof.LibPairSum
import proofs.«174938_g53377853555121_feedfinal_227_15_alg».proof.Proof.LibLeadingAxis

set_option synthInstance.maxSize 4096

noncomputable section

namespace Cert.KernelIdeal.Pay

open Idealize.ShloMosaic Idealize.ShloMosaic.ValueIdx Cert.KernelIdeal Cert.KernelIdeal.Gen

section Generic
variable {F : FTy → Type} [FloatOps F] [Named F]

/-- What the first pair's store writes: the payloads as the parts hand them on. -/
def row0 (arg0 : BitVec 32) (va vb : Vec F S1x1024x128 .f32) (prev : Vec F S1x256 .f32) : FVec F S1x256 .f32 :=
  k0_pay5 (k0_pay4 va vb) (Scalar.cmpi .eq arg0 0#32) prev
/-- The second pair's. -/
def row1 (arg0 : BitVec 32) (va vb : Vec F S1x1024x128 .f32) (prev : Vec F S1x256 .f32) : FVec F S1x256 .f32 :=
  k0_pay10 arg0 (k0_pay7 va vb) (k0_pay8 (k0_pay3 (F := F)) va vb) (k0_pay9 (F := F)) prev
/-- The third pair's. -/
def row2 (arg0 : BitVec 32) (va vb : Vec F S1x1024x128 .f32) (prev : Vec F S1x256 .f32) : FVec F S1x256 .f32 :=
  k0_pay16 arg0 (k0_pay13 (k0_pay3 (F := F)) va vb) (k0_pay14 va vb) (k0_pay15 va vb) prev
/-- The fourth pair's. -/
def row3 (arg0 : BitVec 32) (va vb : Vec F S1x1024x128 .f32) (prev : Vec F S1x256 .f32) : FVec F S1x256 .f32 :=
  k0_pay1 arg0 (k0_pay19 va vb) (k0_pay20 va vb) (k0_pay21 (k0_pay3 (F := F)) va vb) prev

/-- All four are one function of the two slabs: the pair's row, stored or accumulated. -/
theorem row0_eq (arg0 : BitVec 32) (va vb : Vec F S1x1024x128 .f32) (prev : Vec F S1x256 .f32) :
    row0 arg0 va vb prev = storeRow arg0 (partRow (pairMat va vb)) prev := rfl
theorem row1_eq (arg0 : BitVec 32) (va vb : Vec F S1x1024x128 .f32) (prev : Vec F S1x256 .f32) :
    row1 arg0 va vb prev = storeRow arg0 (partRow (pairMat va vb)) prev := rfl
theorem row2_eq (arg0 : BitVec 32) (va vb : Vec F S1x1024x128 .f32) (prev : Vec F S1x256 .f32) :
    row2 arg0 va vb prev = storeRow arg0 (partRow (pairMat va vb)) prev := rfl
theorem row3_eq (arg0 : BitVec 32) (va vb : Vec F S1x1024x128 .f32) (prev : Vec F S1x256 .f32) :
    row3 arg0 va vb prev = storeRow arg0 (partRow (pairMat va vb)) prev := rfl

end Generic

/-! ## The pair's matrix on real data -/

/-- Column d of the pair's matrix is the first slab's normalised column d. -/
theorem pairMat_left (x : Cert.Sim.Arr) (ba : Fin 64) (va vb : Vec Ideal S1x1024x128 .f32)
    (ha : ∀ s d, va (ix3 (0 : Fin 1) s d) = ((x ba s d : ℝ) : EReal)) (s : Fin 1024) (d : Fin 128) :
    pairMat (F := Ideal) va vb (ix2 s (⟨d.val, by omega⟩ : Fin 256)) = ((Cert.Sim.yk x ba s d : ℝ) : EReal) :=
  (Cert.LibStack.beside_left _ _ concatenates_S1024x128_S1024x128_S1024x256_d1 s d _ rfl).trans
    (scaledRows_apply x ba va ha s d)

/-- Column 128 + d is the second slab's normalised column d. -/
theorem pairMat_right (x : Cert.Sim.Arr) (bb : Fin 64) (va vb : Vec Ideal S1x1024x128 .f32)
    (hb : ∀ s d, vb (ix3 (0 : Fin 1) s d) = ((x bb s d : ℝ) : EReal)) (s : Fin 1024) (d : Fin 128) :
    pairMat (F := Ideal) va vb (ix2 s (⟨d.val + 128, by omega⟩ : Fin 256)) = ((Cert.Sim.yk x bb s d : ℝ) : EReal) :=
  (Cert.LibStack.beside_right _ _ concatenates_S1024x128_S1024x128_S1024x256_d1 s d _ rfl).trans
    (scaledRows_apply x bb vb hb s d)

/-! ## The pair's row on real data -/

/-- One pair's contribution at column j of its row: the first batch's at j below 128, the second's at j − 128. -/
def pairPart (x : Cert.Sim.Arr) (ba bb : Fin 64) (j : Fin 256) : ℝ :=
  if h : j.val < 128 then Cert.Sim.part x ba ⟨j.val, h⟩
  else Cert.Sim.part x bb ⟨j.val - 128, by have := j.isLt; omega⟩

section Halves
variable (x : Cert.Sim.Arr) (b : Fin 64) (Y : FVec Ideal S1024x256 .bf16)

/-- A half of the row whose columns are a batch's normalised columns, shifted by o (0 or 128), is that batch's part. -/
theorem partRow_half (o : ℕ) (ho : o = 0 ∨ o = 128)
    (hY : ∀ (s : Fin 1024) (d : Fin 128) (j : Fin 256), j.val = d.val + o → Y (ix2 s j) = ((Cert.Sim.yk x b s d : ℝ) : EReal))
    (l : Fin 128) (j : Fin 256) (hj : j.val = l.val + o) :
    partRow Y (ix2 (0 : Fin 1) j) = ((Cert.Sim.part x b l : ℝ) : EReal) := by
  have hG : ∀ (r : Fin 128) (p q : Fin 256), p.val = r.val + o → q.val = l.val + o →
      gramMat Y (ix2 p q) = ((Cert.Sim.gram x b r l : ℝ) : EReal) := fun r p q hp hq => by
    refine (gramMat_apply Y p q).trans ?_
    refine (Finset.sum_congr rfl fun s _ => by rw [hY s r p hp, hY s l q hq]).trans ?_
    exact Cert.Lib.FeatureFold.coe_sum_mul _ _ _
  have hm : colSums Y (ix2 (0 : Fin 1) j) = ((Cert.Sim.msum x b l : ℝ) : EReal) := by
    refine (colSums_apply Y j).trans ?_
    refine (Finset.sum_congr rfl fun s _ => hY s l j hj).trans ?_
    exact (Cert.Lib.FeatureFold.coe_sum _ _).symm
  have hq : sideBySide (sqColSum (blockA (gramMat Y))) (sqColSum (blockB (gramMat Y))) (ix2 (0 : Fin 1) j)
      = ((∑ r : Fin 128, Cert.Sim.gram x b r l * Cert.Sim.gram x b r l : ℝ) : EReal) := by
    rcases ho with rfl | rfl
    · refine (Cert.LibStack.beside_left _ _ concatenates_S1x128_S1x128_S1x256_d1 (0 : Fin 1) l j hj).trans ?_
      refine (sqColSum_apply _ l).trans ?_
      refine (Finset.sum_congr rfl fun r _ => ?_).trans (Cert.Lib.FeatureFold.coe_sum_mul _ _ _)
      have e := (blockA_apply (gramMat Y) r l).trans (hG r _ _ rfl rfl)
      show blockA (gramMat Y) (ix2 r l) * blockA (gramMat Y) (ix2 r l) = _
      rw [show blockA (gramMat Y) (ix2 r l) = _ from e]
    · refine (Cert.LibStack.beside_right _ _ concatenates_S1x128_S1x128_S1x256_d1 (0 : Fin 1) l j hj).trans ?_
      refine (sqColSum_apply _ l).trans ?_
      refine (Finset.sum_congr rfl fun r _ => ?_).trans (Cert.Lib.FeatureFold.coe_sum_mul _ _ _)
      have e := (blockB_apply (gramMat Y) r l).trans (hG r _ _ rfl rfl)
      show blockB (gramMat Y) (ix2 r l) * blockB (gramMat Y) (ix2 r l) = _
      rw [show blockB (gramMat Y) (ix2 r l) = _ from e]
  show lessTwice _ (colSums Y) (ix2 (0 : Fin 1) j) = _
  rw [lessTwice_apply, hq, hm, ofBits_two, ← EReal.coe_mul, ← EReal.coe_mul, ← EReal.coe_sub]
  rfl

end Halves

/-- The pair's row on real data: column j holds the pair's contribution at j. -/
theorem partRow_pair (x : Cert.Sim.Arr) (ba bb : Fin 64) (va vb : Vec Ideal S1x1024x128 .f32)
    (ha : ∀ s d, va (ix3 (0 : Fin 1) s d) = ((x ba s d : ℝ) : EReal))
    (hb : ∀ s d, vb (ix3 (0 : Fin 1) s d) = ((x bb s d : ℝ) : EReal)) (j : Fin 256) :
    partRow (pairMat (F := Ideal) va vb) (ix2 (0 : Fin 1) j) = ((pairPart x ba bb j : ℝ) : EReal) := by
  unfold pairPart
  by_cases h : j.val < 128
  · rw [dif_pos h]
    refine partRow_half x ba _ 0 (.inl rfl) (fun s d j' hj' => ?_) ⟨j.val, h⟩ j rfl
    have e : j' = (⟨d.val, by omega⟩ : Fin 256) := Fin.ext (by simpa using hj')
    rw [e]; exact pairMat_left x ba va vb ha s d
  · rw [dif_neg h]
    refine partRow_half x bb _ 128 (.inr rfl) (fun s d j' hj' => ?_) ⟨j.val - 128, by have := j.isLt; omega⟩ j
      (by show j.val = j.val - 128 + 128; omega)
    have e : j' = (⟨d.val + 128, by omega⟩ : Fin 256) := Fin.ext hj'
    rw [e]; exact pairMat_right x bb va vb hb s d

/-! ## The four stores -/

section Rows
variable (arg0 : BitVec 32) (x : Cert.Sim.Arr) (ba bb : Fin 64) (va vb : Vec Ideal S1x1024x128 .f32)
  (prev : Vec Ideal S1x256 .f32)
  (ha : ∀ s d, va (ix3 (0 : Fin 1) s d) = ((x ba s d : ℝ) : EReal))
  (hb : ∀ s d, vb (ix3 (0 : Fin 1) s d) = ((x bb s d : ℝ) : EReal)) (j : Fin 256)
include ha hb

/-- The stored or accumulated row at column j. -/
theorem stored_apply :
    storeRow arg0 (partRow (pairMat (F := Ideal) va vb)) prev (ix2 (0 : Fin 1) j)
      = if arg0 = 0#32 then ((pairPart x ba bb j : ℝ) : EReal)
        else prev (ix2 (0 : Fin 1) j) + ((pairPart x ba bb j : ℝ) : EReal) := by
  rw [storeRow_apply, partRow_pair x ba bb va vb ha hb j]

theorem row0_apply : row0 (F := Ideal) arg0 va vb prev (ix2 (0 : Fin 1) j)
    = if arg0 = 0#32 then ((pairPart x ba bb j : ℝ) : EReal)
      else prev (ix2 (0 : Fin 1) j) + ((pairPart x ba bb j : ℝ) : EReal) := by
  rw [row0_eq]; exact stored_apply arg0 x ba bb va vb prev ha hb j
theorem row1_apply : row1 (F := Ideal) arg0 va vb prev (ix2 (0 : Fin 1) j)
    = if arg0 = 0#32 then ((pairPart x ba bb j : ℝ) : EReal)
      else prev (ix2 (0 : Fin 1) j) + ((pairPart x ba bb j : ℝ) : EReal) := by
  rw [row1_eq]; exact stored_apply arg0 x ba bb va vb prev ha hb j
theorem row2_apply : row2 (F := Ideal) arg0 va vb prev (ix2 (0 : Fin 1) j)
    = if arg0 = 0#32 then ((pairPart x ba bb j : ℝ) : EReal)
      else prev (ix2 (0 : Fin 1) j) + ((pairPart x ba bb j : ℝ) : EReal) := by
  rw [row2_eq]; exact stored_apply arg0 x ba bb va vb prev ha hb j
theorem row3_apply : row3 (F := Ideal) arg0 va vb prev (ix2 (0 : Fin 1) j)
    = if arg0 = 0#32 then ((pairPart x ba bb j : ℝ) : EReal)
      else prev (ix2 (0 : Fin 1) j) + ((pairPart x ba bb j : ℝ) : EReal) := by
  rw [row3_eq]; exact stored_apply arg0 x ba bb va vb prev ha hb j

end Rows

/-! ## The final scalar -/

/-- The one entry of a [1, 1, 1] array taken out at position (0, 0, 0). -/
theorem extractAt_111_apply {α : Type} (v : S1x1x1.Idx → α) :
    extractAt ![0, 0, 0] v inpos_S1x1x1_p0_0_0 = v (ix3 (0 : Fin 1) (0 : Fin 1) (0 : Fin 1)) := by
  unfold extractAt
  refine congrArg v (funext fun ax => Fin.ext ?_)
  match ax with
  | ⟨0, _⟩ => rfl
  | ⟨1, _⟩ => rfl
  | ⟨2, _⟩ => rfl

/-- The last payload: the accumulator's 4 × 256 entries summed, times 1 / 67108864, plus 1. -/
theorem final_apply (acc : FVec Ideal S4x256 .f32) :
    k0_pay2 (F := Ideal) acc (ix2 (0 : Fin 1) (0 : Fin 1))
      = (∑ p : Fin 4, ∑ j : Fin 256, acc (ix2 p j)) * ((1 / 67108864 : ℝ) : EReal) + 1 := by
  show extractAt ![0, 0, 0]
        (shapeCast S1x1x1
          (multiReduction (F := Ideal) .add [1, 2] S1 (shapeCast S1x4x256 acc shapeCasts_S4x256_S1x4x256) 0x00000000#32
            reduces_S1x4x256_S1 (.inl rfl) rfl)
          shapeCasts_S1_S1x1x1)
        inpos_S1x1x1_p0_0_0
      * Ideal.ofBits .f32 0x32800000#32 + Ideal.ofBits .f32 0x3F800000#32 = _
  have hsum : multiReduction (F := Ideal) .add [1, 2] S1 (shapeCast S1x4x256 acc shapeCasts_S4x256_S1x4x256) 0x00000000#32
      reduces_S1x4x256_S1 (.inl rfl) rfl (ix1 (0 : Fin 1)) = ∑ p : Fin 4, ∑ j : Fin 256, acc (ix2 p j) := by
    refine (Cert.LibPairSum.multiReduction_add_pair (shapeCast S1x4x256 acc shapeCasts_S4x256_S1x4x256) 0x00000000#32
      reduces_S1x4x256_S1 (.inl rfl) rfl (0 : Fin 1)).trans ?_
    refine Finset.sum_congr rfl fun p _ => Finset.sum_congr rfl fun j _ => ?_
    exact shapeCast_ab_1ab_apply acc shapeCasts_S4x256_S1x4x256 (0 : Fin 1) p j
  rw [extractAt_111_apply, Cert.LibLeadingAxis.shapeCast_a_a11_apply _ shapeCasts_S1_S1x1x1 (0 : Fin 1) 0 0,
    hsum, ofBits_inv, ofBits_one, EReal.coe_one]

end Cert.KernelIdeal.Pay

end
-- ==== Proof.LibBatchMoments.lean ====
/-
  Batch statistics on the extended reals.

  A batch-normalisation layer needs the mean and the variance of a column of finite numbers.  Two spellings of
  the variance occur side by side: the one-pass form, (sum of squares)/n - mean^2, which a streaming kernel
  accumulates, and the two-pass form, (sum of squared deviations from the mean)/n, which a textbook program
  computes.  On real data they are the same number; on the extended reals the identity needs every entry to be
  a real (a single infinity breaks distributivity), so it is stated for coerced real data.  Division is the
  ideal instance's division `Ideal.div`, which for a nonzero real divisor is multiplication by the reciprocal.

  Also here: the straight-through spelling `x + (sign x - x)` of the sign of a real, and the sign written with
  two selections (`if 0 < |x| then (if x < 0 then -1 else 1) else x`), both equal to `Ideal.sign x`.
-/
import Idealize.ShloMosaic.PureOps.Ideal
import Mathlib.Algebra.BigOperators.Field
import Mathlib.Tactic.FieldSimp
import Mathlib.Tactic.Ring

noncomputable section

namespace Cert.Lib.BatchMoments

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Ideal division of a real by a nonzero real is the real quotient. -/
theorem div_coe_coe (x n : ℝ) (hn : n ≠ 0) : Ideal.div (x : EReal) (n : EReal) = ((x / n : ℝ) : EReal) := by
  rw [Ideal.div_coe hn, ← EReal.coe_mul, mul_one_div]

/-- One-pass and two-pass variance agree on real data: with `S = ∑ h` and `n` the number of entries,
    `(∑ h²)/n - (S/n)² = (∑ (h - S/n)²)/n`. -/
theorem real_var {ι : Type*} [Fintype ι] (h : ι → ℝ) (n : ℝ) (hn : n ≠ 0) (hc : (Fintype.card ι : ℝ) = n) :
    (∑ i, h i * h i) / n - ((∑ i, h i) / n) * ((∑ i, h i) / n)
      = (∑ i, (h i - (∑ j, h j) / n) * (h i - (∑ j, h j) / n)) / n := by
  set S := ∑ i, h i with hS
  have e : ∀ i, (h i - S / n) * (h i - S / n) = h i * h i - 2 * (S / n) * h i + (S / n) * (S / n) := by
    intro i; ring
  simp_rw [e, Finset.sum_add_distrib, Finset.sum_sub_distrib, ← Finset.mul_sum, Finset.sum_const,
    Finset.card_univ, nsmul_eq_mul, hc, ← hS]
  field_simp
  ring

/-- The same on the extended reals, for coerced real data, in the ideal instance's operations: the one-pass
    variance `div (∑ h·h) n - div S n · div S n` is the two-pass variance `div (∑ (h - μ)·(h - μ)) n`,
    `μ = div S n`. -/
theorem ereal_var {ι : Type*} [Fintype ι] (h : ι → ℝ) (n : ℝ) (hn : n ≠ 0) (hc : (Fintype.card ι : ℝ) = n) :
    Ideal.div (∑ i, (h i : EReal) * (h i : EReal)) (n : EReal)
        - Ideal.div (∑ i, (h i : EReal)) (n : EReal) * Ideal.div (∑ i, (h i : EReal)) (n : EReal)
      = Ideal.div (∑ i, ((h i : EReal) - Ideal.div (∑ j, (h j : EReal)) (n : EReal))
            * ((h i : EReal) - Ideal.div (∑ j, (h j : EReal)) (n : EReal))) (n : EReal) := by
  simp only [← EReal.coe_mul, ← coe_sum, div_coe_coe _ _ hn, ← EReal.coe_sub]
  exact congrArg _ (real_var h n hn hc)

/-- The mean of coerced real data is a real: `div (∑ h) n = ((∑ h)/n : ℝ)`. -/
theorem ereal_mean {ι : Type*} [Fintype ι] (h : ι → ℝ) (n : ℝ) (hn : n ≠ 0) :
    Ideal.div (∑ i, (h i : EReal)) (n : EReal) = (((∑ i, h i) / n : ℝ) : EReal) := by
  rw [← coe_sum, div_coe_coe _ _ hn]

/-- The straight-through spelling of a function's value at a real: `x + (s - x) = s` for reals `x`, `s`. -/
theorem straight_through (x s : ℝ) : (x : EReal) + ((s : EReal) - (x : EReal)) = (s : EReal) := by
  rw [← EReal.coe_sub, ← EReal.coe_add]
  exact congrArg _ (by ring)

/-- The straight-through sign of a real is its sign. -/
theorem straight_through_sign (x : ℝ) :
    (x : EReal) + (Ideal.sign (x : EReal) - (x : EReal)) = Ideal.sign (x : EReal) := by
  rw [Ideal.sign_coe]
  exact straight_through x _

/-- The sign of an extended real written with two selections: where `0 < |x|` it is `-1` below zero and `1`
    above, and elsewhere (only at `0`) it is `x` itself. -/
theorem sign_by_selects (x : EReal) :
    (if 0 < max x (-x) then (if x < 0 then (-1 : EReal) else 1) else x) = Ideal.sign x := by
  induction x using EReal.rec with
  | bot => rw [Ideal.sign_bot]; simp
  | top => rw [Ideal.sign_top]; simp
  | coe r =>
    rw [Ideal.sign_coe]
    rcases lt_trichotomy r 0 with hr | hr | hr
    · have h1 : (0 : EReal) < max (r : EReal) (-(r : EReal)) := by
        rw [lt_max_iff]; right; rw [← EReal.coe_neg]; exact_mod_cast neg_pos.mpr hr
      have h2 : (r : EReal) < 0 := by exact_mod_cast hr
      rw [if_pos h1, if_pos h2, sign_neg hr]; simp
    · subst hr; simp
    · have h1 : (0 : EReal) < max (r : EReal) (-(r : EReal)) := by
        rw [lt_max_iff]; left; exact_mod_cast hr
      have h2 : ¬ (r : EReal) < 0 := by
        rw [not_lt]; exact_mod_cast hr.le
      rw [if_pos h1, if_neg h2, sign_pos hr]; simp

end Cert.Lib.BatchMoments

end
-- ==== Proof.SimRegroup.lean ====
/-
  Regrouping the kernel's partial sums.

  The kernel visits the 64 batches eight per grid point, two per pair: batch 8t + 2p + h is the h-th batch of
  pair p at point t.  A pair's 256 lanes hold the 128 column contributions of its first batch followed by the 128
  of its second.  Summing a pair's lanes gives the two batches' totals; (t, p, h) ↦ 8t + 2p + h is a bijection from
  8 × 4 × 2 onto the 64 batches (its inverse is b ↦ (b / 8, b % 8 / 2, b % 2)), so summing over pairs, lanes and
  grid points gives the total over all batches and columns.
-/
import proofs.«174938_g53377853555121_feedfinal_227_15_alg».proof.Proof.SimSpec
import proofs.«174938_g53377853555121_feedfinal_227_15_alg».proof.Proof.LibBatchMoments
import Idealize.ShloMosaic.Lib.ValueIdx
import Mathlib.Algebra.BigOperators.Fin

noncomputable section

open scoped BigOperators

namespace Cert.Sim

open Cert.Lib.BatchMoments (coe_sum)

/-- Batch h of pair p at grid point t: the kernel visits the 64 batches eight per point, two per pair. -/
def bat (t : Fin 8) (p : Fin 4) (h : Fin 2) : Fin 64 := ⟨8 * t.val + 2 * p.val + h.val, by omega⟩

/-- (t, p, h) ↦ 8t + 2p + h is a bijection onto the batches. -/
def batEquiv : Fin 8 × Fin 4 × Fin 2 ≃ Fin 64 where
  toFun q := bat q.1 q.2.1 q.2.2
  invFun b := (⟨b.val / 8, by omega⟩, ⟨b.val % 8 / 2, by omega⟩, ⟨b.val % 2, by omega⟩)
  left_inv q := by
    obtain ⟨⟨t, ht⟩, ⟨p, hp⟩, ⟨h, hh⟩⟩ := q
    refine Prod.ext (Fin.ext ?_) (Prod.ext (Fin.ext ?_) (Fin.ext ?_))
    · show (8 * t + 2 * p + h) / 8 = t
      omega
    · show (8 * t + 2 * p + h) % 8 / 2 = p
      omega
    · show (8 * t + 2 * p + h) % 2 = h
      omega
  right_inv b := by
    refine Fin.ext ?_
    show 8 * (b.val / 8) + 2 * (b.val % 8 / 2) + b.val % 2 = b.val
    omega

/-- A sum over the batches is the sum over grid points, pairs and halves. -/
theorem sum_bat (A : Fin 64 → ℝ) : ∑ b, A b = ∑ t : Fin 8, ∑ p : Fin 4, ∑ h : Fin 2, A (bat t p h) := by
  rw [← Equiv.sum_comp batEquiv A, Fintype.sum_prod_type]
  refine Finset.sum_congr rfl fun t _ => ?_
  rw [Fintype.sum_prod_type]
  rfl

/-- A pair's 256 lanes sum to the totals of its two batches. -/
theorem sum_lanes (x : Arr) (pp : Fin 64 → Fin 64 → Fin 256 → ℝ)
    (hpp : ∀ (ba bb : Fin 64) (j : Fin 256), pp ba bb j
      = if h : j.val < 128 then part x ba ⟨j.val, h⟩ else part x bb ⟨j.val - 128, by have := j.isLt; omega⟩)
    (ba bb : Fin 64) :
    ∑ j : Fin 256, pp ba bb j = (∑ l : Fin 128, part x ba l) + ∑ l : Fin 128, part x bb l := by
  refine (Fin.sum_univ_add (a := 128) (b := 128) (fun j : Fin (128 + 128) => pp ba bb j)).trans ?_
  congr 1
  · refine Finset.sum_congr rfl fun l _ => ?_
    rw [hpp, dif_pos (show (Fin.castAdd 128 l).val < 128 from l.isLt)]
    rfl
  · refine Finset.sum_congr rfl fun l _ => ?_
    have hn : ¬ (Fin.natAdd 128 l).val < 128 := by
      show ¬ 128 + l.val < 128
      omega
    rw [hpp, dif_neg hn]
    refine congrArg (part x bb) (Fin.ext ?_)
    show 128 + l.val - 128 = l.val
    omega

/-- The lanes of all pairs, summed over the grid points, are the total over batches and columns. -/
theorem regroup (x : Arr) (pp : Fin 64 → Fin 64 → Fin 256 → ℝ)
    (hpp : ∀ (ba bb : Fin 64) (j : Fin 256), pp ba bb j
      = if h : j.val < 128 then part x ba ⟨j.val, h⟩ else part x bb ⟨j.val - 128, by have := j.isLt; omega⟩) :
    ∑ p : Fin 4, ∑ j : Fin 256, ∑ t : Fin 8, pp (bat t p 0) (bat t p 1) j = ∑ b : Fin 64, ∑ l : Fin 128, part x b l := by
  have h1 : ∀ p : Fin 4, ∑ j : Fin 256, ∑ t : Fin 8, pp (bat t p 0) (bat t p 1) j
      = ∑ t : Fin 8, ∑ h : Fin 2, ∑ l : Fin 128, part x (bat t p h) l := fun p => by
    rw [Finset.sum_comm]
    refine Finset.sum_congr rfl fun t _ => ?_
    rw [sum_lanes x pp hpp, Fin.sum_univ_two]
  rw [Finset.sum_congr rfl fun p _ => h1 p, Finset.sum_comm, sum_bat fun b => ∑ l : Fin 128, part x b l]

/-- The kernel's last step on real data: the accumulator's total times 1/67108864, plus 1, is the kernel's loss. -/
theorem final_real (x : Arr) (pp : Fin 64 → Fin 64 → Fin 256 → ℝ)
    (hpp : ∀ (ba bb : Fin 64) (j : Fin 256), pp ba bb j
      = if h : j.val < 128 then part x ba ⟨j.val, h⟩ else part x bb ⟨j.val - 128, by have := j.isLt; omega⟩)
    (acc : (⟨2, ![4, 256]⟩ : Idealize.ShloMosaic.Shape).Idx → EReal)
    (hacc : ∀ (p : Fin 4) (j : Fin 256), acc (Idealize.ShloMosaic.ValueIdx.ix2 p j)
      = ((∑ t : Fin 8, pp (bat t p 0) (bat t p 1) j : ℝ) : EReal)) :
    (∑ p : Fin 4, ∑ j : Fin 256, acc (Idealize.ShloMosaic.ValueIdx.ix2 p j)) * ((1 / 67108864 : ℝ) : EReal) + 1
      = ((lossKer x : ℝ) : EReal) := by
  simp only [hacc, ← coe_sum]
  rw [regroup x pp hpp, ← EReal.coe_mul, ← EReal.coe_one, ← EReal.coe_add]
  rfl

end Cert.Sim

end
-- ==== Proof.IdealResult.lean ====
/-
  The accumulator point by point on real data, and the output's entry.

  At grid point t the block holds batches 8t … 8t + 7 of the input; row p of the accumulator is built from batches
  8t + 2p and 8t + 2p + 1. With every input entry a real number, after point n the accumulator's entry (p, j) is the
  sum over the points so far of the two batches' contribution at column j, and the output's one entry, stored at the
  last point, is the kernel's loss.
-/
import proofs.«174938_g53377853555121_feedfinal_227_15_alg».proof.Proof.IdealAcc
import proofs.«174938_g53377853555121_feedfinal_227_15_alg».proof.Proof.IdealPay
import proofs.«174938_g53377853555121_feedfinal_227_15_alg».proof.Proof.SimRegroup

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx Cert.Sim

variable (m : (ℓ : Loc nD τ sig) → Buf (Elt Ideal) ℓ)

/-- The input window's index map: block t along the batch axis, the other two axes whole. -/
theorem idx_in : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Batch k of the block at point t is batch 8t + k of the input. -/
theorem slab_iblk (c : Dev nD) (t : Fin cfg0.N) (k : Fin 8) (s : Fin 1024) (d : Fin 128) :
    slab k (iblk m c 0 t : Vec Ideal S8x1024x128 .f32) (ix3 (0 : Fin 1) s d)
      = m ((c : Thread nD τ).loc main_arg0) (ix3 (⟨8 * t.val + k.val, by have := t.isLt; have h8 : cfg0.N = 8 := N_0; have := k.isLt; omega⟩ : Fin 64) s d) := by
  unfold slab iblk
  rw [View.read_apply]
  show V m c main_arg0 _ = m (c.tc.loc main_arg0) _
  unfold V
  congr 1
  funext a
  apply Fin.ext
  match a with
  | ⟨0, _⟩ => show win0_0.index t 0 * 8 + 1 * k.val = 8 * t.val + k.val; rw [(idx_in t).1]; omega
  | ⟨1, _⟩ => show win0_0.index t 1 * 1024 + 1 * s.val = s.val; rw [(idx_in t).2.1]; omega
  | ⟨2, _⟩ => show win0_0.index t 2 * 128 + 1 * d.val = d.val; rw [(idx_in t).2.2]; omega

/-- The grid has eight points. -/
theorem lt8 (t : Fin cfg0.N) : t.val < 8 := lt_of_lt_of_eq t.isLt (show cfg0.N = 8 from N_0)
/-- A point as one of the eight. -/
abbrev pt (t : Fin cfg0.N) : Fin 8 := ⟨t.val, lt8 t⟩

/-- The grid coordinate's word is zero exactly at the first point. -/
theorem word_zero_iff (t : Fin cfg0.N) : BitVec.ofNat 32 t.val = 0#32 ↔ t.val = 0 := by
  have h8 := lt8 t
  constructor
  · intro h
    have e := congrArg BitVec.toNat h
    simp only [BitVec.toNat_ofNat, BitVec.toNat_zero] at e
    omega
  · intro h; rw [h]

/-- One point's update of the accumulator on real data: entry (p, j) takes the two batches' contribution at column j —
    alone at the first point, added to what was there at every other. -/
theorem accSpec_real (x : Arr) (t : Fin cfg0.N) (x0 : Vec Ideal S8x1024x128 .f32)
    (hx0 : ∀ (p : Fin 4) (h : Fin 2) (s : Fin 1024) (d : Fin 128),
      slab ⟨2 * p.val + h.val, by omega⟩ x0 (ix3 (0 : Fin 1) s d) = ((x (bat (pt t) p h) s d : ℝ) : EReal))
    (prev : Vec Ideal S4x256 .f32) (p : Fin 4) (j : Fin 256) :
    accSpec (BitVec.ofNat 32 t.val) x0 prev (ix2 p j)
      = if t.val = 0 then ((Pay.pairPart x (bat (pt t) p 0) (bat (pt t) p 1) j : ℝ) : EReal)
        else prev (ix2 p j) + ((Pay.pairPart x (bat (pt t) p 0) (bat (pt t) p 1) j : ℝ) : EReal) := by
  have key : ∀ (A : EReal) (B : EReal),
      (if BitVec.ofNat 32 t.val = 0#32 then A else B) = if t.val = 0 then A else B := by
    intro A B
    by_cases ht : t.val = 0
    · rw [if_pos ((word_zero_iff t).mpr ht), if_pos ht]
    · rw [if_neg (fun h => ht ((word_zero_iff t).mp h)), if_neg ht]
  unfold accSpec
  fin_cases p
  · rw [if_pos rfl]
    exact (Pay.row0_apply (BitVec.ofNat 32 t.val) x (bat (pt t) 0 0) (bat (pt t) 0 1) (slab 0 x0) (slab 1 x0) (accRow 0 prev)
      (fun s d => hx0 0 0 s d) (fun s d => hx0 0 1 s d) j).trans (key _ _)
  · rw [if_neg (show ¬((1 : ℕ) = 0) from by decide), if_pos rfl]
    exact (Pay.row1_apply (BitVec.ofNat 32 t.val) x (bat (pt t) 1 0) (bat (pt t) 1 1) (slab 2 x0) (slab 3 x0) (accRow 1 prev)
      (fun s d => hx0 1 0 s d) (fun s d => hx0 1 1 s d) j).trans (key _ _)
  · rw [if_neg (show ¬((2 : ℕ) = 0) from by decide), if_neg (show ¬((2 : ℕ) = 1) from by decide), if_pos rfl]
    exact (Pay.row2_apply (BitVec.ofNat 32 t.val) x (bat (pt t) 2 0) (bat (pt t) 2 1) (slab 4 x0) (slab 5 x0) (accRow 2 prev)
      (fun s d => hx0 2 0 s d) (fun s d => hx0 2 1 s d) j).trans (key _ _)
  · rw [if_neg (show ¬((3 : ℕ) = 0) from by decide), if_neg (show ¬((3 : ℕ) = 1) from by decide), if_neg (show ¬((3 : ℕ) = 2) from by decide)]
    exact (Pay.row3_apply (BitVec.ofNat 32 t.val) x (bat (pt t) 3 0) (bat (pt t) 3 1) (slab 6 x0) (slab 7 x0) (accRow 3 prev)
      (fun s d => hx0 3 0 s d) (fun s d => hx0 3 1 s d) j).trans (key _ _)

/-- What the accumulator holds after a point, from the point's block and what it held before. -/
theorem stateAt_acc (c : Dev nD) (t : Fin cfg0.N) :
    (stateAt m c t.val t.isLt).2 = accSpec (BitVec.ofNat 32 t.val) (iblk m c 0 t)
      (if h : t.val = 0 then (acc0 : Vec Ideal S4x256 .f32) else (stateAt m c (t.val - 1) (Nat.lt_of_le_of_lt (Nat.sub_le _ _) t.isLt)).2) := by
  by_cases hl : isLast (grid0.coords t)
  · have h7 : t.val = 7 := (isLast_iff t).mp hl
    rw [stateAt_last m c t hl, dif_neg (by omega)]
    dsimp only
    rw [accLast_eq (F := Ideal), coord_eq]
  · by_cases hz : t.val = 0
    · rw [stateAt_first m c t hz hl, dif_pos hz]
      dsimp only
      rw [accStep_eq (F := Ideal), coord_eq]
    · rw [stateAt_step m c t hz hl, dif_neg hz]
      dsimp only
      rw [accStep_eq (F := Ideal), coord_eq]

/-- The accumulator's entry (p, j) after point n on real data: the contributions of the points so far. -/
def accR (x : Arr) : (n : ℕ) → n < 8 → Fin 4 → Fin 256 → ℝ
  | 0, h, p, j => Pay.pairPart x (bat ⟨0, h⟩ p 0) (bat ⟨0, h⟩ p 1) j
  | n + 1, h, p, j => accR x n (Nat.lt_of_succ_lt h) p j + Pay.pairPart x (bat ⟨n + 1, h⟩ p 0) (bat ⟨n + 1, h⟩ p 1) j

/-- After the last point it is the sum over all eight. -/
theorem accR_last (x : Arr) (p : Fin 4) (j : Fin 256) :
    accR x 7 (by decide) p j = ∑ t : Fin 8, Pay.pairPart x (bat t p 0) (bat t p 1) j := by
  rw [Fin.sum_univ_eight]
  rfl

section Real
variable (c : Dev nD) (x : Arr)
  (hX : ∀ b s d, m ((c : Thread nD τ).loc main_arg0) (ix3 b s d) = ((x b s d : ℝ) : EReal))
include hX

/-- The block's batches at a point, on real data. -/
theorem blk_real (t : Fin cfg0.N) (p : Fin 4) (h : Fin 2) (s : Fin 1024) (d : Fin 128) :
    slab ⟨2 * p.val + h.val, by omega⟩ (iblk m c 0 t : Vec Ideal S8x1024x128 .f32) (ix3 (0 : Fin 1) s d)
      = ((x (bat (pt t) p h) s d : ℝ) : EReal) := by
  rw [slab_iblk m c t _ s d, hX]
  congr 2
  apply Fin.ext
  show 8 * t.val + (2 * p.val + h.val) = 8 * t.val + 2 * p.val + h.val
  omega

/-- The accumulator after point n. -/
theorem acc_real : ∀ (n : ℕ) (hn : n < cfg0.N) (p : Fin 4) (j : Fin 256),
    (stateAt m c n hn).2 (ix2 p j) = ((accR x n (lt_of_lt_of_eq hn (show cfg0.N = 8 from N_0)) p j : ℝ) : EReal)
  | 0, hn, p, j => by
    refine (congrFun (stateAt_acc m c ⟨0, hn⟩) (ix2 p j)).trans ?_
    refine (accSpec_real x ⟨0, hn⟩ _ (blk_real m c x hX ⟨0, hn⟩) _ p j).trans ?_
    rw [if_pos rfl]
    rfl
  | n + 1, hn, p, j => by
    refine (congrFun (stateAt_acc m c ⟨n + 1, hn⟩) (ix2 p j)).trans ?_
    refine (accSpec_real x ⟨n + 1, hn⟩ _ (blk_real m c x hX ⟨n + 1, hn⟩) _ p j).trans ?_
    rw [if_neg (Nat.succ_ne_zero n), dif_neg (Nat.succ_ne_zero n)]
    show (stateAt m c n _).2 (ix2 p j) + _ = _
    rw [acc_real n (Nat.lt_of_succ_lt hn) p j, ← EReal.coe_add]
    rfl

/-- The output's one entry after the last point is the kernel's loss. -/
theorem out_real (h7 : 7 < cfg0.N) : (stateAt m c 7 h7).1 (ix2 (0 : Fin 1) (0 : Fin 1)) = ((lossKer x : ℝ) : EReal) := by
  have hl : isLast (grid0.coords (⟨7, h7⟩ : Fin cfg0.N)) := (isLast_iff ⟨7, h7⟩).mpr rfl
  have e1 : (stateAt m c 7 h7).1 = k0_pay2 (stateAt m c 7 h7).2 := by
    have h := stateAt_last m c ⟨7, h7⟩ hl
    have ha : (stateAt m c 7 h7).2 = accSpec (BitVec.ofNat 32 (grid0.coords (⟨7, h7⟩ : Fin cfg0.N) 0).val) (iblk m c 0 ⟨7, h7⟩)
        (stateAt m c 6 (Nat.lt_of_le_of_lt (Nat.sub_le 7 1) h7)).2 :=
      (congrArg Prod.snd h).trans (accLast_eq (F := Ideal) c (grid0.coords ⟨7, h7⟩) (inM ⟨7, h7⟩) (inW ⟨7, h7⟩) (outM ⟨7, h7⟩) (outW ⟨7, h7⟩) accM (Memref.isWhole_whole _) hl (iblk m c 0 ⟨7, h7⟩) _)
    rw [ha]
    exact (congrArg Prod.fst h).trans (outLast_eq (F := Ideal) c (grid0.coords ⟨7, h7⟩) (inM ⟨7, h7⟩) (inW ⟨7, h7⟩) (outM ⟨7, h7⟩) (outW ⟨7, h7⟩) accM (Memref.isWhole_whole _) hl (iblk m c 0 ⟨7, h7⟩) _)
  rw [e1, Pay.final_apply]
  exact final_real x (Pay.pairPart x) (fun _ _ _ => rfl) _ (fun p j => by
    rw [acc_real m c x hX 7 h7 p j, accR_last])

end Real

end Cert.KernelIdeal.Body

end
-- ==== Proof.RefFinite.lean ====
/-
  Finiteness of the input from the precondition.

  The precondition states that every entry x of the input satisfies |x| < +∞, where |x| is max x (−x) on the
  extended reals.  An extended real with |x| < +∞ is neither −∞ nor +∞ (in both cases |x| = +∞), so it is a real
  number.  Hence the whole input is the coercion of an array of real numbers.
-/
import proofs.«174938_g53377853555121_feedfinal_227_15_alg».proof.Pre_finite_inputs
import proofs.«174938_g53377853555121_feedfinal_227_15_alg».proof.Proof.SimSpec
import Idealize.ShloMosaic.Lib.ReduceAll
import Idealize.ShloMosaic.Lib.ValueIdx
import Idealize.ShloMosaic.PureOps.Ideal.Laws

noncomputable section

namespace Cert.Sim.Ref

open Idealize.ShloMosaic

/-- The scalar shape has one index. -/
instance subsingleton_scalar_idx : Subsingleton Cert.Pre_finite_inputs.S_.Idx :=
  ⟨fun a b => funext fun d => d.elim0⟩

/-- The single-precision pattern of +∞ denotes +∞. -/
theorem ofBits_inf : Ideal.ofBits .f32 0x7F800000#32 = (⊤ : EReal) := by
  simp [Ideal.ofBits, Ideal.ieee]

/-- An extended real whose absolute value max a (−a) is below +∞ is a real number. -/
theorem real_of_abs_lt_top (a : EReal)
    (h : Ideal.cmp .olt (max a (-a)) (Ideal.ofBits .f32 0x7F800000#32) = 1#1) : ∃ r : ℝ, a = (r : EReal) := by
  rw [ofBits_inf] at h
  induction a using EReal.rec with
  | bot => simp [Ideal.cmp] at h
  | top => simp [Ideal.cmp] at h
  | coe r => exact ⟨r, rfl⟩

/-- From the precondition, the input is an array of real numbers. -/
theorem finite_of_pre [Cert.Pre_finite_inputs.Facts]
    (X : FVec Ideal Cert.Pre_finite_inputs.S64x1024x128 .f32)
    (h : Cert.Pre_finite_inputs.fn (F := Ideal) X = fun _ => 1#1) :
    ∃ x : Cert.Sim.Arr, ∀ b s d, X (ValueIdx.ix3 b s d) = ((x b s d : ℝ) : EReal) := by
  have e := congrFun h ValueIdx.ix0
  dsimp only [Cert.Pre_finite_inputs.fn] at e
  have el : ∀ i, ∃ r : ℝ, X i = (r : EReal) := fun i =>
    real_of_abs_lt_top (X i) (Host.reduce_andi_all _ _ _ _ _ e i)
  exact ⟨fun b s d => (el (ValueIdx.ix3 b s d)).choose, fun b s d => (el (ValueIdx.ix3 b s d)).choose_spec⟩

end Cert.Sim.Ref

end
-- ==== Proof.RefConsts.lean ====
/-
  The single-precision constants of the reference, as the real numbers their patterns denote.

  0x2B8CBCCC has exponent field 87 and fraction 834764: (2²³ + 834764) · 2^(87 − 127 − 23) = 9223372 · 2⁻⁶³
  = 2305843 / 2⁶¹, the clamp D.  0x4C800000 has exponent field 153 and fraction 0: 2²³ · 2^(153 − 150) = 2²⁶
  = 67108864.  0x3F800000 is 1 and the zero pattern is 0.
-/
import proofs.«174938_g53377853555121_feedfinal_227_15_alg».proof.Proof.SimSpec
import Idealize.ShloMosaic.PureOps.Ideal

noncomputable section

namespace Cert.Sim.Ref

open Idealize.ShloMosaic

/-- The zero pattern denotes 0. -/
theorem ofBits_zero : Ideal.ofBits .f32 0x00000000#32 = ((0 : ℝ) : EReal) := by
  simp [Ideal.ofBits, Ideal.ieee]

/-- The pattern of 1.0 denotes 1. -/
theorem ofBits_one : Ideal.ofBits .f32 0x3F800000#32 = ((1 : ℝ) : EReal) := by
  simp [Ideal.ofBits, Ideal.ieee, -EReal.coe_mul]; norm_num

/-- The pattern of the clamp denotes D. -/
theorem ofBits_D : Ideal.ofBits .f32 0x2B8CBCCC#32 = ((Cert.Sim.D : ℝ) : EReal) := by
  simp [Ideal.ofBits, Ideal.ieee, -EReal.coe_mul, Cert.Sim.D]; norm_num

/-- The pattern of the element count denotes 67108864 = 2²⁶. -/
theorem ofBits_count : Ideal.ofBits .f32 0x4C800000#32 = ((67108864 : ℝ) : EReal) := by
  simp [Ideal.ofBits, Ideal.ieee, -EReal.coe_mul]; norm_num

/-- The clamp is positive. -/
theorem D_pos : 0 < Cert.Sim.D := by unfold Cert.Sim.D; norm_num

end Cert.Sim.Ref

end
-- ==== Proof.LibClampedDistance.lean ====
/-
  The negated clamped distance is a real number.

  From a real squared distance `d` and a real clamp `c` a program forms `-max (√(max d 0)) c` on the
  extended reals. Each step stays among the real numbers: the maximum of two real numbers is a real
  number, the square root of a real number that is not negative is a real number, and so is the negation
  of one. So the result is neither `-∞` nor `+∞`.
-/
import Idealize.ShloMosaic.PureOps.Ideal
import Mathlib.Data.EReal.Operations

open Idealize.ShloMosaic

namespace Cert.LibClampedDistance

/-- The embedding of the real numbers in the extended reals carries `max` to `max` (it is monotone). -/
theorem coe_max (a b : ℝ) : ((max a b : ℝ) : EReal) = max (a : EReal) (b : EReal) :=
  EReal.coe_strictMono.monotone.map_max

/-- The square root of a real number that is not negative, taken on the extended reals, is the real square
    root. -/
theorem sqrt_coe_of_nonneg {r : ℝ} (hr : 0 ≤ r) : Ideal.sqrt (r : EReal) = ((Real.sqrt r : ℝ) : EReal) := by
  rw [Ideal.sqrt_coe, if_neg (not_lt.mpr hr)]

/-- With `d` a real number, `z` zero and `c` a real number, `-max (√(max d z)) c` is a real number: it is
    `-max (√(max d 0)) x` computed in the reals, where `c` is the real number `x`; `max d 0` is not negative,
    so its square root is the real one. -/
theorem neg_clamp_real (d : ℝ) (z c : EReal) (hz : z = 0) (hc : ∃ x : ℝ, c = (x : EReal)) :
    ∃ y : ℝ, -(max (Ideal.sqrt (max (d : EReal) z)) c) = (y : EReal) := by
  obtain ⟨x, rfl⟩ := hc
  refine ⟨-(max (Real.sqrt (max d 0)) x), ?_⟩
  rw [hz, ← EReal.coe_zero, ← coe_max, sqrt_coe_of_nonneg (le_max_right d 0), ← coe_max, EReal.coe_neg]

/-- So it is not `-∞`. -/
theorem neg_clamp_ne_bot (d : ℝ) (z c : EReal) (hz : z = 0) (hc : ∃ x : ℝ, c = (x : EReal)) :
    -(max (Ideal.sqrt (max (d : EReal) z)) c) ≠ ⊥ := by
  obtain ⟨y, hy⟩ := neg_clamp_real d z c hz hc
  rw [hy]; exact EReal.coe_ne_bot y

/-- And it is not `+∞`. -/
theorem neg_clamp_ne_top (d : ℝ) (z c : EReal) (hz : z = 0) (hc : ∃ x : ℝ, c = (x : EReal)) :
    -(max (Ideal.sqrt (max (d : EReal) z)) c) ≠ ⊤ := by
  obtain ⟨y, hy⟩ := neg_clamp_real d z c hz hc
  rw [hy]; exact EReal.coe_ne_top y

end Cert.LibClampedDistance
-- ==== Proof.RefStages.lean ====
/-
  The reference, stage by stage, on real data.

  With every entry of the input a real number x b s d, each stage of the reference is the coercion of a real
  number: the row's sum of squares ss, its square root (ss is not negative), the larger of that and the clamp D,
  the quotient x / max(√ss, D) (the divisor is at least D > 0), the inner product of two normalised rows, that
  less 1, its square.  The sum over all indices of a rank-3 array is the triple sum over its coordinates.
-/
import proofs.«174938_g53377853555121_feedfinal_227_15_alg».proof.Proof.Gen.ReferenceIdeal.Read
import proofs.«174938_g53377853555121_feedfinal_227_15_alg».proof.Proof.SimSpec
import proofs.«174938_g53377853555121_feedfinal_227_15_alg».proof.Proof.RefConsts
import proofs.«174938_g53377853555121_feedfinal_227_15_alg».proof.Proof.LibBatchMoments
import proofs.«174938_g53377853555121_feedfinal_227_15_alg».proof.Proof.LibClampedDistance

noncomputable section

open scoped BigOperators

namespace Cert.Sim.Ref

open Idealize.ShloMosaic Idealize.ShloMosaic.ValueIdx Cert.ReferenceIdeal Cert.ReferenceIdeal.Read
open Cert.Lib.BatchMoments (coe_sum div_coe_coe)
open Cert.LibClampedDistance (coe_max sqrt_coe_of_nonneg)

/-! ## A sum over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The stages -/

/-- A row's sum of squares is not negative. -/
theorem ss_nonneg (x : Arr) (b : Fin 64) (s : Fin 1024) : 0 ≤ ss x b s :=
  Finset.sum_nonneg fun d _ => mul_self_nonneg (x b s d)

/-- The clamped norm is not zero: it is at least D > 0. -/
theorem den_ne_zero (x : Arr) (b : Fin 64) (s : Fin 1024) : max (Real.sqrt (ss x b s)) D ≠ 0 :=
  ne_of_gt (lt_of_lt_of_le D_pos (le_max_right _ _))

/-- The squares. -/
theorem sq_at (X : FVec Ideal S64x1024x128 .f32) (x : Arr)
    (hX : ∀ b s d, X (ix3 b s d) = ((x b s d : ℝ) : EReal)) (b : Fin 64) (s : Fin 1024) (d : Fin 128) :
    val_main_call0_v0 (F := Ideal) X (ix3 b s d) = ((x b s d * x b s d : ℝ) : EReal) := by
  rw [val_main_call0_v0_apply, Ideal.mulf_def, hX, EReal.coe_mul]

/-- The row sums of squares. -/
theorem ss_at (X : FVec Ideal S64x1024x128 .f32) (x : Arr)
    (hX : ∀ b s d, X (ix3 b s d) = ((x b s d : ℝ) : EReal)) (b : Fin 64) (s : Fin 1024) :
    val_main_call0_v1 (F := Ideal) X (ix2 b s) = ((ss x b s : ℝ) : EReal) := by
  have e : ∀ k : Fin 128, idx_main_call0_v1 (ix2 b s) k = ix3 b s k := fun k =>
    funext fun a => Fin.ext (by match a with | ⟨0, _⟩ => rfl | ⟨1, _⟩ => rfl | ⟨2, _⟩ => rfl)
  rw [val_main_call0_v1_apply, val_main_call0_cst_apply, Ideal.ofBits_def, Ideal.ofBits_zero_f32, zero_add]
  simp only [e, sq_at X x hX]
  rw [← coe_sum]
  rfl

/-- The same with the reduced axis put back. -/
theorem ss3_at (X : FVec Ideal S64x1024x128 .f32) (x : Arr)
    (hX : ∀ b s d, X (ix3 b s d) = ((x b s d : ℝ) : EReal)) (b : Fin 64) (s : Fin 1024) (u : Fin 1) :
    val_main_call0_v2 (F := Ideal) X (ix3 b s u) = ((ss x b s : ℝ) : EReal) := by
  have e : idx_main_call0_v2 (ix3 b s u) = ix2 b s :=
    funext fun a => Fin.ext (by match a with | ⟨0, _⟩ => rfl | ⟨1, _⟩ => rfl)
  rw [val_main_call0_v2_apply, e, ss_at X x hX]

/-- The row norms. -/
theorem norm_at (X : FVec Ideal S64x1024x128 .f32) (x : Arr)
    (hX : ∀ b s d, X (ix3 b s d) = ((x b s d : ℝ) : EReal)) (b : Fin 64) (s : Fin 1024) (u : Fin 1) :
    val_main_v0 (F := Ideal) X (ix3 b s u) = ((Real.sqrt (ss x b s) : ℝ) : EReal) := by
  rw [val_main_v0_apply, Ideal.hostUnary_sqrt_def, ss3_at X x hX, sqrt_coe_of_nonneg (ss_nonneg x b s)]

/-- The clamp, broadcast. -/
theorem clamp_at (i : S64x1024x1.Idx) : val_main_v1 (F := Ideal) i = ((D : ℝ) : EReal) := by
  rw [val_main_v1_apply, val_main_cst_apply, Ideal.ofBits_def, ofBits_D]

/-- The clamped norms. -/
theorem den_at (X : FVec Ideal S64x1024x128 .f32) (x : Arr)
    (hX : ∀ b s d, X (ix3 b s d) = ((x b s d : ℝ) : EReal)) (b : Fin 64) (s : Fin 1024) (u : Fin 1) :
    val_main_v2 (F := Ideal) X (ix3 b s u) = ((max (Real.sqrt (ss x b s)) D : ℝ) : EReal) := by
  rw [val_main_v2_apply, Ideal.maximumf_def, norm_at X x hX, clamp_at, coe_max]

/-- The clamped norms, broadcast along the rows. -/
theorem den3_at (X : FVec Ideal S64x1024x128 .f32) (x : Arr)
    (hX : ∀ b s d, X (ix3 b s d) = ((x b s d : ℝ) : EReal)) (b : Fin 64) (s : Fin 1024) (d : Fin 128) :
    val_main_v3 (F := Ideal) X (ix3 b s d) = ((max (Real.sqrt (ss x b s)) D : ℝ) : EReal) := by
  have e : idx_main_v3 (ix3 b s d) = ix3 b s (0 : Fin 1) :=
    funext fun a => Fin.ext (by match a with | ⟨0, _⟩ => rfl | ⟨1, _⟩ => rfl | ⟨2, _⟩ => rfl)
  rw [val_main_v3_apply, e, den_at X x hX]

/-- The normalised rows. -/
theorem xn_at (X : FVec Ideal S64x1024x128 .f32) (x : Arr)
    (hX : ∀ b s d, X (ix3 b s d) = ((x b s d : ℝ) : EReal)) (b : Fin 64) (s : Fin 1024) (d : Fin 128) :
    val_main_v4 (F := Ideal) X (ix3 b s d) = ((xn x b s d : ℝ) : EReal) := by
  rw [val_main_v4_apply, Ideal.hostDivf_def, hX, den3_at X x hX, div_coe_coe _ _ (den_ne_zero x b s)]
  rfl

/-- The inner products of the normalised rows. -/
theorem gram_at (X : FVec Ideal S64x1024x128 .f32) (x : Arr)
    (hX : ∀ b s d, X (ix3 b s d) = ((x b s d : ℝ) : EReal)) (b : Fin 64) (s t : Fin 1024) :
    val_main_v5 (F := Ideal) X (ix3 b s t) = ((∑ d, xn x b s d * xn x b t d : ℝ) : EReal) := by
  have el : ∀ k : Fin 128, lidx_main_v5 (ix3 b s t) k = ix3 b s k := fun k =>
    funext fun a => Fin.ext (by match a with | ⟨0, _⟩ => rfl | ⟨1, _⟩ => rfl | ⟨2, _⟩ => rfl)
  have er : ∀ k : Fin 128, ridx_main_v5 (ix3 b s t) k = ix3 b t k := fun k =>
    funext fun a => Fin.ext (by match a with | ⟨0, _⟩ => rfl | ⟨1, _⟩ => rfl | ⟨2, _⟩ => rfl)
  rw [val_main_v5_apply]
  simp only [el, er, xn_at X x hX, ← EReal.coe_mul]
  rw [← coe_sum]

/-- The constant 1, broadcast. -/
theorem one_at (i : S64x1024x1024.Idx) : val_main_v6 (F := Ideal) i = ((1 : ℝ) : EReal) := by
  rw [val_main_v6_apply, val_main_cst_0_apply, Ideal.ofBits_def, ofBits_one]

/-- The squared deviations from 1. -/
theorem sqdev_at (X : FVec Ideal S64x1024x128 .f32) (x : Arr)
    (hX : ∀ b s d, X (ix3 b s d) = ((x b s d : ℝ) : EReal)) (b : Fin 64) (s t : Fin 1024) :
    val_main_v8 (F := Ideal) X (ix3 b s t)
      = ((((∑ d, xn x b s d * xn x b t d) - 1) * ((∑ d, xn x b s d * xn x b t d) - 1) : ℝ) : EReal) := by
  rw [val_main_v8_apply, val_main_v7_apply, Ideal.mulf_def, Ideal.subf_def, gram_at X x hX, one_at,
    ← EReal.coe_sub, ← EReal.coe_mul]

/-- Their total. -/
theorem total_at (X : FVec Ideal S64x1024x128 .f32) (x : Arr)
    (hX : ∀ b s d, X (ix3 b s d) = ((x b s d : ℝ) : EReal)) (i : S_.Idx) :
    val_main_v9 (F := Ideal) X i
      = ((∑ b, ∑ s, ∑ t, ((∑ d, xn x b s d * xn x b t d) - 1) * ((∑ d, xn x b s d * xn x b t d) - 1) : ℝ) : EReal) := by
  rw [val_main_v9_apply, val_main_cst_1_apply, Ideal.ofBits_def, Ideal.ofBits_zero_f32, zero_add, sum_idx3]
  simp only [sqdev_at X x hX, ← coe_sum]

end Cert.Sim.Ref

end
-- ==== Proof.RefValue.lean ====
/-
  The reference's value on real data: the mean of (⟨row s, row t⟩ − 1)² over batches and pairs of rows.

  The last stage divides the total of the squared deviations by 67108864 = 64 · 1024 · 1024, a nonzero real, so
  the result is the coercion of the real quotient, which is the loss of the specification.
-/
import proofs.«174938_g53377853555121_feedfinal_227_15_alg».proof.Proof.RefStages

noncomputable section

open scoped BigOperators

namespace Cert.Sim.Ref

open Idealize.ShloMosaic Idealize.ShloMosaic.ValueIdx Cert.ReferenceIdeal Cert.ReferenceIdeal.Gen Cert.ReferenceIdeal.Read
open Cert.Lib.BatchMoments (div_coe_coe)

/-- The reference's last stage, on an input of real numbers, is the loss at every index. -/
theorem ref_val (X : FVec Ideal S64x1024x128 .f32) (x : Arr)
    (hX : ∀ b s d, X (ix3 b s d) = ((x b s d : ℝ) : EReal)) :
    val_main_v10 (F := Ideal) X = fun _ => ((lossRef x : ℝ) : EReal) := by
  funext i
  rw [val_main_v10_apply, Ideal.hostDivf_def, total_at X x hX, val_main_cst_2_apply, Ideal.ofBits_def, ofBits_count,
    div_coe_coe _ _ (by norm_num)]
  rfl

/-- The composed term of the reference's operations, on an input of real numbers, is the loss at every index. -/
theorem ref_run (X : (⟨S64x1024x128, .f32⟩ : BufTy).Contents (Elt Ideal)) (x : Arr)
    (hX : ∀ b s d, X (ix3 b s d) = ((x b s d : ℝ) : EReal)) :
    Host.divf (F := Ideal) (Host.reduceAdd (mulf (subf (Host.dotGeneral dot_S64x1024x128_S64x1024x128_S64x1024x1024_2_2_1_1_0_0 none (Host.divf X (broadcastInDim S64x1024x128 ![0, 1, 2] bcast_S64x1024x1_S64x1024x128_0_1_2 (maximumf (Host.sqrt (broadcastInDim S64x1024x1 ![0, 1] bcast_S64x1024_S64x1024x1_0_1 (Host.reduceAdd (mulf X X) (constant S_ .f32 0x00000000#32) reducesTo_S64x1024x128_S64x1024_d2 h_S_))) (broadcastInDim S64x1024x1 ![] bcast_S_S64x1024x1 (constant S_ .f32 0x2B8CBCCC#32))))) (Host.divf X (broadcastInDim S64x1024x128 ![0, 1, 2] bcast_S64x1024x1_S64x1024x128_0_1_2 (maximumf (Host.sqrt (broadcastInDim S64x1024x1 ![0, 1] bcast_S64x1024_S64x1024x1_0_1 (Host.reduceAdd (mulf X X) (constant S_ .f32 0x00000000#32) reducesTo_S64x1024x128_S64x1024_d2 h_S_))) (broadcastInDim S64x1024x1 ![] bcast_S_S64x1024x1 (constant S_ .f32 0x2B8CBCCC#32)))))) (broadcastInDim S64x1024x1024 ![] bcast_S_S64x1024x1024 (constant S_ .f32 0x3F800000#32))) (subf (Host.dotGeneral dot_S64x1024x128_S64x1024x128_S64x1024x1024_2_2_1_1_0_0 none (Host.divf X (broadcastInDim S64x1024x128 ![0, 1, 2] bcast_S64x1024x1_S64x1024x128_0_1_2 (maximumf (Host.sqrt (broadcastInDim S64x1024x1 ![0, 1] bcast_S64x1024_S64x1024x1_0_1 (Host.reduceAdd (mulf X X) (constant S_ .f32 0x00000000#32) reducesTo_S64x1024x128_S64x1024_d2 h_S_))) (broadcastInDim S64x1024x1 ![] bcast_S_S64x1024x1 (constant S_ .f32 0x2B8CBCCC#32))))) (Host.divf X (broadcastInDim S64x1024x128 ![0, 1, 2] bcast_S64x1024x1_S64x1024x128_0_1_2 (maximumf (Host.sqrt (broadcastInDim S64x1024x1 ![0, 1] bcast_S64x1024_S64x1024x1_0_1 (Host.reduceAdd (mulf X X) (constant S_ .f32 0x00000000#32) reducesTo_S64x1024x128_S64x1024_d2 h_S_))) (broadcastInDim S64x1024x1 ![] bcast_S_S64x1024x1 (constant S_ .f32 0x2B8CBCCC#32)))))) (broadcastInDim S64x1024x1024 ![] bcast_S_S64x1024x1024 (constant S_ .f32 0x3F800000#32)))) (constant S_ .f32 0x00000000#32) reducesTo_S64x1024x1024_S_d0_1_2 h_S_) (constant S_ .f32 0x4C800000#32)
      = fun _ => ((lossRef x : ℝ) : EReal) :=
  (val_main_v10_eq X).trans (ref_val X x hX)

end Cert.Sim.Ref

end
-- ==== Proof.Preserves.lean ====
/-
  The kernel's clamp constant, as the idealization reads it.

  The kernel clamps a row's sum of squares from below by the single-precision constant nearest 10⁻²⁴.  Its
  idealization names that constant and reads it as the rational 5316911940649 / 5316911983139663491615228241121378304,
  which is the square of the exact value of the single-precision number nearest 10⁻¹²
  (2305843 / 2305843009213693952): so that the clamped sum of squares has the clamped norm as its square root.
  The table of named constants gives the name that value, at each of the eight places where the constant is written.
-/
import proofs.«174938_g53377853555121_feedfinal_227_15_alg».proof.Defs

noncomputable section

namespace Cert.Sim

open Idealize.ShloMosaic

/-- One place: the named clamp constant denotes, on the extended reals, the rational the table gives it. -/
theorem preserves_one :
    IdealRules.named_const.Statement Cert.KernelIdeal.κ "eps_sq" .f32 0x179ABE15#32
      ((5316911940649 / 5316911983139663491615228241121378304 : ℝ) : EReal) :=
  IdealRules.named_const.statement Cert.KernelIdeal.κ "eps_sq" .f32 0x179ABE15#32
    ((5316911940649 / 5316911983139663491615228241121378304 : ℝ) : EReal) rfl

/-- The kernel's clamp constant is read, at all eight places, as the square of the exact value of the
    single-precision 10⁻¹². -/
theorem preserves : Cert.preserves_Kernel_KernelIdeal :=
  ⟨preserves_one, preserves_one, preserves_one, preserves_one, preserves_one, preserves_one, preserves_one, preserves_one⟩

end Cert.Sim

end
-- ==== Proof.lean ====
/-
  The certificate of a batched cosine-similarity loss.

  The input is 64 batches of 1024 rows of 128 numbers. Each row is divided by its Euclidean norm, clamped from below;
  S = Xn Xnᵀ is the 1024 × 1024 matrix of inner products of a batch's normalised rows; the loss is the mean of (S − 1)²
  over all batches and all pairs of rows. The reference forms S. The kernel never does: for each batch it forms the
  128 × 128 Gram matrix G = Xnᵀ Xn of the COLUMNS and the vector m = Xnᵀ 1 of column sums, and uses
      Σ_{s,t} S_st² = ‖G‖²_F,      Σ_{s,t} S_st = ‖m‖²,      so that      Σ_{s,t} (S_st − 1)² = ‖G‖²_F − 2 ‖m‖² + 1024².
  It visits the batches eight per grid point, two per row of a 4 × 256 accumulator it carries across the eight points,
  and at the last point sums the accumulator, multiplies by 1 / (64 · 1024 · 1024) and adds 1.

  The two programs clamp differently in spelling only: the reference divides by max(√ss, D), the kernel multiplies by
  the reciprocal square root of max(ss, D²), where D is the single-precision number nearest 10⁻¹² and the kernel's
  constant is read as D² exactly. Since the square root is monotone these are the same number.

  Over the extended reals the identities above need every entry to be a real number, which is the precondition: then
  each side is the coercion of a real expression, and the two real expressions are equal by exchanging finite sums.

  The frames: each kernel runs its eight points in order; the proof data follow the accumulator from point to point.
  At the first point the body reads the accumulator before anything was stored there, but selects the fresh value
  whatever it read, so what the accumulator holds afterwards does not depend on it.
-/
import proofs.«174938_g53377853555121_feedfinal_227_15_alg».proof.Defs
import proofs.«174938_g53377853555121_feedfinal_227_15_alg».proof.Proof.Gen.Kernel
import proofs.«174938_g53377853555121_feedfinal_227_15_alg».proof.Proof.Gen.KernelIdeal
import proofs.«174938_g53377853555121_feedfinal_227_15_alg».proof.Proof.Gen.ReferenceIdeal
import proofs.«174938_g53377853555121_feedfinal_227_15_alg».proof.Proof.Gen.Pre_finite_inputs
import proofs.«174938_g53377853555121_feedfinal_227_15_alg».proof.Proof.Gen.ReferenceIdeal.Run
import proofs.«174938_g53377853555121_feedfinal_227_15_alg».proof.Proof.Gen.ReferenceIdeal.Read
import proofs.«174938_g53377853555121_feedfinal_227_15_alg».proof.Proof.BitsFrame
import proofs.«174938_g53377853555121_feedfinal_227_15_alg».proof.Proof.IdealOut
import proofs.«174938_g53377853555121_feedfinal_227_15_alg».proof.Proof.IdealResult
import proofs.«174938_g53377853555121_feedfinal_227_15_alg».proof.Proof.RefFinite
import proofs.«174938_g53377853555121_feedfinal_227_15_alg».proof.Proof.RefValue
import proofs.«174938_g53377853555121_feedfinal_227_15_alg».proof.Proof.SimAlgebra
import proofs.«174938_g53377853555121_feedfinal_227_15_alg».proof.Proof.Preserves
import Idealize.ShloMosaic.Lib.Pipeline.Value
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel, as printed, runs to the end and leaves its argument as it found it. -/
theorem frame_kernel : Cert.frame_Kernel := fun m ρ _ => Cert.Kernel.Body.frame m ρ

/-- So does its idealization. -/
theorem frame_kernelIdeal : Cert.frame_KernelIdeal := fun m ρ _ => Cert.KernelIdeal.Body.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- A one-entry array reshaped to a scalar is that entry. -/
theorem scalar_of_entry (v : Vec Ideal Cert.KernelIdeal.S1x1 .f32) (h : Cert.KernelIdeal.S1x1.ShapeCasts Cert.KernelIdeal.S_) :
    shapeCast Cert.KernelIdeal.S_ v h = fun _ => v (ix2 (0 : Fin 1) (0 : Fin 1)) := by
  funext j
  refine shapeCast_apply v h j (ix2 (0 : Fin 1) (0 : Fin 1)) ?_
  have h1 : (Cert.KernelIdeal.S1x1.rowMajor (ix2 (0 : Fin 1) (0 : Fin 1))).val < 1 := (Cert.KernelIdeal.S1x1.rowMajor _).isLt
  have h2 : (Cert.KernelIdeal.S_.rowMajor j).val < 1 := (Cert.KernelIdeal.S_.rowMajor j).isLt
  omega

/-- On real inputs both idealized programs end with the same scalar: the reference's loss, which the kernel's
    column-wise form equals. -/
theorem algebraic : Cert.algebraic_KernelIdeal_ReferenceIdeal := by
  intro m ρ m' ρ' hpre hagree
  have hreal : ∀ c : Dev Cert.KernelIdeal.nD, ∃ x : Cert.Sim.Arr, ∀ b s d,
      m ((c.tc : Thread Cert.KernelIdeal.nD Cert.KernelIdeal.τ).loc Cert.KernelIdeal.main_arg0) (ix3 b s d) = ((x b s d : ℝ) : EReal) :=
    fun c => Cert.Sim.Ref.finite_of_pre _ (hpre c)
  choose x hx using hreal
  refine ⟨fun c => fun _ => ((Cert.Sim.lossRef (x c) : ℝ) : EReal), ?_, ?_⟩
  · refine (θ_run Cert.KernelIdeal.defs _ _).mono (fun r h c => ⟨?_, (h c).2⟩) (Cert.KernelIdeal.Body.run_value (F := Ideal) m ρ)
    rw [(h c).1, scalar_of_entry]
    funext _
    exact (Cert.KernelIdeal.Body.out_real m c (x c) (hx c) _).trans (congrArg (fun v : ℝ => (v : EReal)) (Cert.Sim.lossKer_eq_lossRef (x c)))
  · refine (θ_run Cert.ReferenceIdeal.defs _ _).mono (fun r h c => ⟨(h c).1.trans ?_, (h c).2⟩)
      (Cert.ReferenceIdeal.Value.run (F := Ideal) m' ρ')
    exact Cert.Sim.Ref.ref_run _ (x c) (fun b s d => by rw [hagree c]; exact hx c b s d)

theorem claim : Cert.Claim := ⟨Cert.Kernel.Gen.facts, Cert.KernelIdeal.Gen.facts, Cert.ReferenceIdeal.Gen.facts, Cert.Pre_finite_inputs.Gen.facts,
  frame_kernel, frame_kernelIdeal, frame_reference, Cert.Sim.preserves, algebraic⟩

end Cert.Proof

end
